-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v65) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x1024 : Shape := ⟨2, ![256, 1024]⟩
abbrev S1024 : Shape := ⟨1, ![1024]⟩
abbrev S1024x32 : Shape := ⟨2, ![1024, 32]⟩
abbrev S32 : Shape := ⟨1, ![32]⟩
abbrev S1024x96 : Shape := ⟨2, ![1024, 96]⟩
abbrev S96 : Shape := ⟨1, ![96]⟩
abbrev S1024x192 : Shape := ⟨2, ![1024, 192]⟩
abbrev S192 : Shape := ⟨1, ![192]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x32 : S_.BroadcastsInDim S1024x32 (![] : Fin 0 → Fin S1024x32.rank)
  reducesTo_S1024x32_S_d0_1 : S1024x32.ReducesTo [0, 1] S_
  bcast_S_S32 : S_.BroadcastsInDim S32 (![] : Fin 0 → Fin S32.rank)
  reducesTo_S32_S_d0 : S32.ReducesTo [0] S_
  bcast_S_S1024x96 : S_.BroadcastsInDim S1024x96 (![] : Fin 0 → Fin S1024x96.rank)
  reducesTo_S1024x96_S_d0_1 : S1024x96.ReducesTo [0, 1] S_
  bcast_S_S96 : S_.BroadcastsInDim S96 (![] : Fin 0 → Fin S96.rank)
  reducesTo_S96_S_d0 : S96.ReducesTo [0] S_
  bcast_S_S1024x192 : S_.BroadcastsInDim S1024x192 (![] : Fin 0 → Fin S1024x192.rank)
  reducesTo_S1024x192_S_d0_1 : S1024x192.ReducesTo [0, 1] S_
  bcast_S_S192 : S_.BroadcastsInDim S192 (![] : Fin 0 → Fin S192.rank)
  reducesTo_S192_S_d0 : S192.ReducesTo [0] S_

variable [Facts]

def fn_part2 {F : FTy → Type} [FloatOps F] (main_arg7 : FVec F S1024x192 .f32) (main_arg8 : FVec F S192 .f32) (main_v33 : IVec S_ 1) : IVec S_ 1 :=
  let main_v34 : FVec F S1024x192 .f32 := Host.absf main_arg7
  let main_cst_12 : FVec F S_ .f32 := constant S_ .f32 0x7F800000#32
  let main_v35 : FVec F S1024x192 .f32 := broadcastInDim S1024x192 ![] bcast_S_S1024x192 main_cst_12
  let main_v36 : IVec S1024x192 1 := cmpf .olt main_v34 main_v35
  let main_c_13 : IVec S_ 1 := constantI S_ 1 1#1
  let main_v37 : IVec S_ 1 := (fun x v => Host.reduce IntOp.andi x v reducesTo_S1024x192_S_d0_1 h_S_) main_v36 main_c_13
  let main_v38 : IVec S_ 1 := andi main_v33 main_v37
  let main_v39 : FVec F S192 .f32 := Host.absf main_arg8
  let main_cst_14 : FVec F S_ .f32 := constant S_ .f32 0x7F800000#32
  let main_v40 : FVec F S192 .f32 := broadcastInDim S192 ![] bcast_S_S192 main_cst_14
  let main_v41 : IVec S192 1 := cmpf .olt main_v39 main_v40
  let main_c_15 : IVec S_ 1 := constantI S_ 1 1#1
  let main_v42 : IVec S_ 1 := (fun x v => Host.reduce IntOp.andi x v reducesTo_S192_S_d0 h_S_) main_v41 main_c_15
  let main_v43 : IVec S_ 1 := andi main_v38 main_v42
  main_v43

def fn_part1 {F : FTy → Type} [FloatOps F] (main_arg4 : FVec F S32 .f32) (main_arg5 : FVec F S1024x96 .f32) (main_arg6 : FVec F S96 .f32) (main_arg7 : FVec F S1024x192 .f32) (main_arg8 : FVec F S192 .f32) (main_v13 : IVec S_ 1) (main_v16 : IVec S1024x32 1) : IVec S_ 1 :=
  let main_c_5 : IVec S_ 1 := constantI S_ 1 1#1
  let main_v17 : IVec S_ 1 := (fun x v => Host.reduce IntOp.andi x v reducesTo_S1024x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S1024x96 .f32 := Host.absf main_arg5
  let main_cst_8 : FVec F S_ .f32 := constant S_ .f32 0x7F800000#32
  let main_v25 : FVec F S1024x96 .f32 := broadcastInDim S1024x96 ![] bcast_S_S1024x96 main_cst_8
  let main_v26 : IVec S1024x96 1 := cmpf .olt main_v24 main_v25
  let main_c_9 : IVec S_ 1 := constantI S_ 1 1#1
  let main_v27 : IVec S_ 1 := (fun x v => Host.reduce IntOp.andi x v reducesTo_S1024x96_S_d0_1 h_S_) main_v26 main_c_9
  let main_v28 : IVec S_ 1 := andi main_v23 main_v27
  let main_v29 : FVec F S96 .f32 := Host.absf main_arg6
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg7 main_arg8 main_v33

def fn {F : FTy → Type} [FloatOps F] (main_arg0 : FVec F S131072x256 .f32) (main_arg1 : FVec F S256x1024 .f32) (main_arg2 : FVec F S1024 .f32) (main_arg3 : FVec F S1024x32 .f32) (main_arg4 : FVec F S32 .f32) (main_arg5 : FVec F S1024x96 .f32) (main_arg6 : FVec F S96 .f32) (main_arg7 : FVec F S1024x192 .f32) (main_arg8 : FVec F S192 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x32 .f32 := Host.absf main_arg3
  let main_cst_4 : FVec F S_ .f32 := constant S_ .f32 0x7F800000#32
  let main_v15 : FVec F S1024x32 .f32 := broadcastInDim S1024x32 ![] bcast_S_S1024x32 main_cst_4
  let main_v16 : IVec S1024x32 1 := cmpf .olt main_v14 main_v15
  fn_part1 (F := F) main_arg4 main_arg5 main_arg6 main_arg7 main_arg8 main_v13 main_v16
-- ==== Kernel.lean ====
abbrev S131072x256 : Shape := ⟨2, ![131072, 256]⟩
abbrev S256x1024 : Shape := ⟨2, ![256, 1024]⟩
abbrev S1024 : Shape := ⟨1, ![1024]⟩
abbrev S1024x32 : Shape := ⟨2, ![1024, 32]⟩
abbrev S32 : Shape := ⟨1, ![32]⟩
abbrev S1024x96 : Shape := ⟨2, ![1024, 96]⟩
abbrev S96 : Shape := ⟨1, ![96]⟩
abbrev S1024x192 : Shape := ⟨2, ![1024, 192]⟩
abbrev S192 : Shape := ⟨1, ![192]⟩
abbrev S6 : Shape := ⟨1, ![6]⟩
abbrev S3 : Shape := ⟨1, ![3]⟩
abbrev S131072x32 : Shape := ⟨2, ![131072, 32]⟩
abbrev S131072x96 : Shape := ⟨2, ![131072, 96]⟩
abbrev S131072x192 : Shape := ⟨2, ![131072, 192]⟩
abbrev S1024x256 : Shape := ⟨2, ![1024, 256]⟩
abbrev S1024x1024 : Shape := ⟨2, ![1024, 1024]⟩
abbrev S1x1024 : Shape := ⟨2, ![1, 1024]⟩
abbrev S1x32 : Shape := ⟨2, ![1, 32]⟩
abbrev S1024x1 : Shape := ⟨2, ![1024, 1]⟩
abbrev S1x96 : Shape := ⟨2, ![1, 96]⟩
abbrev S1x192 : Shape := ⟨2, ![1, 192]⟩
abbrev S131072x32x3 : Shape := ⟨3, ![131072, 32, 3]⟩
abbrev S131072x32x6 : Shape := ⟨3, ![131072, 32, 6]⟩
abbrev S_ : Shape := ⟨0, ![]⟩
abbrev S131072x32x3x3 : Shape := ⟨4, ![131072, 32, 3, 3]⟩
abbrev S6x1 : Shape := ⟨2, ![6, 1]⟩
abbrev S6x2 : Shape := ⟨2, ![6, 2]⟩
abbrev S3x1 : Shape := ⟨2, ![3, 1]⟩
abbrev S3x2 : Shape := ⟨2, ![3, 2]⟩

abbrev nBuf : Space → Nat
  | .hbm => 109
  | .vmem => 16
  | .smem => 0
  | _ => 0

abbrev bufTy : (tb : Table) → Fin (tcTables nBuf tb) → BufTy
  | .hbm, ⟨0, _⟩ => ⟨S131072x256, .f32⟩
  | .hbm, ⟨1, _⟩ => ⟨S256x1024, .f32⟩
  | .hbm, ⟨2, _⟩ => ⟨S1024, .f32⟩
  | .hbm, ⟨3, _⟩ => ⟨S1024x32, .f32⟩
  | .hbm, ⟨4, _⟩ => ⟨S32, .f32⟩
  | .hbm, ⟨5, _⟩ => ⟨S1024x96, .f32⟩
  | .hbm, ⟨6, _⟩ => ⟨S96, .f32⟩
  | .hbm, ⟨7, _⟩ => ⟨S1024x192, .f32⟩
  | .hbm, ⟨8, _⟩ => ⟨S192, .f32⟩
  | .hbm, ⟨9, _⟩ => ⟨S6, .i32⟩
  | .hbm, ⟨10, _⟩ => ⟨S6, .i1⟩
  | .hbm, ⟨11, _⟩ => ⟨S6, .i32⟩
  | .hbm, ⟨12, _⟩ => ⟨S6, .i1⟩
  | .hbm, ⟨13, _⟩ => ⟨S3, .i32⟩
  | .hbm, ⟨14, _⟩ => ⟨S3, .i1⟩
  | .hbm, ⟨15, _⟩ => ⟨S3, .i1⟩
  | .hbm, ⟨16, _⟩ => ⟨S3, .i1⟩
  | .hbm, ⟨17, _⟩ => ⟨S3, .i1⟩
  | .hbm, ⟨18, _⟩ => ⟨S3, .i32⟩
  | .hbm, ⟨19, _⟩ => ⟨S3, .i1⟩
  | .hbm, ⟨20, _⟩ => ⟨S3, .i32⟩
  | .hbm, ⟨21, _⟩ => ⟨S3, .i1⟩
  | .hbm, ⟨22, _⟩ => ⟨S3, .i1⟩
  | .hbm, ⟨23, _⟩ => ⟨S3, .i1⟩
  | .hbm, ⟨24, _⟩ => ⟨S3, .i32⟩
  | .hbm, ⟨25, _⟩ => ⟨S3, .i1⟩
  | .hbm, ⟨26, _⟩ => ⟨S3, .i32⟩
  | .hbm, ⟨27, _⟩ => ⟨S3, .i1⟩
  | .hbm, ⟨28, _⟩ => ⟨S131072x32, .f32⟩
  | .hbm, ⟨29, _⟩ => ⟨S131072x96, .f32⟩
  | .hbm, ⟨30, _⟩ => ⟨S131072x192, .f32⟩
  | .hbm, ⟨31, _⟩ => ⟨S131072x32x3, .f32⟩
  | .hbm, ⟨32, _⟩ => ⟨S131072x32x6, .f32⟩
  | .hbm, ⟨33, _⟩ => ⟨S_, .f32⟩
  | .hbm, ⟨34, _⟩ => ⟨S131072x32x3x3, .f32⟩
  | .hbm, ⟨35, _⟩ => ⟨S_, .i32⟩
  | .hbm, ⟨36, _⟩ => ⟨S6, .i32⟩
  | .hbm, ⟨37, _⟩ => ⟨S6, .i32⟩
  | .hbm, ⟨38, _⟩ => ⟨S6, .i32⟩
  | .hbm, ⟨39, _⟩ => ⟨S_, .i32⟩
  | .hbm, ⟨40, _⟩ => ⟨S6, .i32⟩
  | .hbm, ⟨41, _⟩ => ⟨S6, .i32⟩
  | .hbm, ⟨42, _⟩ => ⟨S6, .i32⟩
  | .hbm, ⟨43, _⟩ => ⟨S6x1, .i32⟩
  | .hbm, ⟨44, _⟩ => ⟨S6x1, .i32⟩
  | .hbm, ⟨45, _⟩ => ⟨S6x2, .i32⟩
  | .hbm, ⟨46, _⟩ => ⟨S131072x32x3x3, .f32⟩
  | .hbm, ⟨47, _⟩ => ⟨S_, .i32⟩
  | .hbm, ⟨48, _⟩ => ⟨S3, .i32⟩
  | .hbm, ⟨49, _⟩ => ⟨S3, .i32⟩
  | .hbm, ⟨50, _⟩ => ⟨S3, .i32⟩
  | .hbm, ⟨51, _⟩ => ⟨S_, .i32⟩
  | .hbm, ⟨52, _⟩ => ⟨S3, .i32⟩
  | .hbm, ⟨53, _⟩ => ⟨S3, .i32⟩
  | .hbm, ⟨54, _⟩ => ⟨S3, .i32⟩
  | .hbm, ⟨55, _⟩ => ⟨S3x1, .i32⟩
  | .hbm, ⟨56, _⟩ => ⟨S3x1, .i32⟩
  | .hbm, ⟨57, _⟩ => ⟨S3x2, .i32⟩
  | .hbm, ⟨58, _⟩ => ⟨S131072x32x3, .f32⟩
  | .hbm, ⟨59, _⟩ => ⟨S131072x32x3, .f32⟩
  | .hbm, ⟨60, _⟩ => ⟨S_, .i32⟩
  | .hbm, ⟨61, _⟩ => ⟨S3, .i32⟩
  | .hbm, ⟨62, _⟩ => ⟨S3, .i32⟩
  | .hbm, ⟨63, _⟩ => ⟨S3, .i32⟩
  | .hbm, ⟨64, _⟩ => ⟨S_, .i32⟩
  | .hbm, ⟨65, _⟩ => ⟨S3, .i32⟩
  | .hbm, ⟨66, _⟩ => ⟨S3, .i32⟩
  | .hbm, ⟨67, _⟩ => ⟨S3, .i32⟩
  | .hbm, ⟨68, _⟩ => ⟨S3x1, .i32⟩
  | .hbm, ⟨69, _⟩ => ⟨S3x1, .i32⟩
  | .hbm, ⟨70, _⟩ => ⟨S3x2, .i32⟩
  | .hbm, ⟨71, _⟩ => ⟨S131072x32x3x3, .f32⟩
  | .hbm, ⟨72, _⟩ => ⟨S_, .i32⟩
  | .hbm, ⟨73, _⟩ => ⟨S3, .i32⟩
  | .hbm, ⟨74, _⟩ => ⟨S3, .i32⟩
  | .hbm, ⟨75, _⟩ => ⟨S3, .i32⟩
  | .hbm, ⟨76, _⟩ => ⟨S_, .i32⟩
  | .hbm, ⟨77, _⟩ => ⟨S3, .i32⟩
  | .hbm, ⟨78, _⟩ => ⟨S3, .i32⟩
  | .hbm, ⟨79, _⟩ => ⟨S3, .i32⟩
  | .hbm, ⟨80, _⟩ => ⟨S3x1, .i32⟩
  | .hbm, ⟨81, _⟩ => ⟨S3x1, .i32⟩
  | .hbm, ⟨82, _⟩ => ⟨S3x2, .i32⟩
  | .hbm, ⟨83, _⟩ => ⟨S131072x32x3, .f32⟩
  | .hbm, ⟨84, _⟩ => ⟨S131072x32x3, .f32⟩
  | .hbm, ⟨85, _⟩ => ⟨S_, .i32⟩
  | .hbm, ⟨86, _⟩ => ⟨S3, .i32⟩
  | .hbm, ⟨87, _⟩ => ⟨S3, .i32⟩
  | .hbm, ⟨88, _⟩ => ⟨S3, .i32⟩
  | .hbm, ⟨89, _⟩ => ⟨S_, .i32⟩
  | .hbm, ⟨90, _⟩ => ⟨S3, .i32⟩
  | .hbm, ⟨91, _⟩ => ⟨S3, .i32⟩
  | .hbm, ⟨92, _⟩ => ⟨S3, .i32⟩
  | .hbm, ⟨93, _⟩ => ⟨S3x1, .i32⟩
  | .hbm, ⟨94, _⟩ => ⟨S3x1, .i32⟩
  | .hbm, ⟨95, _⟩ => ⟨S3x2, .i32⟩
  | .hbm, ⟨96, _⟩ => ⟨S131072x32x3x3, .f32⟩
  | .hbm, ⟨97, _⟩ => ⟨S_, .i32⟩
  | .hbm, ⟨98, _⟩ => ⟨S3, .i32⟩
  | .hbm, ⟨99, _⟩ => ⟨S3, .i32⟩
  | .hbm, ⟨100, _⟩ => ⟨S3, .i32⟩
  | .hbm, ⟨101, _⟩ => ⟨S_, .i32⟩
  | .hbm, ⟨102, _⟩ => ⟨S3, .i32⟩
  | .hbm, ⟨103, _⟩ => ⟨S3, .i32⟩
  | .hbm, ⟨104, _⟩ => ⟨S3, .i32⟩
  | .hbm, ⟨105, _⟩ => ⟨S3x1, .i32⟩
  | .hbm, ⟨106, _⟩ => ⟨S3x1, .i32⟩
  | .hbm, ⟨107, _⟩ => ⟨S3x2, .i32⟩
  | .hbm, ⟨108, _⟩ => ⟨S131072x32x3x3, .f32⟩
  | .local _ .vmem, ⟨0, _⟩ => ⟨S1024x256, .f32⟩
  | .local _ .vmem, ⟨1, _⟩ => ⟨S1024x256, .f32⟩
  | .local _ .vmem, ⟨2, _⟩ => ⟨S256x1024, .f32⟩
  | .local _ .vmem, ⟨3, _⟩ => ⟨S1024, .f32⟩
  | .local _ .vmem, ⟨4, _⟩ => ⟨S1024x32, .f32⟩
  | .local _ .vmem, ⟨5, _⟩ => ⟨S32, .f32⟩
  | .local _ .vmem, ⟨6, _⟩ => ⟨S1024x96, .f32⟩
  | .local _ .vmem, ⟨7, _⟩ => ⟨S96, .f32⟩
  | .local _ .vmem, ⟨8, _⟩ => ⟨S1024x192, .f32⟩
  | .local _ .vmem, ⟨9, _⟩ => ⟨S192, .f32⟩
  | .local _ .vmem, ⟨10, _⟩ => ⟨S1024x32, .f32⟩
  | .local _ .vmem, ⟨11, _⟩ => ⟨S1024x32, .f32⟩
  | .local _ .vmem, ⟨12, _⟩ => ⟨S1024x96, .f32⟩
  | .local _ .vmem, ⟨13, _⟩ => ⟨S1024x96, .f32⟩
  | .local _ .vmem, ⟨14, _⟩ => ⟨S1024x192, .f32⟩
  | .local _ .vmem, ⟨15, _⟩ => ⟨S1024x192, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_c_3 : Ref sig .tc := ⟨.hbm, 13, rfl⟩
abbrev main_c_4 : Ref sig .tc := ⟨.hbm, 14, rfl⟩
abbrev main_c_5 : Ref sig .tc := ⟨.hbm, 15, rfl⟩
abbrev main_c_6 : Ref sig .tc := ⟨.hbm, 16, rfl⟩
abbrev main_c_7 : Ref sig .tc := ⟨.hbm, 17, rfl⟩
abbrev main_c_8 : Ref sig .tc := ⟨.hbm, 18, rfl⟩
abbrev main_c_9 : Ref sig .tc := ⟨.hbm, 19, rfl⟩
abbrev main_c_10 : Ref sig .tc := ⟨.hbm, 20, rfl⟩
abbrev main_c_11 : Ref sig .tc := ⟨.hbm, 21, rfl⟩
abbrev main_c_12 : Ref sig .tc := ⟨.hbm, 22, rfl⟩
abbrev main_c_13 : Ref sig .tc := ⟨.hbm, 23, rfl⟩
abbrev main_c_14 : Ref sig .tc := ⟨.hbm, 24, rfl⟩
abbrev main_c_15 : Ref sig .tc := ⟨.hbm, 25, rfl⟩
abbrev main_c_16 : Ref sig .tc := ⟨.hbm, 26, rfl⟩
abbrev main_c_17 : Ref sig .tc := ⟨.hbm, 27, rfl⟩
abbrev main_v0_0 : Ref sig .tc := ⟨.hbm, 28, rfl⟩
abbrev main_v0_1 : Ref sig .tc := ⟨.hbm, 29, rfl⟩
abbrev main_v0_2 : Ref sig .tc := ⟨.hbm, 30, rfl⟩
abbrev main_v1 : Ref sig .tc := ⟨.hbm, 31, rfl⟩
abbrev main_v2 : Ref sig .tc := ⟨.hbm, 32, rfl⟩
abbrev main_cst : Ref sig .tc := ⟨.hbm, 33, rfl⟩
abbrev main_v3 : Ref sig .tc := ⟨.hbm, 34, rfl⟩
abbrev main_c_18 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_c_19 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_c_20 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_c_21 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_c_22 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_c_23 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_c_24 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_c_25 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_c_26 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_c_27 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_c_28 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_c_29 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x96 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1024x32_S1024x32_0_0 : ∀ a, (![0, 0] : Fin 2 → Nat) a + S1024x32.size a ≤ S1024x32.size a
  h_S1024x32 : 0 < S1024x32.numel
  inb_S32_S32_0 : ∀ a, (![0] : Fin 1 → Nat) a + S32.size a ≤ S32.size a
  h_S32 : 0 < S32.numel
  shapeCasts_S32_S1x32 : S32.ShapeCasts S1x32
  broadcasts_S1x32_S1024x32 : S1x32.Broadcasts S1024x32
  reduces_S1024x32_S1024 : S1024x32.Reduces [1] S1024
  shapeCasts_S1024_S1024x1 : S1024.ShapeCasts S1024x1
  broadcasts_S1024x1_S1024x32 : S1024x1.Broadcasts S1024x32
  inb_S1024x96_S1024x96_0_0 : ∀ a, (![0, 0] : Fin 2 → Nat) a + S1024x96.size a ≤ S1024x96.size a
  h_S1024x96 : 0 < S1024x96.numel
  inb_S96_S96_0 : ∀ a, (![0] : Fin 1 → Nat) a + S96.size a ≤ S96.size a
  h_S96 : 0 < S96.numel
  shapeCasts_S96_S1x96 : S96.ShapeCasts S1x96
  broadcasts_S1x96_S1024x96 : S1x96.Broadcasts S1024x96
  inb_S1024x192_S1024x192_0_0 : ∀ a, (![0, 0] : Fin 2 → Nat) a + S1024x192.size a ≤ S1024x192.size a
  h_S1024x192 : 0 < S1024x192.numel
  inb_S192_S192_0 : ∀ a, (![0] : Fin 1 → Nat) a + S192.size a ≤ S192.size a
  h_S192 : 0 < S192.numel
  shapeCasts_S192_S1x192 : S192.ShapeCasts S1x192
  broadcasts_S1x192_S1024x192 : S1x192.Broadcasts S1024x192
  shapeCasts_S131072x96_S131072x32x3 : S131072x96.ShapeCasts S131072x32x3
  shapeCasts_S131072x192_S131072x32x6 : S131072x192.ShapeCasts S131072x32x6
  bcast_S_S131072x32x3x3 : S_.BroadcastsInDim S131072x32x3x3 (![] : Fin 0 → Fin S131072x32x3x3.rank)
  bcast_S_S6 : S_.BroadcastsInDim S6 (![] : Fin 0 → Fin S6.rank)
  bcast_S6_S6x1_0 : S6.BroadcastsInDim S6x1 (![0] : Fin 1 → Fin S6x1.rank)
  concatenates_S6x1_S6x1_S6x2_d1 : Shape.Concatenates [S6x1, S6x1] S6x2 1
  bcast_S_S3 : S_.BroadcastsInDim S3 (![] : Fin 0 → Fin S3.rank)
  bcast_S3_S3x1_0 : S3.BroadcastsInDim S3x1 (![0] : Fin 1 → Fin S3x1.rank)
  concatenates_S3x1_S3x1_S3x2_d1 : Shape.Concatenates [S3x1, S3x1] S3x2 1
  dot_S1024x256_S256x1024_S1024x1024_1_0_0_1_n_n_wf : DotDims.WF S1024x256 S256x1024 S1024x1024 [1] [0] [0] [1] [] []
  dot_S1024x1024_S1024x32_S1024x32_1_0_0_1_n_n_wf : DotDims.WF S1024x1024 S1024x32 S1024x32 [1] [0] [0] [1] [] []
  dot_S1024x1024_S1024x96_S1024x96_1_0_0_1_n_n_wf : DotDims.WF S1024x1024 S1024x96 S1024x96 [1] [0] [0] [1] [] []
  dot_S1024x1024_S1024x192_S1024x192_1_0_0_1_n_n_wf : DotDims.WF S1024x1024 S1024x192 S1024x192 [1] [0] [0] [1] [] []
  scatter_S131072x32x3x3_S6x2_S131072x32x6_01_23_23_1_wf : ScatterDims.WF S131072x32x3x3 S6x2 S131072x32x6 [0, 1] [2, 3] [2, 3] 1
  gather_S131072x32x3x3_S3x2_S131072x32x3_01_23_n_n_23_1_1310723211_wf : GatherDims.WF S131072x32x3x3 S3x2 S131072x32x3 [0, 1] [2, 3] [] [2, 3] [] 1 ![131072, 32, 1, 1]
  scatter_S131072x32x3x3_S3x2_S131072x32x3_01_23_23_1_wf : ScatterDims.WF S131072x32x3x3 S3x2 S131072x32x3 [0, 1] [2, 3] [2, 3] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S131072x256.size a
  hwx0_0 : ∀ i : grid0.Coords, EltTy.bits .f32 = 32 ∨ (Rect.block (s := S131072x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S1024x32.size a
  hwx0_3 : ∀ i : grid0.Coords, EltTy.bits .f32 = 32 ∨ (Rect.block (s := S1024x32) S1024x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x96.size a ≤ S1024x96.size a
  hwx0_5 : ∀ i : grid0.Coords, EltTy.bits .f32 = 32 ∨ (Rect.block (s := S1024x96) S1024x96.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S96.size a ≤ S96.size a
  hwx0_6 : ∀ i : grid0.Coords, EltTy.bits .f32 = 32 ∨ (Rect.block (s := S96) S96.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x192.size a ≤ S1024x192.size a
  hwx0_7 : ∀ i : grid0.Coords, EltTy.bits .f32 = 32 ∨ (Rect.block (s := S1024x192) S1024x192.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S192.size a ≤ S192.size a
  hwx0_8 : ∀ i : grid0.Coords, EltTy.bits .f32 = 32 ∨ (Rect.block (s := S192) S192.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x32.size a ≤ S131072x32.size a
  hwx0_9 : ∀ i : grid0.Coords, EltTy.bits .f32 = 32 ∨ (Rect.block (s := S131072x32) S1024x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x96.size a ≤ S131072x96.size a
  hwx0_10 : ∀ i : grid0.Coords, EltTy.bits .f32 = 32 ∨ (Rect.block (s := S131072x96) S1024x96.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x192.size a ≤ S131072x192.size a
  hwx0_11 : ∀ i : grid0.Coords, EltTy.bits .f32 = 32 ∨ (Rect.block (s := S131072x192) S1024x192.size (cc0_transform_11 i) (hinb0_11 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x32_S1024x32_1_0_0_1_n_n : DotDims S1024x1024 S1024x32 S1024x32 where
  lhsContracting := [1]
  rhsContracting := [0]
  lhsNonContracting := [0]
  rhsNonContracting := [1]
  lhsBatch := []
  rhsBatch := []
  wf := dot_S1024x1024_S1024x32_S1024x32_1_0_0_1_n_n_wf
def dot_S1024x1024_S1024x96_S1024x96_1_0_0_1_n_n : DotDims S1024x1024 S1024x96 S1024x96 where
  lhsContracting := [1]
  rhsContracting := [0]
  lhsNonContracting := [0]
  rhsNonContracting := [1]
  lhsBatch := []
  rhsBatch := []
  wf := dot_S1024x1024_S1024x96_S1024x96_1_0_0_1_n_n_wf
def dot_S1024x1024_S1024x192_S1024x192_1_0_0_1_n_n : DotDims S1024x1024 S1024x192 S1024x192 where
  lhsContracting := [1]
  rhsContracting := [0]
  lhsNonContracting := [0]
  rhsNonContracting := [1]
  lhsBatch := []
  rhsBatch := []
  wf := dot_S1024x1024_S1024x192_S1024x192_1_0_0_1_n_n_wf
def scatter_S131072x32x3x3_S6x2_S131072x32x6_01_23_23_1 : ScatterDims S131072x32x3x3 S6x2 S131072x32x6 where
  updateWindowDims := [0, 1]
  insertedWindowDims := [2, 3]
  scatterDimsToOperandDims := [2, 3]
  indexVectorDim := 1
  wf := scatter_S131072x32x3x3_S6x2_S131072x32x6_01_23_23_1_wf
def gather_S131072x32x3x3_S3x2_S131072x32x3_01_23_n_n_23_1_1310723211 : GatherDims S131072x32x3x3 S3x2 S131072x32x3 where
  offsetDims := [0, 1]
  collapsedSliceDims := [2, 3]
  operandBatchingDims := []
  startIndicesBatchingDims := []
  startIndexMap := [2, 3]
  indexVectorDim := 1
  sliceSizes := ![131072, 32, 1, 1]
  wf := gather_S131072x32x3x3_S3x2_S131072x32x3_01_23_n_n_23_1_1310723211_wf
def scatter_S131072x32x3x3_S3x2_S131072x32x3_01_23_23_1 : ScatterDims S131072x32x3x3 S3x2 S131072x32x3 where
  updateWindowDims := [0, 1]
  insertedWindowDims := [2, 3]
  scatterDimsToOperandDims := [2, 3]
  indexVectorDim := 1
  wf := scatter_S131072x32x3x3_S3x2_S131072x32x3_01_23_23_1_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024x192.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S192.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S1024x32.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S1024x96.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_2) S1024x192.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S131072x256 : Shape := ⟨2, ![131072, 256]⟩
abbrev S256x1024 : Shape := ⟨2, ![256, 1024]⟩
abbrev S1024 : Shape := ⟨1, ![1024]⟩
abbrev S1024x32 : Shape := ⟨2, ![1024, 32]⟩
abbrev S32 : Shape := ⟨1, ![32]⟩
abbrev S1024x96 : Shape := ⟨2, ![1024, 96]⟩
abbrev S96 : Shape := ⟨1, ![96]⟩
abbrev S1024x192 : Shape := ⟨2, ![1024, 192]⟩
abbrev S192 : Shape := ⟨1, ![192]⟩
abbrev S6 : Shape := ⟨1, ![6]⟩
abbrev S3 : Shape := ⟨1, ![3]⟩
abbrev S131072x1024 : Shape := ⟨2, ![131072, 1024]⟩
abbrev S1x1024 : Shape := ⟨2, ![1, 1024]⟩
abbrev S131072x32 : Shape := ⟨2, ![131072, 32]⟩
abbrev S1x32 : Shape := ⟨2, ![1, 32]⟩
abbrev S_ : Shape := ⟨0, ![]⟩
abbrev S131072 : Shape := ⟨1, ![131072]⟩
abbrev S131072x1 : Shape := ⟨2, ![131072, 1]⟩
abbrev S131072x96 : Shape := ⟨2, ![131072, 96]⟩
abbrev S1x96 : Shape := ⟨2, ![1, 96]⟩
abbrev S131072x32x3 : Shape := ⟨3, ![131072, 32, 3]⟩
abbrev S131072x192 : Shape := ⟨2, ![131072, 192]⟩
abbrev S1x192 : Shape := ⟨2, ![1, 192]⟩
abbrev S131072x32x6 : Shape := ⟨3, ![131072, 32, 6]⟩
abbrev S131072x32x3x3 : Shape := ⟨4, ![131072, 32, 3, 3]⟩
abbrev S6x1 : Shape := ⟨2, ![6, 1]⟩
abbrev S6x2 : Shape := ⟨2, ![6, 2]⟩
abbrev S3x1 : Shape := ⟨2, ![3, 1]⟩
abbrev S3x2 : Shape := ⟨2, ![3, 2]⟩

abbrev nBuf : Space → Nat
  | .hbm => 137
  | .vmem => 0
  | .smem => 0
  | _ => 0

abbrev hbmTy0_0 (i : Nat) : BufTy := match i % 128 with
  | 0 => ⟨S131072x256, .f32⟩
  | 1 => ⟨S256x1024, .f32⟩
  | 2 => ⟨S1024, .f32⟩
  | 3 => ⟨S1024x32, .f32⟩
  | 4 => ⟨S32, .f32⟩
  | 5 => ⟨S1024x96, .f32⟩
  | 6 => ⟨S96, .f32⟩
  | 7 => ⟨S1024x192, .f32⟩
  | 8 => ⟨S192, .f32⟩
  | 9 => ⟨S6, .i32⟩
  | 10 => ⟨S6, .i1⟩
  | 11 => ⟨S6, .i32⟩
  | 12 => ⟨S6, .i1⟩
  | 13 => ⟨S3, .i32⟩
  | 14 => ⟨S3, .i1⟩
  | 15 => ⟨S3, .i1⟩
  | 16 => ⟨S3, .i1⟩
  | 17 => ⟨S3, .i1⟩
  | 18 => ⟨S3, .i32⟩
  | 19 => ⟨S3, .i1⟩
  | 20 => ⟨S3, .i32⟩
  | 21 => ⟨S3, .i1⟩
  | 22 => ⟨S3, .i1⟩
  | 23 => ⟨S3, .i1⟩
  | 24 => ⟨S3, .i32⟩
  | 25 => ⟨S3, .i1⟩
  | 26 => ⟨S3, .i32⟩
  | 27 => ⟨S3, .i1⟩
  | 28 => ⟨S131072x1024, .f32⟩
  | 29 => ⟨S1x1024, .f32⟩
  | 30 => ⟨S131072x1024, .f32⟩
  | 31 => ⟨S131072x1024, .f32⟩
  | 32 => ⟨S131072x1024, .f32⟩
  | 33 => ⟨S131072x32, .f32⟩
  | 34 => ⟨S1x32, .f32⟩
  | 35 => ⟨S131072x32, .f32⟩
  | 36 => ⟨S131072x32, .f32⟩
  | 37 => ⟨S_, .f32⟩
  | 38 => ⟨S131072, .f32⟩
  | 39 => ⟨S_, .f32⟩
  | 40 => ⟨S131072, .f32⟩
  | 41 => ⟨S131072, .f32⟩
  | 42 => ⟨S131072x1, .f32⟩
  | 43 => ⟨S131072x32, .f32⟩
  | 44 => ⟨S131072x32, .f32⟩
  | 45 => ⟨S131072x32, .f32⟩
  | 46 => ⟨S_, .f32⟩
  | 47 => ⟨S131072, .f32⟩
  | 48 => ⟨S131072x1, .f32⟩
  | 49 => ⟨S131072x32, .f32⟩
  | 50 => ⟨S131072x32, .f32⟩
  | 51 => ⟨S131072x96, .f32⟩
  | 52 => ⟨S1x96, .f32⟩
  | 53 => ⟨S131072x96, .f32⟩
  | 54 => ⟨S131072x96, .f32⟩
  | 55 => ⟨S131072x32x3, .f32⟩
  | 56 => ⟨S131072x192, .f32⟩
  | 57 => ⟨S1x192, .f32⟩
  | 58 => ⟨S131072x192, .f32⟩
  | 59 => ⟨S131072x192, .f32⟩
  | 60 => ⟨S131072x32x6, .f32⟩
  | 61 => ⟨S_, .f32⟩
  | 62 => ⟨S131072x32x3x3, .f32⟩
  | 63 => ⟨S_, .i32⟩
  | 64 => ⟨S6, .i32⟩
  | 65 => ⟨S6, .i32⟩
  | 66 => ⟨S6, .i32⟩
  | 67 => ⟨S_, .i32⟩
  | 68 => ⟨S6, .i32⟩
  | 69 => ⟨S6, .i32⟩
  | 70 => ⟨S6, .i32⟩
  | 71 => ⟨S6x1, .i32⟩
  | 72 => ⟨S6x1, .i32⟩
  | 73 => ⟨S6x2, .i32⟩
  | 74 => ⟨S131072x32x3x3, .f32⟩
  | 75 => ⟨S_, .i32⟩
  | 76 => ⟨S3, .i32⟩
  | 77 => ⟨S3, .i32⟩
  | 78 => ⟨S3, .i32⟩
  | 79 => ⟨S_, .i32⟩
  | 80 => ⟨S3, .i32⟩
  | 81 => ⟨S3, .i32⟩
  | 82 => ⟨S3, .i32⟩
  | 83 => ⟨S3x1, .i32⟩
  | 84 => ⟨S3x1, .i32⟩
  | 85 => ⟨S3x2, .i32⟩
  | 86 => ⟨S131072x32x3, .f32⟩
  | 87 => ⟨S131072x32x3, .f32⟩
  | 88 => ⟨S_, .i32⟩
  | 89 => ⟨S3, .i32⟩
  | 90 => ⟨S3, .i32⟩
  | 91 => ⟨S3, .i32⟩
  | 92 => ⟨S_, .i32⟩
  | 93 => ⟨S3, .i32⟩
  | 94 => ⟨S3, .i32⟩
  | 95 => ⟨S3, .i32⟩
  | 96 => ⟨S3x1, .i32⟩
  | 97 => ⟨S3x1, .i32⟩
  | 98 => ⟨S3x2, .i32⟩
  | 99 => ⟨S131072x32x3x3, .f32⟩
  | 100 => ⟨S_, .i32⟩
  | 101 => ⟨S3, .i32⟩
  | 102 => ⟨S3, .i32⟩
  | 103 => ⟨S3, .i32⟩
  | 104 => ⟨S_, .i32⟩
  | 105 => ⟨S3, .i32⟩
  | 106 => ⟨S3, .i32⟩
  | 107 => ⟨S3, .i32⟩
  | 108 => ⟨S3x1, .i32⟩
  | 109 => ⟨S3x1, .i32⟩
  | 110 => ⟨S3x2, .i32⟩
  | 111 => ⟨S131072x32x3, .f32⟩
  | 112 => ⟨S131072x32x3, .f32⟩
  | 113 => ⟨S_, .i32⟩
  | 114 => ⟨S3, .i32⟩
  | 115 => ⟨S3, .i32⟩
  | 116 => ⟨S3, .i32⟩
  | 117 => ⟨S_, .i32⟩
  | 118 => ⟨S3, .i32⟩
  | 119 => ⟨S3, .i32⟩
  | 120 => ⟨S3, .i32⟩
  | 121 => ⟨S3x1, .i32⟩
  | 122 => ⟨S3x1, .i32⟩
  | 123 => ⟨S3x2, .i32⟩
  | 124 => ⟨S131072x32x3x3, .f32⟩
  | 125 => ⟨S_, .i32⟩
  | 126 => ⟨S3, .i32⟩
  | 127 => ⟨S3, .i32⟩
  | _ => ⟨S131072x256, .f32⟩

abbrev hbmTy0_1 (i : Nat) : BufTy := match i % 128 with
  | 0 => ⟨S3, .i32⟩
  | 1 => ⟨S_, .i32⟩
  | 2 => ⟨S3, .i32⟩
  | 3 => ⟨S3, .i32⟩
  | 4 => ⟨S3, .i32⟩
  | 5 => ⟨S3x1, .i32⟩
  | 6 => ⟨S3x1, .i32⟩
  | 7 => ⟨S3x2, .i32⟩
  | 8 => ⟨S131072x32x3x3, .f32⟩
  | _ => ⟨S131072x256, .f32⟩

abbrev hbmTy (i : Nat) : BufTy := match i / 128 with
  | 0 => hbmTy0_0 i
  | 1 => hbmTy0_1 i
  | _ => ⟨S131072x256, .f32⟩

abbrev bufTy : (tb : Table) → Fin (tcTables nBuf tb) → BufTy
  | .hbm, ⟨i, _⟩ => hbmTy i
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_c_3 : Ref sig .tc := ⟨.hbm, 13, rfl⟩
abbrev main_c_4 : Ref sig .tc := ⟨.hbm, 14, rfl⟩
abbrev main_c_5 : Ref sig .tc := ⟨.hbm, 15, rfl⟩
abbrev main_c_6 : Ref sig .tc := ⟨.hbm, 16, rfl⟩
abbrev main_c_7 : Ref sig .tc := ⟨.hbm, 17, rfl⟩
abbrev main_c_8 : Ref sig .tc := ⟨.hbm, 18, rfl⟩
abbrev main_c_9 : Ref sig .tc := ⟨.hbm, 19, rfl⟩
abbrev main_c_10 : Ref sig .tc := ⟨.hbm, 20, rfl⟩
abbrev main_c_11 : Ref sig .tc := ⟨.hbm, 21, rfl⟩
abbrev main_c_12 : Ref sig .tc := ⟨.hbm, 22, rfl⟩
abbrev main_c_13 : Ref sig .tc := ⟨.hbm, 23, rfl⟩
abbrev main_c_14 : Ref sig .tc := ⟨.hbm, 24, rfl⟩
abbrev main_c_15 : Ref sig .tc := ⟨.hbm, 25, rfl⟩
abbrev main_c_16 : Ref sig .tc := ⟨.hbm, 26, rfl⟩
abbrev main_c_17 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst : Ref sig .tc := ⟨.hbm, 37, rfl⟩
abbrev main_v9 : Ref sig .tc := ⟨.hbm, 38, rfl⟩
abbrev main_cst_18 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_19 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_20 : Ref sig .tc := ⟨.hbm, 61, rfl⟩
abbrev main_v30 : Ref sig .tc := ⟨.hbm, 62, rfl⟩
abbrev main_c_21 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_c_22 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_c_23 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_c_24 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_c_25 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_c_26 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_c_27 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_c_28 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_c_29 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_c_30 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_c_31 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_c_32 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  bcast_S32_S1x32_1 : S32.BroadcastsInDim S1x32 (![1] : Fin 1 → Fin S1x32.rank)
  bcast_S1x32_S131072x32_0_1 : S1x32.BroadcastsInDim S131072x32 (![0, 1] : Fin 2 → Fin S131072x32.rank)
  reducesTo_S131072x32_S131072_d1 : S131072x32.ReducesTo [1] S131072
  h_S_ : 0 < S_.numel
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x32_0_1 : S131072x1.BroadcastsInDim S131072x32 (![0, 1] : Fin 2 → Fin S131072x32.rank)
  bcast_S96_S1x96_1 : S96.BroadcastsInDim S1x96 (![1] : Fin 1 → Fin S1x96.rank)
  bcast_S1x96_S131072x96_0_1 : S1x96.BroadcastsInDim S131072x96 (![0, 1] : Fin 2 → Fin S131072x96.rank)
  shapeCasts_S131072x96_S131072x32x3 : S131072x96.ShapeCasts S131072x32x3
  bcast_S192_S1x192_1 : S192.BroadcastsInDim S1x192 (![1] : Fin 1 → Fin S1x192.rank)
  bcast_S1x192_S131072x192_0_1 : S1x192.BroadcastsInDim S131072x192 (![0, 1] : Fin 2 → Fin S131072x192.rank)
  shapeCasts_S131072x192_S131072x32x6 : S131072x192.ShapeCasts S131072x32x6
  bcast_S_S131072x32x3x3 : S_.BroadcastsInDim S131072x32x3x3 (![] : Fin 0 → Fin S131072x32x3x3.rank)
  bcast_S_S6 : S_.BroadcastsInDim S6 (![] : Fin 0 → Fin S6.rank)
  bcast_S6_S6x1_0 : S6.BroadcastsInDim S6x1 (![0] : Fin 1 → Fin S6x1.rank)
  concatenates_S6x1_S6x1_S6x2_d1 : Shape.Concatenates [S6x1, S6x1] S6x2 1
  bcast_S_S3 : S_.BroadcastsInDim S3 (![] : Fin 0 → Fin S3.rank)
  bcast_S3_S3x1_0 : S3.BroadcastsInDim S3x1 (![0] : Fin 1 → Fin S3x1.rank)
  concatenates_S3x1_S3x1_S3x2_d1 : Shape.Concatenates [S3x1, S3x1] S3x2 1
  dot_S131072x256_S256x1024_S131072x1024_1_0_0_1_n_n_wf : DotDims.WF S131072x256 S256x1024 S131072x1024 [1] [0] [0] [1] [] []
  dot_S131072x1024_S1024x32_S131072x32_1_0_0_1_n_n_wf : DotDims.WF S131072x1024 S1024x32 S131072x32 [1] [0] [0] [1] [] []
  dot_S131072x1024_S1024x96_S131072x96_1_0_0_1_n_n_wf : DotDims.WF S131072x1024 S1024x96 S131072x96 [1] [0] [0] [1] [] []
  dot_S131072x1024_S1024x192_S131072x192_1_0_0_1_n_n_wf : DotDims.WF S131072x1024 S1024x192 S131072x192 [1] [0] [0] [1] [] []
  scatter_S131072x32x3x3_S6x2_S131072x32x6_01_23_23_1_wf : ScatterDims.WF S131072x32x3x3 S6x2 S131072x32x6 [0, 1] [2, 3] [2, 3] 1
  gather_S131072x32x3x3_S3x2_S131072x32x3_01_23_n_n_23_1_1310723211_wf : GatherDims.WF S131072x32x3x3 S3x2 S131072x32x3 [0, 1] [2, 3] [] [2, 3] [] 1 ![131072, 32, 1, 1]
  scatter_S131072x32x3x3_S3x2_S131072x32x3_01_23_23_1_wf : ScatterDims.WF S131072x32x3x3 S3x2 S131072x32x3 [0, 1] [2, 3] [2, 3] 1

variable [Facts₀]

def dot_S131072x256_S256x1024_S131072x1024_1_0_0_1_n_n : DotDims S131072x256 S256x1024 S131072x1024 where
  lhsContracting := [1]
  rhsContracting := [0]
  lhsNonContracting := [0]
  rhsNonContracting := [1]
  lhsBatch := []
  rhsBatch := []
  wf := dot_S131072x256_S256x1024_S131072x1024_1_0_0_1_n_n_wf
def dot_S131072x1024_S1024x32_S131072x32_1_0_0_1_n_n : DotDims S131072x1024 S1024x32 S131072x32 where
  lhsContracting := [1]
  rhsContracting := [0]
  lhsNonContracting := [0]
  rhsNonContracting := [1]
  lhsBatch := []
  rhsBatch := []
  wf := dot_S131072x1024_S1024x32_S131072x32_1_0_0_1_n_n_wf
def dot_S131072x1024_S1024x96_S131072x96_1_0_0_1_n_n : DotDims S131072x1024 S1024x96 S131072x96 where
  lhsContracting := [1]
  rhsContracting := [0]
  lhsNonContracting := [0]
  rhsNonContracting := [1]
  lhsBatch := []
  rhsBatch := []
  wf := dot_S131072x1024_S1024x96_S131072x96_1_0_0_1_n_n_wf
def dot_S131072x1024_S1024x192_S131072x192_1_0_0_1_n_n : DotDims S131072x1024 S1024x192 S131072x192 where
  lhsContracting := [1]
  rhsContracting := [0]
  lhsNonContracting := [0]
  rhsNonContracting := [1]
  lhsBatch := []
  rhsBatch := []
  wf := dot_S131072x1024_S1024x192_S131072x192_1_0_0_1_n_n_wf
def scatter_S131072x32x3x3_S6x2_S131072x32x6_01_23_23_1 : ScatterDims S131072x32x3x3 S6x2 S131072x32x6 where
  updateWindowDims := [0, 1]
  insertedWindowDims := [2, 3]
  scatterDimsToOperandDims := [2, 3]
  indexVectorDim := 1
  wf := scatter_S131072x32x3x3_S6x2_S131072x32x6_01_23_23_1_wf
def gather_S131072x32x3x3_S3x2_S131072x32x3_01_23_n_n_23_1_1310723211 : GatherDims S131072x32x3x3 S3x2 S131072x32x3 where
  offsetDims := [0, 1]
  collapsedSliceDims := [2, 3]
  operandBatchingDims := []
  startIndicesBatchingDims := []
  startIndexMap := [2, 3]
  indexVectorDim := 1
  sliceSizes := ![131072, 32, 1, 1]
  wf := gather_S131072x32x3x3_S3x2_S131072x32x3_01_23_n_n_23_1_1310723211_wf
def scatter_S131072x32x3x3_S3x2_S131072x32x3_01_23_23_1 : ScatterDims S131072x32x3x3 S3x2 S131072x32x3 where
  updateWindowDims := [0, 1]
  insertedWindowDims := [2, 3]
  scatterDimsToOperandDims := [2, 3]
  indexVectorDim := 1
  wf := scatter_S131072x32x3x3_S3x2_S131072x32x3_01_23_23_1_wf

class Facts : Prop extends Facts₀ where

variable [Facts]
-- ==== Proof.FrameBits.lean ====
/-
  The frame of the tiled network: its entry function is nineteen small integer constants, ONE region of 128 grid
  points, and then the 78 host lines that lay the packed covariance entries out as 3x3 matrices.

  At grid point t the region hands the body block t of x (rows 1024 t … 1024 t + 1023) and the eight weight and
  bias arrays whole (their index maps are constant, so they are fetched once and found in place afterwards), and
  writes back three blocks of 1024 rows: the mixture weights, the means and the covariance entries. The body only
  loads its inputs whole and stores each output whole, so after the body each output's buffer holds ONE piece, the
  payload of the loaded inputs (`out9`, `out10`, `out11`); nothing is carried from one point to the next.

  The lines after the region read the three result arrays and the integer constants and write fresh buffers of
  their own: none of them writes an array the region stages, none allocates. So the nine argument arrays end as they
  were launched, which is the frame; and the run also names every result, which the value proof reads.
-/
import proofs.«118819_j81836306858381_1_alg».proof.Proof.Gen.Kernel.Launch
import proofs.«118819_j81836306858381_1_alg».proof.Proof.Gen.Kernel.Skeleton
import proofs.«118819_j81836306858381_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
-- the later stretch of the entry function is a list of 78 operations and the region has twelve windows
set_option maxHeartbeats 8000000

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the region -/

/-- A core's buffer contents when the region is entered: the launch memory after the integer constants. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 8000000 in
theorem hostOps1_fresh : (hostOps1 : List (HloOp τ sig (Elt F))).Forall fun op => op.fresh = ∅ := by
  simp only [List.Forall]; repeat' constructor

/-- The entry function is the constants, the region, the later lines: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- No later line writes an array the region stages: each writes its own result buffer, and that is none of the
    twelve arrays. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-- The constants before the region write no argument: the region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The constants before the region write no argument: the region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The constants before the region write no argument: the region finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The constants before the region write no argument: the region finds argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The constants before the region write no argument: the region finds argument 4 as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The constants before the region write no argument: the region finds argument 5 as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The constants before the region write no argument: the region finds argument 6 as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The constants before the region write no argument: the region finds argument 7 as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The constants before the region write no argument: the region finds argument 8 as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its index has not moved). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is not
    fetched its index has not moved). -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is not
    fetched its index has not moved). -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (where it is not
    fetched its index has not moved). -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (where it is not
    fetched its index has not moved). -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (where it is not
    fetched its index has not moved). -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (where it is not
    fetched its index has not moved). -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (where it is not
    fetched its index has not moved). -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (where it is not
    fetched its index has not moved). -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame from a frame run -/

/-- A run that ends with every staged array at what the proof data computes has every ARGUMENT at its launch
    contents: an input window's array is never written back. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c)))⟩) h

/-! ## The body's accesses: every load and every store is of a whole buffer -/

abbrev r_S1024x256 : Rect S1024x256 := Rect.unit (s := S1024x256) ![0, 0] S1024x256.size inb_S1024x256_S1024x256_0_0
abbrev r_S256x1024 : Rect S256x1024 := Rect.unit (s := S256x1024) ![0, 0] S256x1024.size inb_S256x1024_S256x1024_0_0
abbrev r_S1024 : Rect S1024 := Rect.unit (s := S1024) ![0] S1024.size inb_S1024_S1024_0
abbrev r_S1024x32 : Rect S1024x32 := Rect.unit (s := S1024x32) ![0, 0] S1024x32.size inb_S1024x32_S1024x32_0_0
abbrev r_S32 : Rect S32 := Rect.unit (s := S32) ![0] S32.size inb_S32_S32_0
abbrev r_S1024x96 : Rect S1024x96 := Rect.unit (s := S1024x96) ![0, 0] S1024x96.size inb_S1024x96_S1024x96_0_0
abbrev r_S96 : Rect S96 := Rect.unit (s := S96) ![0] S96.size inb_S96_S96_0
abbrev r_S1024x192 : Rect S1024x192 := Rect.unit (s := S1024x192) ![0, 0] S1024x192.size inb_S1024x192_S1024x192_0_0
abbrev r_S192 : Rect S192 := Rect.unit (s := S192) ![0] S192.size inb_S192_S192_0

/-! ## What the body leaves in each output window's buffer -/

/-- The mixture weights' buffer after the body: one whole store, of the softmax head of the loaded block. -/
def out9 (x0 : Vec F S1024x256 .f32) (x1 : Vec F S256x1024 .f32) (x2 : Vec F S1024 .f32) (x3 : Vec F S1024x32 .f32) (x4 : Vec F S32 .f32) : Vec F S1024x32 .f32 :=
  View.canon [⟨r_S1024x32, k0_pay3 (View.ld x0 r_S1024x256) (View.ld x1 r_S256x1024) (View.ld x2 r_S1024) (View.ld x3 r_S1024x32) (View.ld x4 r_S32)⟩]
/-- The means' buffer after the body. -/
def out10 (x0 : Vec F S1024x256 .f32) (x1 : Vec F S256x1024 .f32) (x2 : Vec F S1024 .f32) (x5 : Vec F S1024x96 .f32) (x6 : Vec F S96 .f32) : Vec F S1024x96 .f32 :=
  View.canon [⟨r_S1024x96, k0_pay4 (View.ld x0 r_S1024x256) (View.ld x1 r_S256x1024) (View.ld x2 r_S1024) (View.ld x5 r_S1024x96) (View.ld x6 r_S96)⟩]
/-- The covariance entries' buffer after the body. -/
def out11 (x0 : Vec F S1024x256 .f32) (x1 : Vec F S256x1024 .f32) (x2 : Vec F S1024 .f32) (x7 : Vec F S1024x192 .f32) (x8 : Vec F S192 .f32) : Vec F S1024x192 .f32 :=
  View.canon [⟨r_S1024x192, k0_pay1 (k0_pay2 (View.ld x0 r_S1024x256) (View.ld x1 r_S256x1024) (View.ld x2 r_S1024)) (View.ld x7 r_S1024x192) (View.ld x8 r_S192)⟩]

/-- A whole store covers its buffer. -/
theorem cover9 (p0 : Vec F S1024x32 .f32) (y : S1024x32.Idx) :
    ∃ pc ∈ ([⟨r_S1024x32, p0⟩] : List (View.Piece (Elt F) S1024x32 .f32)), y ∈ pc.1.set :=
  View.cover_of_tiled [⟨r_S1024x32, p0⟩] S1024x32.size (by rfl) y
theorem cover10 (p0 : Vec F S1024x96 .f32) (y : S1024x96.Idx) :
    ∃ pc ∈ ([⟨r_S1024x96, p0⟩] : List (View.Piece (Elt F) S1024x96 .f32)), y ∈ pc.1.set :=
  View.cover_of_tiled [⟨r_S1024x96, p0⟩] S1024x96.size (by rfl) y
theorem cover11 (p0 : Vec F S1024x192 .f32) (y : S1024x192.Idx) :
    ∃ pc ∈ ([⟨r_S1024x192, p0⟩] : List (View.Piece (Elt F) S1024x192 .f32)), y ∈ pc.1.set :=
  View.cover_of_tiled [⟨r_S1024x192, p0⟩] S1024x192.size (by rfl) y

/-! ## The body's triple -/

set_option maxHeartbeats 4000000 in
/-- The body on whole staging memrefs, the inputs' at contents `xK` and the outputs' at anything, runs to the
    continuation holding the inputs' as they were and each output's at its one stored piece. -/
theorem sound_kernel (c : Dev nD) (E : Set ℕ) (i : grid0.Coords) (arg1 : Memref sig .tc .vmem S1024x256 .f32) (harg1 : arg1.IsWhole) (arg2 : Memref sig .tc .vmem S256x1024 .f32) (harg2 : arg2.IsWhole) (arg3 : Memref sig .tc .vmem S1024 .f32) (harg3 : arg3.IsWhole) (arg4 : Memref sig .tc .vmem S1024x32 .f32) (harg4 : arg4.IsWhole) (arg5 : Memref sig .tc .vmem S32 .f32) (harg5 : arg5.IsWhole) (arg6 : Memref sig .tc .vmem S1024x96 .f32) (harg6 : arg6.IsWhole) (arg7 : Memref sig .tc .vmem S96 .f32) (harg7 : arg7.IsWhole) (arg8 : Memref sig .tc .vmem S1024x192 .f32) (harg8 : arg8.IsWhole) (arg9 : Memref sig .tc .vmem S192 .f32) (harg9 : arg9.IsWhole) (arg10 : Memref sig .tc .vmem S1024x32 .f32) (harg10 : arg10.IsWhole) (arg11 : Memref sig .tc .vmem S1024x96 .f32) (harg11 : arg11.IsWhole) (arg12 : Memref sig .tc .vmem S1024x192 .f32) (harg12 : arg12.IsWhole)
    (x0 : Vec F S1024x256 .f32) (x1 : Vec F S256x1024 .f32) (x2 : Vec F S1024 .f32) (x3 : Vec F S1024x32 .f32) (x4 : Vec F S32 .f32) (x5 : Vec F S1024x96 .f32) (x6 : Vec F S96 .f32) (x7 : Vec F S1024x192 .f32) (x8 : Vec F S192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out9 x0 x1 x2 x3 x4) ∗ owns (c : Thread nD τ) arg11 fullShare (out10 x0 x1 x2 x5 x6) ∗ owns (c : Thread nD τ) arg12 fullShare (out11 x0 x1 x2 x7 x8)) -∗ K ⟨⟩))
      ⊢ wp frame (wpE (defs₀ (F := F)) Variants.none c none) E (cc0__mdn_heads_kernel i arg1 harg1 arg2 harg2 arg3 harg3 arg4 harg4 arg5 harg5 arg6 harg6 arg7 harg7 arg8 harg8 arg9 harg9 arg10 harg10 arg11 harg11 arg12 harg12) K := by
  simp only [cc0__mdn_heads_kernel_eq_skeleton]; unfold cc0__mdn_heads_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover9 _)
  isplitl [H10]
  · iexists _; isplitr
    swap; · iexact H10
    ipureintro
    exact View.read_writes_eq_canon _ _ _ (cover10 _)
  iexists _; isplitr
  swap; · iexact H11
  ipureintro
  exact View.read_writes_eq_canon _ _ _ (cover11 _)

/-! ## The region's proof data -/

/-- After the body at point `t` each input's buffer holds its block and each output's its stored piece of the
    input blocks; the arrays are as the region finds them; nothing else is used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t)
    | ⟨10, _⟩ => out10 (iblk m c 0 t) (iblk m c 1 t) (iblk m c 2 t) (iblk m c 5 t) (iblk m c 6 t)
    | ⟨11, _⟩ => out11 (iblk m c 0 t) (iblk m c 1 t) (iblk m c 2 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = out9 (iblk m c 0 t) (iblk m c 1 t) (iblk m c 2 t) (iblk m c 3 t) (iblk m c 4 t) := by dsimp only [dats]
theorem after10 (c : Dev nD) (t : Fin cfg0.N) : (dats m 0 c).after 10 t = out10 (iblk m c 0 t) (iblk m c 1 t) (iblk m c 2 t) (iblk m c 5 t) (iblk m c 6 t) := by dsimp only [dats]
theorem after11 (c : Dev nD) (t : Fin cfg0.N) : (dats m 0 c).after 11 t = out11 (iblk m c 0 t) (iblk m c 1 t) (iblk m c 2 t) (iblk m c 7 t) (iblk m c 8 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 4000000 in
/-- The body at any point: the inputs' memrefs hold their blocks, so the triple applies; the invariant passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 8000000 in
set_option backward.isDefEq.respectTransparency.types false in
/-- Every weakly fair execution of the entry function terminates, with every staged array at what the proof data
    computes and every other unscoped buffer as the later lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the nine argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Fr

end
-- ==== Proof.FrameIdeal.lean ====
/-
  The frame of the tiled network: its entry function is nineteen small integer constants, ONE region of 128 grid
  points, and then the 78 host lines that lay the packed covariance entries out as 3x3 matrices.

  At grid point t the region hands the body block t of x (rows 1024 t … 1024 t + 1023) and the eight weight and
  bias arrays whole (their index maps are constant, so they are fetched once and found in place afterwards), and
  writes back three blocks of 1024 rows: the mixture weights, the means and the covariance entries. The body only
  loads its inputs whole and stores each output whole, so after the body each output's buffer holds ONE piece, the
  payload of the loaded inputs (`out9`, `out10`, `out11`); nothing is carried from one point to the next.

  The lines after the region read the three result arrays and the integer constants and write fresh buffers of
  their own: none of them writes an array the region stages, none allocates. So the nine argument arrays end as they
  were launched, which is the frame; and the run also names every result, which the value proof reads.
-/
import proofs.«118819_j81836306858381_1_alg».proof.Proof.Gen.KernelIdeal.Launch
import proofs.«118819_j81836306858381_1_alg».proof.Proof.Gen.KernelIdeal.Skeleton
import proofs.«118819_j81836306858381_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
-- the later stretch of the entry function is a list of 78 operations and the region has twelve windows
set_option maxHeartbeats 8000000

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the region -/

/-- A core's buffer contents when the region is entered: the launch memory after the integer constants. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 8000000 in
theorem hostOps1_fresh : (hostOps1 : List (HloOp τ sig (Elt F))).Forall fun op => op.fresh = ∅ := by
  simp only [List.Forall]; repeat' constructor

/-- The entry function is the constants, the region, the later lines: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- No later line writes an array the region stages: each writes its own result buffer, and that is none of the
    twelve arrays. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-- The constants before the region write no argument: the region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The constants before the region write no argument: the region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The constants before the region write no argument: the region finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The constants before the region write no argument: the region finds argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The constants before the region write no argument: the region finds argument 4 as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The constants before the region write no argument: the region finds argument 5 as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The constants before the region write no argument: the region finds argument 6 as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The constants before the region write no argument: the region finds argument 7 as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The constants before the region write no argument: the region finds argument 8 as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its index has not moved). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is not
    fetched its index has not moved). -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is not
    fetched its index has not moved). -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (where it is not
    fetched its index has not moved). -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (where it is not
    fetched its index has not moved). -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (where it is not
    fetched its index has not moved). -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (where it is not
    fetched its index has not moved). -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (where it is not
    fetched its index has not moved). -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (where it is not
    fetched its index has not moved). -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame from a frame run -/

/-- A run that ends with every staged array at what the proof data computes has every ARGUMENT at its launch
    contents: an input window's array is never written back. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c)))⟩) h

/-! ## The body's accesses: every load and every store is of a whole buffer -/

abbrev r_S1024x256 : Rect S1024x256 := Rect.unit (s := S1024x256) ![0, 0] S1024x256.size inb_S1024x256_S1024x256_0_0
abbrev r_S256x1024 : Rect S256x1024 := Rect.unit (s := S256x1024) ![0, 0] S256x1024.size inb_S256x1024_S256x1024_0_0
abbrev r_S1024 : Rect S1024 := Rect.unit (s := S1024) ![0] S1024.size inb_S1024_S1024_0
abbrev r_S1024x32 : Rect S1024x32 := Rect.unit (s := S1024x32) ![0, 0] S1024x32.size inb_S1024x32_S1024x32_0_0
abbrev r_S32 : Rect S32 := Rect.unit (s := S32) ![0] S32.size inb_S32_S32_0
abbrev r_S1024x96 : Rect S1024x96 := Rect.unit (s := S1024x96) ![0, 0] S1024x96.size inb_S1024x96_S1024x96_0_0
abbrev r_S96 : Rect S96 := Rect.unit (s := S96) ![0] S96.size inb_S96_S96_0
abbrev r_S1024x192 : Rect S1024x192 := Rect.unit (s := S1024x192) ![0, 0] S1024x192.size inb_S1024x192_S1024x192_0_0
abbrev r_S192 : Rect S192 := Rect.unit (s := S192) ![0] S192.size inb_S192_S192_0

/-! ## What the body leaves in each output window's buffer -/

/-- The mixture weights' buffer after the body: one whole store, of the softmax head of the loaded block. -/
def out9 (x0 : Vec F S1024x256 .f32) (x1 : Vec F S256x1024 .f32) (x2 : Vec F S1024 .f32) (x3 : Vec F S1024x32 .f32) (x4 : Vec F S32 .f32) : Vec F S1024x32 .f32 :=
  View.canon [⟨r_S1024x32, k0_pay3 (View.ld x0 r_S1024x256) (View.ld x1 r_S256x1024) (View.ld x2 r_S1024) (View.ld x3 r_S1024x32) (View.ld x4 r_S32)⟩]
/-- The means' buffer after the body. -/
def out10 (x0 : Vec F S1024x256 .f32) (x1 : Vec F S256x1024 .f32) (x2 : Vec F S1024 .f32) (x5 : Vec F S1024x96 .f32) (x6 : Vec F S96 .f32) : Vec F S1024x96 .f32 :=
  View.canon [⟨r_S1024x96, k0_pay4 (View.ld x0 r_S1024x256) (View.ld x1 r_S256x1024) (View.ld x2 r_S1024) (View.ld x5 r_S1024x96) (View.ld x6 r_S96)⟩]
/-- The covariance entries' buffer after the body. -/
def out11 (x0 : Vec F S1024x256 .f32) (x1 : Vec F S256x1024 .f32) (x2 : Vec F S1024 .f32) (x7 : Vec F S1024x192 .f32) (x8 : Vec F S192 .f32) : Vec F S1024x192 .f32 :=
  View.canon [⟨r_S1024x192, k0_pay1 (k0_pay2 (View.ld x0 r_S1024x256) (View.ld x1 r_S256x1024) (View.ld x2 r_S1024)) (View.ld x7 r_S1024x192) (View.ld x8 r_S192)⟩]

/-- A whole store covers its buffer. -/
theorem cover9 (p0 : Vec F S1024x32 .f32) (y : S1024x32.Idx) :
    ∃ pc ∈ ([⟨r_S1024x32, p0⟩] : List (View.Piece (Elt F) S1024x32 .f32)), y ∈ pc.1.set :=
  View.cover_of_tiled [⟨r_S1024x32, p0⟩] S1024x32.size (by rfl) y
theorem cover10 (p0 : Vec F S1024x96 .f32) (y : S1024x96.Idx) :
    ∃ pc ∈ ([⟨r_S1024x96, p0⟩] : List (View.Piece (Elt F) S1024x96 .f32)), y ∈ pc.1.set :=
  View.cover_of_tiled [⟨r_S1024x96, p0⟩] S1024x96.size (by rfl) y
theorem cover11 (p0 : Vec F S1024x192 .f32) (y : S1024x192.Idx) :
    ∃ pc ∈ ([⟨r_S1024x192, p0⟩] : List (View.Piece (Elt F) S1024x192 .f32)), y ∈ pc.1.set :=
  View.cover_of_tiled [⟨r_S1024x192, p0⟩] S1024x192.size (by rfl) y

/-! ## The body's triple -/

set_option maxHeartbeats 4000000 in
/-- The body on whole staging memrefs, the inputs' at contents `xK` and the outputs' at anything, runs to the
    continuation holding the inputs' as they were and each output's at its one stored piece. -/
theorem sound_kernel (c : Dev nD) (E : Set ℕ) (i : grid0.Coords) (arg1 : Memref sig .tc .vmem S1024x256 .f32) (harg1 : arg1.IsWhole) (arg2 : Memref sig .tc .vmem S256x1024 .f32) (harg2 : arg2.IsWhole) (arg3 : Memref sig .tc .vmem S1024 .f32) (harg3 : arg3.IsWhole) (arg4 : Memref sig .tc .vmem S1024x32 .f32) (harg4 : arg4.IsWhole) (arg5 : Memref sig .tc .vmem S32 .f32) (harg5 : arg5.IsWhole) (arg6 : Memref sig .tc .vmem S1024x96 .f32) (harg6 : arg6.IsWhole) (arg7 : Memref sig .tc .vmem S96 .f32) (harg7 : arg7.IsWhole) (arg8 : Memref sig .tc .vmem S1024x192 .f32) (harg8 : arg8.IsWhole) (arg9 : Memref sig .tc .vmem S192 .f32) (harg9 : arg9.IsWhole) (arg10 : Memref sig .tc .vmem S1024x32 .f32) (harg10 : arg10.IsWhole) (arg11 : Memref sig .tc .vmem S1024x96 .f32) (harg11 : arg11.IsWhole) (arg12 : Memref sig .tc .vmem S1024x192 .f32) (harg12 : arg12.IsWhole)
    (x0 : Vec F S1024x256 .f32) (x1 : Vec F S256x1024 .f32) (x2 : Vec F S1024 .f32) (x3 : Vec F S1024x32 .f32) (x4 : Vec F S32 .f32) (x5 : Vec F S1024x96 .f32) (x6 : Vec F S96 .f32) (x7 : Vec F S1024x192 .f32) (x8 : Vec F S192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out9 x0 x1 x2 x3 x4) ∗ owns (c : Thread nD τ) arg11 fullShare (out10 x0 x1 x2 x5 x6) ∗ owns (c : Thread nD τ) arg12 fullShare (out11 x0 x1 x2 x7 x8)) -∗ K ⟨⟩))
      ⊢ wp frame (wpE (defs₀ (F := F)) Variants.none c none) E (cc0__mdn_heads_kernel i arg1 harg1 arg2 harg2 arg3 harg3 arg4 harg4 arg5 harg5 arg6 harg6 arg7 harg7 arg8 harg8 arg9 harg9 arg10 harg10 arg11 harg11 arg12 harg12) K := by
  simp only [cc0__mdn_heads_kernel_eq_skeleton]; unfold cc0__mdn_heads_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover9 _)
  isplitl [H10]
  · iexists _; isplitr
    swap; · iexact H10
    ipureintro
    exact View.read_writes_eq_canon _ _ _ (cover10 _)
  iexists _; isplitr
  swap; · iexact H11
  ipureintro
  exact View.read_writes_eq_canon _ _ _ (cover11 _)

/-! ## The region's proof data -/

/-- After the body at point `t` each input's buffer holds its block and each output's its stored piece of the
    input blocks; the arrays are as the region finds them; nothing else is used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (iblk m c 0 t) (iblk m c 1 t) (iblk m c 2 t) (iblk m c 3 t) (iblk m c 4 t)
    | ⟨10, _⟩ => out10 (iblk m c 0 t) (iblk m c 1 t) (iblk m c 2 t) (iblk m c 5 t) (iblk m c 6 t)
    | ⟨11, _⟩ => out11 (iblk m c 0 t) (iblk m c 1 t) (iblk m c 2 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = out9 (iblk m c 0 t) (iblk m c 1 t) (iblk m c 2 t) (iblk m c 3 t) (iblk m c 4 t) := by dsimp only [dats]
theorem after10 (c : Dev nD) (t : Fin cfg0.N) : (dats m 0 c).after 10 t = out10 (iblk m c 0 t) (iblk m c 1 t) (iblk m c 2 t) (iblk m c 5 t) (iblk m c 6 t) := by dsimp only [dats]
theorem after11 (c : Dev nD) (t : Fin cfg0.N) : (dats m 0 c).after 11 t = out11 (iblk m c 0 t) (iblk m c 1 t) (iblk m c 2 t) (iblk m c 7 t) (iblk m c 8 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 4000000 in
/-- The body at any point: the inputs' memrefs hold their blocks, so the triple applies; the invariant passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 8000000 in
set_option backward.isDefEq.respectTransparency.types false in
/-- Every weakly fair execution of the entry function terminates, with every staged array at what the proof data
    computes and every other unscoped buffer as the later lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the nine argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Fr

end
-- ==== Proof.KernelRun.lean ====
/-
  The tiled network's run with every result named. After the region the three staged result arrays hold what the
  proof data computes from the blocks written back; the means and the covariance matrices are then produced by the
  later host lines from those arrays, so their buffers hold the later lines' fold over the memory in which the
  staged arrays have their final contents. The nine arguments end as launched.
-/
import proofs.«118819_j81836306858381_1_alg».proof.Proof.FrameIdeal

noncomputable section

namespace Cert.KernelIdeal.KR

open Cert.KernelIdeal Cert.KernelIdeal.Gen Cert.KernelIdeal.Fr
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Argument 0 is staged by input window 0 and never written back. -/
theorem kept0 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))
/-- Argument 1 is staged by input window 1 and never written back. -/
theorem kept1 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))
/-- Argument 2 is staged by input window 2 and never written back. -/
theorem kept2 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg2) = m ((c.tc : Thread nD τ).loc main_arg2) :=
  ((h c).1 2).trans (((dats m 0 c).arrAt_in 2 rfl _).trans ((A_eq m c 2).trans (V_main_arg2 m c)))
/-- Argument 3 is staged by input window 3 and never written back. -/
theorem kept3 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg3) = m ((c.tc : Thread nD τ).loc main_arg3) :=
  ((h c).1 3).trans (((dats m 0 c).arrAt_in 3 rfl _).trans ((A_eq m c 3).trans (V_main_arg3 m c)))
/-- Argument 4 is staged by input window 4 and never written back. -/
theorem kept4 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg4) = m ((c.tc : Thread nD τ).loc main_arg4) :=
  ((h c).1 4).trans (((dats m 0 c).arrAt_in 4 rfl _).trans ((A_eq m c 4).trans (V_main_arg4 m c)))
/-- Argument 5 is staged by input window 5 and never written back. -/
theorem kept5 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg5) = m ((c.tc : Thread nD τ).loc main_arg5) :=
  ((h c).1 5).trans (((dats m 0 c).arrAt_in 5 rfl _).trans ((A_eq m c 5).trans (V_main_arg5 m c)))
/-- Argument 6 is staged by input window 6 and never written back. -/
theorem kept6 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg6) = m ((c.tc : Thread nD τ).loc main_arg6) :=
  ((h c).1 6).trans (((dats m 0 c).arrAt_in 6 rfl _).trans ((A_eq m c 6).trans (V_main_arg6 m c)))
/-- Argument 7 is staged by input window 7 and never written back. -/
theorem kept7 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg7) = m ((c.tc : Thread nD τ).loc main_arg7) :=
  ((h c).1 7).trans (((dats m 0 c).arrAt_in 7 rfl _).trans ((A_eq m c 7).trans (V_main_arg7 m c)))
/-- Argument 8 is staged by input window 8 and never written back. -/
theorem kept8 (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg8) = m ((c.tc : Thread nD τ).loc main_arg8) :=
  ((h c).1 8).trans (((dats m 0 c).arrAt_in 8 rfl _).trans ((A_eq m c 8).trans (V_main_arg8 m c)))

/-- Every weakly fair execution terminates with the mixture weights' array at what the region wrote back, the
    means' and the covariance matrices' buffers at what the later lines compute, and the arguments unchanged. -/
theorem run_named : θ_run defs (onTc (τ := τ) (main (F := F))) ⟨m, fun _ => 0, ρ⟩ fun r => ∀ c : Dev nD,
      r.2.mem ((c.tc : Thread nD τ).loc main_v0_0) = (dats m 0 c).arrAt 9 cfg0.N
      ∧ r.2.mem ((c.tc : Thread nD τ).loc main_v1) = Pipeline.afterTail₀ cfgs (dats m) 0 (V0 m) [hostOps1] c main_v1
      ∧ r.2.mem ((c.tc : Thread nD τ).loc main_v65) = Pipeline.afterTail₀ cfgs (dats m) 0 (V0 m) [hostOps1] c main_v65
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1 9,
      (h c).2 main_v1 (Pipeline.mem_restRefs_of main_v1 (by decide) (by decide)),
      (h c).2 main_v65 (Pipeline.mem_restRefs_of main_v65 (by decide) (by decide)),
      kept0 m r h c, kept1 m r h c, kept2 m r h c, kept3 m r h c, kept4 m r h c, kept5 m r h c, kept6 m r h c, kept7 m r h c, kept8 m r h c⟩)
    (run_main m ρ)

end Cert.KernelIdeal.KR

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.LibAffineRows.lean ====
/-
  An affine map of the rows of a matrix, as a vector program spells it, read at an entry on the extended reals,
  for any extents: the operands cast to a narrower float format (the identity on the extended reals), their
  product taken into a zero accumulator, and a bias vector [n] laid out as one row [1, n] and repeated down the
  [m, n] result. Entry (p, q) is the k-term sum of products plus the bias's entry q.
-/
import Idealize.ShloMosaic.Lib.ValueLayout
import Idealize.ShloMosaic.Lib.Pipeline.Value
import proofs.«118819_j81836306858381_1_alg».proof.Proof.LibMatmulPlain

noncomputable section

namespace Cert.LibAffineRows

open Idealize.ShloMosaic Idealize.ShloMosaic.ValueIdx Cert.LibMatmulPlain

variable {m k n : Nat}

/-- A bias vector laid out as a row and repeated down `m` rows reads, at (p, q), its entry q. -/
theorem biasRows_apply (b : FVec Ideal ⟨1, ![n]⟩ .f32) (hc : (⟨1, ![n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ b hc) hb (ix2 p q) = b (ix1 q) :=
  (broadcastTo_1b_ab_apply (shapeCast ⟨2, ![1, n]⟩ b hc) hb p q).trans (shapeCast_a_1a_apply b hc 0 q)

/-- Entry (p, q) of `u · w + bias`, the operands cast to a narrower format first: the k-term sum of products plus
    the bias's entry q. -/
theorem affine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    addf (matmul (plainDims m k n wf) none (truncf ψ u hψ) (truncf ψ w hψ) (constant ⟨2, ![m, n]⟩ .f32 0x00000000#32))
        (broadcastTo ⟨2, ![m, n]⟩ (shapeCast ⟨2, ![1, n]⟩ b hc) hb) (ix2 p q)
      = (∑ j : Fin k, u (ix2 p j) * w (ix2 j q)) + b (ix1 q) := by
  show FloatOps.matmul (plainDims m k n wf) none (truncf ψ u hψ) (truncf ψ w hψ) (constant ⟨2, ![m, n]⟩ .f32 0x00000000#32) (ix2 p q)
      + broadcastTo ⟨2, ![m, n]⟩ (shapeCast ⟨2, ![1, n]⟩ b hc) hb (ix2 p q) = _
  rw [matmul_zero_apply wf none (truncf ψ u hψ) (truncf ψ w hψ) p q, biasRows_apply b hc hb p q]
  rfl

/-- The same followed by a rectifier — the maximum with the all-zero f32 word repeated over the result: entry (p, q) is
    the maximum of the affine entry and that word's value. -/
theorem rectAffine_apply {ψ : FTy} (wf : DotDims.WF ⟨2, ![m, k]⟩ ⟨2, ![k, n]⟩ ⟨2, ![m, n]⟩ [1] [0] [0] [1] [] [])
    (u : FVec Ideal ⟨2, ![m, k]⟩ .f32) (w : FVec Ideal ⟨2, ![k, n]⟩ .f32) (b : FVec Ideal ⟨1, ![n]⟩ .f32)
    (hψ : ψ.bits < FTy.f32.bits) (hc : (⟨1, ![n]⟩ : Shape).ShapeCasts ⟨2, ![1, n]⟩)
    (hb : (⟨2, ![1, n]⟩ : Shape).Broadcasts ⟨2, ![m, n]⟩) (p : Fin m) (q : Fin n) :
    maximumf (addf (matmul (plainDims m k n wf) none (truncf ψ u hψ) (truncf ψ w hψ) (constant ⟨2, ![m, n]⟩ .f32 0x00000000#32))
          (broadcastTo ⟨2, ![m, n]⟩ (shapeCast ⟨2, ![1, n]⟩ b hc) hb))
        (broadcast ⟨2, ![m, n]⟩ (Scalar.ofBits (F := Ideal) .f32 0x00000000#32)) (ix2 p q)
      = max ((∑ j : Fin k, u (ix2 p j) * w (ix2 j q)) + b (ix1 q)) (Ideal.ofBits .f32 0x00000000#32) :=
  congrArg (max · (Ideal.ofBits .f32 0x00000000#32)) (affine_apply wf u w b hψ hc hb p q)

end Cert.LibAffineRows

end
-- ==== Proof.LibDenseLayers.lean ====
/-
  The vocabulary of a stack of dense layers on the extended reals, for any extents, and the spellings that denote it.

  For a matrix a [m, k], a weight w [k, n] and a bias b [n]:  mm a w  has entry (p, q) the k-term sum of a(p, j) * w(j, q);
  bias m b  repeats b down m rows;  rect a  is, entry by entry, the maximum with the value of the all-zero f32 word.
  A product taken on the matrix unit into a zero accumulator (its weight first cast to a narrower float format, the
  identity on the extended reals) and a general product on the host are both mm; a bias vector laid out as one row and
  repeated down the rows, either way it is spelt, is bias; the maximum with a zero repeated over the shape is rect.

  The one law of arithmetic used: a sum over k1 + k2 + k3 terms is the sum of its first k1, next k2 and last k3 terms
  (addition on the extended reals is commutative and associative; nothing here needs a finite entry). So the product of
  three matrices joined side by side with a weight is the sum of the three products with the weight's matching row slabs.
-/
import Idealize.ShloMosaic.Lib.ValueLayout
import Idealize.ShloMosaic.Lib.Pipeline.Value
import Idealize.ShloMosaic.PureOps.Ideal.Laws
import proofs.«118819_j81836306858381_1_alg».proof.Proof.LibMatmulPlain
import proofs.«118819_j81836306858381_1_alg».proof.Proof.LibAffineRows

noncomputable section

namespace Cert.Layers

open Idealize.ShloMosaic Idealize.ShloMosaic.ValueIdx Cert.LibMatmulPlain Cert.LibAffineRows

variable {m k n : Nat}

/-- An [m, n] matrix of extended reals. -/
abbrev Mat (m n : Nat) : Type := (⟨2, ![m, n]⟩ : Shape).Idx → EReal
/-- An [n] vector of extended reals. -/
abbrev Row (n : Nat) : Type := (⟨1, ![n]⟩ : Shape).Idx → EReal

/-- Rows of a against columns of w. -/
def mm (a : Mat m k) (w : Mat k n) : Mat m n := fun i => ∑ j : Fin k, a (ix2 (i 0) j) * w (ix2 j (i 1))

/-- The vector b repeated down m rows. -/
def bias (m : Nat) (b : Row n) : Mat m n := fun i => b (ix1 (i 1))

/-- Entry by entry the maximum with the value of the all-zero f32 word. -/
def rect {s : Shape} (a : s.Idx → EReal) : s.Idx → EReal := fun i => max (a i) (Ideal.ofBits .f32 0x00000000#32)

/-- One dense layer: a · w + b. -/
def dense (a : Mat m k) (w : Mat k n) (b : Row n) : Mat m n := fun i => mm a w i + bias m b i

theorem mm_apply (a : Mat m k) (w : Mat k n) (p : Fin m) (q : Fin n) :
    mm a w (ix2 p q) = ∑ j : Fin k, a (ix2 p j) * w (ix2 j q) := rfl

/-! ## The matrix unit's spellings -/

/-- A product on the matrix unit into a zero accumulator, the weight cast to a narrower format first. -/
theorem tileMm_eq {φ₁ ψ : FTy} (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ φ₁) (w : FVec Ideal ⟨2, ![k, n]⟩ .f32) (hψ : ψ.bits < FTy.f32.bits) :
    matmul d none a (truncf ψ w hψ) (constant ⟨2, ![m, n]⟩ .f32 0x00000000#32) = mm a w := by
  subst hd
  funext i
  obtain ⟨p, q, rfl⟩ : ∃ (p : Fin m) (q : Fin n), i = ix2 p q := ⟨i 0, i 1, eq_ix2 i⟩
  exact matmul_zero_apply wf none a (truncf ψ w hψ) p q

/-- A bias vector laid out as one row and repeated down the rows. -/
theorem tileBias_eq (b : FVec Ideal ⟨1, ![n]⟩ .f32) (hc : (⟨1, ![n]⟩ : Shape).ShapeCasts ⟨2, ![1, n]⟩)
    (hb : (⟨2, ![1, n]⟩ : Shape).Broadcasts ⟨2, ![m, n]⟩) :
    broadcastTo ⟨2, ![m, n]⟩ (shapeCast ⟨2, ![1, n]⟩ b hc) hb = bias m b := by
  funext i
  obtain ⟨p, q, rfl⟩ : ∃ (p : Fin m) (q : Fin n), i = ix2 p q := ⟨i 0, i 1, eq_ix2 i⟩
  exact biasRows_apply b hc hb p q

/-- The maximum with the zero word repeated over the shape. -/
theorem tileRect_eq {s : Shape} (a : FVec Ideal s .f32) :
    maximumf a (broadcast s (Scalar.ofBits (F := Ideal) .f32 0x00000000#32)) = rect a := rfl

/-! ## The host's spellings -/

/-- A general product contracting the left matrix's columns with the right one's rows. -/
theorem hostMm_eq (d : DotDims ⟨2, ![m, k]⟩ ⟨2, ![k, n]⟩ ⟨2, ![m, n]⟩)
    (wf : DotDims.WF ⟨2, ![m, k]⟩ ⟨2, ![k, n]⟩ ⟨2, ![m, n]⟩ [1] [0] [0] [1] [] []) (hd : d = plainDims m k n wf)
    (a : FVec Ideal ⟨2, ![m, k]⟩ .f32) (w : FVec Ideal ⟨2, ![k, n]⟩ .f32) :
    Host.dotGeneral d none a w = mm a w := by
  subst hd
  funext i
  obtain ⟨p, q, rfl⟩ : ∃ (p : Fin m) (q : Fin n), i = ix2 p q := ⟨i 0, i 1, eq_ix2 i⟩
  rw [mm_apply]
  simp only [Host.dotGeneral]
  rw [Ideal.dotGeneral_apply, ← Equiv.sum_comp (contrEquiv1 (plainDims m k n wf) k rfl rfl).symm]
  refine Finset.sum_congr rfl fun j _ => ?_
  rw [lhsIdx_eq wf p q j, rhsIdx_eq wf p q j]

/-- A bias vector broadcast first to one row and then down the rows. -/
theorem hostBias_eq (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) :
    broadcastInDim ⟨2, ![m, n]⟩ ![0, 1] h2 (broadcastInDim ⟨2, ![1, n]⟩ ![1] h1 b) = bias m b := by
  funext i
  obtain ⟨p, q, rfl⟩ : ∃ (p : Fin m) (q : Fin n), i = ix2 p q := ⟨i 0, i 1, eq_ix2 i⟩
  refine (broadcastInDim_apply _ h2 _ (ix2 p q) (ix2 (0 : Fin 1) q) fun ax => ?_).trans
    (broadcastInDim_apply _ h1 b (ix2 (0 : Fin 1) q) (ix1 q) fun ax => ?_)
  · match ax with
    | ⟨0, _⟩ => show (0 : Nat) = if (1 : Nat) = 1 then 0 else p.val; rw [if_pos rfl]
    | ⟨1, _⟩ => show q.val = if n = 1 then 0 else q.val; split_ifs with h <;> omega
  · match ax with
    | ⟨0, _⟩ => show q.val = if n = 1 then 0 else q.val; split_ifs with h <;> omega

/-- The maximum with the zero word as a scalar constant broadcast over the shape. -/
theorem hostRect_eq {s : Shape} (a : FVec Ideal s .f32) (h : (⟨0, ![]⟩ : Shape).BroadcastsInDim s ![]) :
    maximumf a (broadcastInDim s ![] h (constant (F := Ideal) ⟨0, ![]⟩ .f32 0x00000000#32)) = rect a := by
  funext i
  show max (a i) (broadcastInDim s ![] h (constant (F := Ideal) ⟨0, ![]⟩ .f32 0x00000000#32) i) = _
  rw [broadcastInDim_apply _ h _ i ix0 fun ax => ax.elim0]
  rfl

/-! ## Splitting a sum -/

/-- A sum over k1 + k2 + k3 terms is the sum of its first k1, next k2 and last k3 terms. -/
theorem sum_three {M : Type} [AddCommMonoid M] (k1 k2 k3 : Nat) (f : Fin (k1 + k2 + k3) → M) :
    ∑ j, f j = (∑ j : Fin k1, f ⟨j.val, by omega⟩ + ∑ j : Fin k2, f ⟨k1 + j.val, by omega⟩)
      + ∑ j : Fin k3, f ⟨k1 + k2 + j.val, by omega⟩ := by
  rw [Fin.sum_univ_add, Fin.sum_univ_add]
  rfl

/-- A sum over k1 + k2 terms is the sum of its first k1 and last k2 terms. -/
theorem sum_two {M : Type} [AddCommMonoid M] (k1 k2 : Nat) (f : Fin (k1 + k2) → M) :
    ∑ j, f j = ∑ j : Fin k1, f ⟨j.val, by omega⟩ + ∑ j : Fin k2, f ⟨k1 + j.val, by omega⟩ := by
  rw [Fin.sum_univ_add]
  rfl

end Cert.Layers

end
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.LibSoftmaxRows.lean ====
/-
  The softmax of each row of an [a, b] array, as a vector program spells it, read at an entry.

  The program takes each row's maximum from minus infinity and keeps it as an [a, 1] column, broadcasts the column
  over the b columns, subtracts, exponentiates, sums each row of exponentials and keeps the sums as an [a, 1] column,
  broadcasts that column, and divides. On the extended reals entry (p, q) of the result is
  exp(s_q - m) / (sum over k of exp(s_k - m)), where s is row p of the array and m the maximum of that row from minus
  infinity: `softmaxRows_apply`, for any extents. `maxCol_apply` reads the kept column of row maxima alone, and
  `max_negInf_rowMax` says that one more maximum with minus infinity leaves a row's maximum as it is.
-/
import Idealize.ShloMosaic.Lib.Pipeline.Value
import Idealize.ShloMosaic.Lib.ValueIdx
import Idealize.ShloMosaic.PureOps.Ideal.Laws
import proofs.«118819_j81836306858381_1_alg».proof.Proof.LibKeepdims

noncomputable section

open scoped BigOperators

namespace Cert.Lib.SoftmaxRows

open Idealize.ShloMosaic Idealize.ShloMosaic.ValueIdx Cert.Lib.Keepdims

/-- Minus infinity, as the f32 word that spells it. -/
abbrev negInf : EReal := Ideal.ofBits .f32 0xFF800000#32

/-- The maximum of a row, taken from minus infinity. -/
def rowMax {n : Nat} (s : Fin n → EReal) : EReal := (Finset.univ : Finset (Fin n)).fold max negInf s

/-- Taking the maximum with minus infinity once more changes nothing: the fold already started there. -/
theorem max_negInf_rowMax {n : Nat} (s : Fin n → EReal) : max negInf (rowMax s) = rowMax s :=
  max_eq_right ((Finset.le_fold_max negInf).mpr (Or.inl le_rfl))

/-- The softmax of a row at position q: the exponential of the entry less the row's maximum, over the sum of all
    such exponentials of the row. -/
def softmax {n : Nat} (s : Fin n → EReal) (q : Fin n) : EReal :=
  Ideal.div (Ideal.exp (s q - rowMax s)) (∑ k : Fin n, Ideal.exp (s k - rowMax s))

variable {a b : Nat}

/-- The maxima of an [a, b] array's rows, from minus infinity, kept as a column: row p of the column is the maximum
    of row p. -/
theorem maxCol_apply (v : FVec Ideal ⟨2, ![a, b]⟩ .f32)
    (hr : (⟨2, ![a, b]⟩ : Shape).Reduces [1] ⟨1, ![a]⟩) (hφ : FKind.Formats .f32)
    (hacc : (0xFF800000#32 : BitVec FTy.f32.bits) = FKind.maximumf.neutral .f32 hφ)
    (hc : (⟨1, ![a]⟩ : Shape).ShapeCasts ⟨2, ![a, 1]⟩) (p : Fin a) :
    shapeCast ⟨2, ![a, 1]⟩ (multiReduction .maximumf [1] ⟨1, ![a]⟩ v 0xFF800000#32 hr hφ hacc) hc (ix2 p (0 : Fin 1))
      = rowMax (fun k : Fin b => v (ix2 p k)) := by
  refine (castCol_apply _ hc p).trans ?_
  refine (Ideal.multiReduction_maximumf_single v _ hr hφ hacc (ix1 p)).trans ?_
  exact Finset.fold_congr fun k _ =>
    congrArg v (funext fun d => Fin.ext (by match d with | ⟨0, _⟩ => rfl | ⟨1, _⟩ => rfl))

/-- The row softmax as the vector program spells it, read at entry (p, q). -/
theorem softmaxRows_apply (s : FVec Ideal ⟨2, ![a, b]⟩ .f32)
    (hr : (⟨2, ![a, b]⟩ : Shape).Reduces [1] ⟨1, ![a]⟩) (hφ : FKind.Formats .f32)
    (haccM : (0xFF800000#32 : BitVec FTy.f32.bits) = FKind.maximumf.neutral .f32 hφ)
    (haccA : (0x00000000#32 : BitVec FTy.f32.bits) = FKind.add.neutral .f32 hφ)
    (hc : (⟨1, ![a]⟩ : Shape).ShapeCasts ⟨2, ![a, 1]⟩)
    (hb : (⟨2, ![a, 1]⟩ : Shape).Broadcasts ⟨2, ![a, b]⟩) (p : Fin a) (q : Fin b) :
    divf
        (exp (subf s (broadcastTo ⟨2, ![a, b]⟩
          (shapeCast ⟨2, ![a, 1]⟩ (multiReduction .maximumf [1] ⟨1, ![a]⟩ s 0xFF800000#32 hr hφ haccM) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 hr hφ haccM) hc) hb)))
              0x00000000#32 hr hφ haccA) hc) hb)
        (ix2 p q)
      = softmax (fun k : Fin b => s (ix2 p k)) q := by
  have he : ∀ k : Fin b,
      exp (subf s (broadcastTo ⟨2, ![a, b]⟩
          (shapeCast ⟨2, ![a, 1]⟩ (multiReduction .maximumf [1] ⟨1, ![a]⟩ s 0xFF800000#32 hr hφ haccM) hc) hb)) (ix2 p k)
        = Ideal.exp (s (ix2 p k) - rowMax (fun k : Fin b => s (ix2 p k))) := fun k =>
    congrArg (fun m => Ideal.exp (s (ix2 p k) - m))
      ((bcastCol_apply _ hb p k).trans (maxCol_apply s hr hφ haccM hc p))
  refine (congrArg₂ Ideal.div (he q) ((bcastCol_apply _ hb p q).trans (sumCol_apply _ _ hr hφ haccA hc p))).trans ?_
  unfold softmax
  exact congrArg (Ideal.div _) (Finset.sum_congr rfl fun k _ => he k)

end Cert.Lib.SoftmaxRows

end
-- ==== Proof.Spec.lean ====
/-
  What the network computes, as index formulas on the extended reals, for any extents.

    hidS x w b    (p, j) = tanh (Σ_k x(p,k) · w(k,j) + b(j))                    -- the hidden layer
    dense h w b   (p, q) = Σ_j h(p,j) · w(j,q) + b(q)                          -- a head (the library's `dense`)
    softS s       (p, q) = exp (s(p,q) - M_p) / Σ_k exp (s(p,k) - M_p)          -- the row softmax, M_p the row's maximum

  Every entry of every layer depends on ONE row of the input only. That is the whole reason a computation tiled
  by blocks of rows agrees with the computation on the whole array: `hidS_row`, `dense_row`, `softS_row` say it
  for each layer, and the tiled and the whole computation are then joined row by row.
-/
import proofs.«118819_j81836306858381_1_alg».proof.Proof.LibDenseLayers
import proofs.«118819_j81836306858381_1_alg».proof.Proof.LibSoftmaxRows

noncomputable section

open scoped BigOperators

namespace Cert.Mdn

open Idealize.ShloMosaic Idealize.ShloMosaic.ValueIdx Cert.Layers Cert.Lib.SoftmaxRows

variable {m m' k n : Nat}

/-- The hidden layer: the hyperbolic tangent of a dense layer, entry by entry. -/
def hidS (x : Mat m k) (w : Mat k n) (b : Row n) : Mat m n := fun i => Ideal.tanh (dense x w b i)

/-- The softmax of every row. -/
def softS (s : Mat m n) : Mat m n := fun i => softmax (fun q : Fin n => s (ix2 (i 0) q)) (i 1)

theorem dense_apply (a : Mat m k) (w : Mat k n) (b : Row n) (p : Fin m) (q : Fin n) :
    dense a w b (ix2 p q) = ∑ j : Fin k, a (ix2 p j) * w (ix2 j q) + b (ix1 q) := rfl

theorem hidS_apply (x : Mat m k) (w : Mat k n) (b : Row n) (p : Fin m) (q : Fin n) :
    hidS x w b (ix2 p q) = Ideal.tanh (∑ j : Fin k, x (ix2 p j) * w (ix2 j q) + b (ix1 q)) := rfl

theorem softS_apply (s : Mat m n) (p : Fin m) (q : Fin n) :
    softS s (ix2 p q) = softmax (fun q : Fin n => s (ix2 p q)) q := rfl

/-- A dense layer's row p depends on the input's row p only. -/
theorem dense_row (a : Mat m k) (a' : Mat m' k) (w : Mat k n) (b : Row n) (p : Fin m) (p' : Fin m')
    (h : ∀ j : Fin k, a (ix2 p j) = a' (ix2 p' j)) (q : Fin n) :
    dense a w b (ix2 p q) = dense a' w b (ix2 p' q) := by
  rw [dense_apply, dense_apply]
  exact congrArg (· + b (ix1 q)) (Finset.sum_congr rfl fun j _ => by rw [h j])

/-- So does the hidden layer's. -/
theorem hidS_row (x : Mat m k) (x' : Mat m' k) (w : Mat k n) (b : Row n) (p : Fin m) (p' : Fin m')
    (h : ∀ j : Fin k, x (ix2 p j) = x' (ix2 p' j)) (q : Fin n) :
    hidS x w b (ix2 p q) = hidS x' w b (ix2 p' q) :=
  congrArg Ideal.tanh (dense_row x x' w b p p' h q)

/-- And a row softmax's row p depends on the logits' row p only. -/
theorem softS_row (s : Mat m n) (s' : Mat m' n) (p : Fin m) (p' : Fin m')
    (h : ∀ q : Fin n, s (ix2 p q) = s' (ix2 p' q)) (q : Fin n) :
    softS s (ix2 p q) = softS s' (ix2 p' q) := by
  rw [softS_apply, softS_apply]
  exact congrArg (fun r => softmax r q) (funext h)

end Cert.Mdn

end
-- ==== Proof.SpecRows.lean ====
/-
  The heads of the network, row by row. Each head's entry (p, q) is a function of row p of the input x alone:
  the hidden layer's row p is, the dense head's row p depends on the hidden row p, and the softmax normalises
  within the row. So two inputs that agree on one row (a block of rows cut out of the whole array, against the
  whole array) give the same head entries on that row.
-/
import proofs.«118819_j81836306858381_1_alg».proof.Proof.Spec

noncomputable section

namespace Cert.Mdn

open Idealize.ShloMosaic Idealize.ShloMosaic.ValueIdx Cert.Layers Cert.Lib.SoftmaxRows

variable {m m' k n r : Nat}

/-- A dense head over the hidden layer: `tanh (x · w1 + b1) · w + b`. -/
def headS (x : Mat m k) (w1 : Mat k n) (b1 : Row n) (w : Mat n r) (b : Row r) : Mat m r :=
  dense (hidS x w1 b1) w b

/-- The mixture weights: the row softmax of the head. -/
def piS (x : Mat m k) (w1 : Mat k n) (b1 : Row n) (w : Mat n r) (b : Row r) : Mat m r :=
  softS (headS x w1 b1 w b)

/-- A head's row p depends on the input's row p only. -/
theorem headS_row (x : Mat m k) (x' : Mat m' k) (w1 : Mat k n) (b1 : Row n) (w : Mat n r) (b : Row r)
    (p : Fin m) (p' : Fin m') (h : ∀ j : Fin k, x (ix2 p j) = x' (ix2 p' j)) (q : Fin r) :
    headS x w1 b1 w b (ix2 p q) = headS x' w1 b1 w b (ix2 p' q) :=
  dense_row _ _ w b p p' (fun j => hidS_row x x' w1 b1 p p' h j) q

/-- So does the mixture weights' row p. -/
theorem piS_row (x : Mat m k) (x' : Mat m' k) (w1 : Mat k n) (b1 : Row n) (w : Mat n r) (b : Row r)
    (p : Fin m) (p' : Fin m') (h : ∀ j : Fin k, x (ix2 p j) = x' (ix2 p' j)) (q : Fin r) :
    piS x w1 b1 w b (ix2 p q) = piS x' w1 b1 w b (ix2 p' q) :=
  softS_row _ _ p p' (fun q' => headS_row x x' w1 b1 w b p p' h q') q

end Cert.Mdn

end
-- ==== Proof.LibSoftmaxRowsRemax.lean ====
/-
  The softmax of each row of an [a, b] array, as a vector program spells it when it takes the maximum of the row
  maxima with minus infinity once more before subtracting them, read at an entry on the extended reals, for any
  extents.

  `softmaxFrom s m` is the program from a given vector m of row shifts onwards: the shifts kept as an [a, 1] column and
  broadcast over the b columns, subtracted from s, exponentiated, each row of exponentials summed and the sums kept
  as a column and broadcast, and the quotient. With m the row maxima from minus infinity it is the row softmax
  (`softmaxRows_apply`); and the maximum of those maxima with minus infinity is the maxima themselves (`remax_eq`:
  the fold already started at minus infinity), so the program with the extra maximum is the row softmax as well:
  `softmaxRemax_apply` at an entry, `softmaxRemax_eq` for the whole array.
-/
import Idealize.ShloMosaic.Lib.Pipeline.Value
import Idealize.ShloMosaic.Lib.ValueIdx
import Idealize.ShloMosaic.PureOps.Ideal.Laws
import proofs.«118819_j81836306858381_1_alg».proof.Proof.LibSoftmaxRows

noncomputable section

open scoped BigOperators

namespace Cert.Lib.SoftmaxRows

open Idealize.ShloMosaic Idealize.ShloMosaic.ValueIdx

variable {a b : Nat}

/-- The row softmax program from a vector m of row shifts onwards: exp (s - m) over its row sums. -/
def softmaxFrom (s : FVec Ideal ⟨2, ![a, b]⟩ .f32) (m : FVec Ideal ⟨1, ![a]⟩ .f32)
    (hr : (⟨2, ![a, b]⟩ : Shape).Reduces [1] ⟨1, ![a]⟩) (hφ : FKind.Formats .f32)
    (haccA : (0x00000000#32 : BitVec FTy.f32.bits) = FKind.add.neutral .f32 hφ)
    (hc : (⟨1, ![a]⟩ : Shape).ShapeCasts ⟨2, ![a, 1]⟩)
    (hb : (⟨2, ![a, 1]⟩ : Shape).Broadcasts ⟨2, ![a, b]⟩) : FVec Ideal ⟨2, ![a, b]⟩ .f32 :=
  divf (exp (subf s (broadcastTo ⟨2, ![a, b]⟩ (shapeCast ⟨2, ![a, 1]⟩ m hc) hb)))
    (broadcastTo ⟨2, ![a, b]⟩
      (shapeCast ⟨2, ![a, 1]⟩
        (multiReduction .add [1] ⟨1, ![a]⟩
          (exp (subf s (broadcastTo ⟨2, ![a, b]⟩ (shapeCast ⟨2, ![a, 1]⟩ m hc) hb))) 0x00000000#32 hr hφ haccA) hc) hb)

/-- The maximum of the row maxima with minus infinity is the row maxima: each is a fold of max that started at
    minus infinity. -/
theorem remax_eq (s : FVec Ideal ⟨2, ![a, b]⟩ .f32)
    (hr : (⟨2, ![a, b]⟩ : Shape).Reduces [1] ⟨1, ![a]⟩) (hφ : FKind.Formats .f32)
    (haccM : (0xFF800000#32 : BitVec FTy.f32.bits) = FKind.maximumf.neutral .f32 hφ) :
    maximumf (broadcast ⟨1, ![a]⟩ (Scalar.ofBits (F := Ideal) .f32 0xFF800000#32))
        (multiReduction .maximumf [1] ⟨1, ![a]⟩ s 0xFF800000#32 hr hφ haccM)
      = multiReduction .maximumf [1] ⟨1, ![a]⟩ s 0xFF800000#32 hr hφ haccM := by
  funext j
  show max (Ideal.ofBits .f32 0xFF800000#32) (multiReduction .maximumf [1] ⟨1, ![a]⟩ s 0xFF800000#32 hr hφ haccM j) = _
  rw [Ideal.multiReduction_maximumf_single s _ hr hφ haccM j]
  exact max_eq_right ((Finset.le_fold_max _).mpr (Or.inl le_rfl))

/-- The row softmax with the extra maximum, read at entry (p, q). -/
theorem softmaxRemax_apply (s : FVec Ideal ⟨2, ![a, b]⟩ .f32)
    (hr : (⟨2, ![a, b]⟩ : Shape).Reduces [1] ⟨1, ![a]⟩) (hφ : FKind.Formats .f32)
    (haccM : (0xFF800000#32 : BitVec FTy.f32.bits) = FKind.maximumf.neutral .f32 hφ)
    (haccA : (0x00000000#32 : BitVec FTy.f32.bits) = FKind.add.neutral .f32 hφ)
    (hc : (⟨1, ![a]⟩ : Shape).ShapeCasts ⟨2, ![a, 1]⟩)
    (hb : (⟨2, ![a, 1]⟩ : Shape).Broadcasts ⟨2, ![a, b]⟩) (p : Fin a) (q : Fin b) :
    softmaxFrom s
        (maximumf (broadcast ⟨1, ![a]⟩ (Scalar.ofBits (F := Ideal) .f32 0xFF800000#32))
          (multiReduction .maximumf [1] ⟨1, ![a]⟩ s 0xFF800000#32 hr hφ haccM))
        hr hφ haccA hc hb (ix2 p q)
      = softmax (fun k : Fin b => s (ix2 p k)) q :=
  (congrArg (fun m => softmaxFrom s m hr hφ haccA hc hb (ix2 p q)) (remax_eq s hr hφ haccM)).trans
    (softmaxRows_apply s hr hφ haccM haccA hc hb p q)

/-- The same for the whole array: every entry is the softmax of its row. -/
theorem softmaxRemax_eq (s : FVec Ideal ⟨2, ![a, b]⟩ .f32)
    (hr : (⟨2, ![a, b]⟩ : Shape).Reduces [1] ⟨1, ![a]⟩) (hφ : FKind.Formats .f32)
    (haccM : (0xFF800000#32 : BitVec FTy.f32.bits) = FKind.maximumf.neutral .f32 hφ)
    (haccA : (0x00000000#32 : BitVec FTy.f32.bits) = FKind.add.neutral .f32 hφ)
    (hc : (⟨1, ![a]⟩ : Shape).ShapeCasts ⟨2, ![a, 1]⟩)
    (hb : (⟨2, ![a, 1]⟩ : Shape).Broadcasts ⟨2, ![a, b]⟩) :
    softmaxFrom s
        (maximumf (broadcast ⟨1, ![a]⟩ (Scalar.ofBits (F := Ideal) .f32 0xFF800000#32))
          (multiReduction .maximumf [1] ⟨1, ![a]⟩ s 0xFF800000#32 hr hφ haccM))
        hr hφ haccA hc hb
      = fun i => softmax (fun k : Fin b => s (ix2 (i 0) k)) (i 1) := by
  funext i
  obtain ⟨p, q, rfl⟩ : ∃ (p : Fin a) (q : Fin b), i = ix2 p q := ⟨i 0, i 1, eq_ix2 i⟩
  exact softmaxRemax_apply s hr hφ haccM haccA hc hb p q

end Cert.Lib.SoftmaxRows

end
-- ==== Proof.TileIsSpec.lean ====
/-
  The payloads of one block are the specification's layers of that block, on the extended reals.

    k0_pay2 x W1 b1            = hidS x W1 b1                          -- the hidden layer of the block
    k0_pay3 x W1 b1 Wpi bpi    = softS (dense (hidS x W1 b1) Wpi bpi)  -- the mixture weights of the block
    k0_pay4 x W1 b1 Wmu bmu    = dense (hidS x W1 b1) Wmu bmu          -- the means of the block
    k0_pay1 h Wsig bsig        = dense h Wsig bsig                     -- the covariance entries from the hidden block h

  On the extended reals a cast to a narrower float format changes nothing; a product on the matrix unit into a zero
  accumulator is the sum of products; a bias laid out as one row and repeated down the rows is the bias repeated;
  the unary operations and the quotient act entry by entry. The block's row softmax takes the maximum of the row
  maxima with minus infinity once more, which changes nothing, and is then the softmax of each row.
-/
import proofs.«118819_j81836306858381_1_alg».proof.Proof.Spec
import proofs.«118819_j81836306858381_1_alg».proof.Proof.LibSoftmaxRowsRemax
import proofs.«118819_j81836306858381_1_alg».proof.Proof.Gen.KernelIdeal.Skeleton

noncomputable section

namespace Cert.KernelIdeal.TileValue

open Cert.KernelIdeal Cert.KernelIdeal.Gen Idealize.ShloMosaic Idealize.ShloMosaic.ValueIdx

/-- On the extended reals a cast to a narrower float format is the identity. -/
theorem truncf_id {s : Shape} {φ ψ : FTy} (x : FVec Ideal s φ) (h : ψ.bits < φ.bits) : truncf ψ x h = x := rfl

/-- The hidden layer of one block is the specification's. -/
theorem pay2_eq (v0 : FVec Ideal S1024x256 .f32) (v2 : FVec Ideal S256x1024 .f32) (v5 : FVec Ideal S1024 .f32) :
    k0_pay2 (F := Ideal) v0 v2 v5 = Cert.Mdn.hidS (m := 1024) (k := 256) (n := 1024) v0 v2 v5 :=
  congrArg₂ (fun u v => truncf .bf16 (tanh (addf u v)) bitsLt_bf16_f32)
    (Cert.Layers.tileMm_eq (m := 1024) (k := 256) (n := 1024) dot_S1024x256_S256x1024_S1024x1024_1_0_0_1_n_n
      dot_S1024x256_S256x1024_S1024x1024_1_0_0_1_n_n_wf rfl (truncf .bf16 v0 bitsLt_bf16_f32) v2 bitsLt_bf16_f32)
    (Cert.Layers.tileBias_eq (m := 1024) (n := 1024) v5 shapeCasts_S1024_S1x1024 broadcasts_S1x1024_S1024x1024)

/-- The covariance entries of one block are a dense layer of the hidden block. -/
theorem pay1_eq (v10 : FVec Ideal S1024x1024 .bf16) (v38 : FVec Ideal S1024x192 .f32) (v41 : FVec Ideal S192 .f32) :
    k0_pay1 (F := Ideal) v10 v38 v41 = Cert.Layers.dense (m := 1024) (k := 1024) (n := 192) v10 v38 v41 :=
  congrArg₂ (fun u v => addf u v)
    (Cert.Layers.tileMm_eq (m := 1024) (k := 1024) (n := 192) dot_S1024x1024_S1024x192_S1024x192_1_0_0_1_n_n
      dot_S1024x1024_S1024x192_S1024x192_1_0_0_1_n_n_wf rfl v10 v38 bitsLt_bf16_f32)
    (Cert.Layers.tileBias_eq (m := 1024) (n := 192) v41 shapeCasts_S192_S1x192 broadcasts_S1x192_S1024x192)

/-- The means of one block are a dense layer of the block's hidden layer. -/
theorem pay4_eq (v0 : FVec Ideal S1024x256 .f32) (v2 : FVec Ideal S256x1024 .f32) (v5 : FVec Ideal S1024 .f32)
    (v30 : FVec Ideal S1024x96 .f32) (v33 : FVec Ideal S96 .f32) :
    k0_pay4 (F := Ideal) v0 v2 v5 v30 v33
      = Cert.Layers.dense (m := 1024) (k := 1024) (n := 96) (Cert.Mdn.hidS (m := 1024) (k := 256) (n := 1024) v0 v2 v5) v30 v33 :=
  congrArg₂ (fun u v => addf u v)
    ((Cert.Layers.tileMm_eq (m := 1024) (k := 1024) (n := 96) dot_S1024x1024_S1024x96_S1024x96_1_0_0_1_n_n
      dot_S1024x1024_S1024x96_S1024x96_1_0_0_1_n_n_wf rfl (k0_pay2 (F := Ideal) v0 v2 v5) v30 bitsLt_bf16_f32).trans
      (congrArg (fun h => Cert.Layers.mm (m := 1024) (k := 1024) (n := 96) h v30) (pay2_eq v0 v2 v5)))
    (Cert.Layers.tileBias_eq (m := 1024) (n := 96) v33 shapeCasts_S96_S1x96 broadcasts_S1x96_S1024x96)

/-- The mixture head's logits of one block, as the program spells them. -/
def logitsT (v0 : FVec Ideal S1024x256 .f32) (v2 : FVec Ideal S256x1024 .f32) (v5 : FVec Ideal S1024 .f32)
    (v11 : FVec Ideal S1024x32 .f32) (v14 : FVec Ideal S32 .f32) : FVec Ideal S1024x32 .f32 :=
  addf (matmul dot_S1024x1024_S1024x32_S1024x32_1_0_0_1_n_n none (k0_pay2 (F := Ideal) v0 v2 v5)
      (truncf .bf16 v11 bitsLt_bf16_f32) (constant S1024x32 .f32 0x00000000#32))
    (broadcastTo S1024x32 (shapeCast S1x32 v14 shapeCasts_S32_S1x32) broadcasts_S1x32_S1024x32)

/-- They are a dense layer of the block's hidden layer. -/
theorem logitsT_eq (v0 : FVec Ideal S1024x256 .f32) (v2 : FVec Ideal S256x1024 .f32) (v5 : FVec Ideal S1024 .f32)
    (v11 : FVec Ideal S1024x32 .f32) (v14 : FVec Ideal S32 .f32) :
    logitsT v0 v2 v5 v11 v14
      = Cert.Layers.dense (m := 1024) (k := 1024) (n := 32) (Cert.Mdn.hidS (m := 1024) (k := 256) (n := 1024) v0 v2 v5) v11 v14 :=
  congrArg₂ (fun u v => addf u v)
    ((Cert.Layers.tileMm_eq (m := 1024) (k := 1024) (n := 32) dot_S1024x1024_S1024x32_S1024x32_1_0_0_1_n_n
      dot_S1024x1024_S1024x32_S1024x32_1_0_0_1_n_n_wf rfl (k0_pay2 (F := Ideal) v0 v2 v5) v11 bitsLt_bf16_f32).trans
      (congrArg (fun h => Cert.Layers.mm (m := 1024) (k := 1024) (n := 32) h v11) (pay2_eq v0 v2 v5)))
    (Cert.Layers.tileBias_eq (m := 1024) (n := 32) v14 shapeCasts_S32_S1x32 broadcasts_S1x32_S1024x32)

/-- The block's softmax head is the row softmax program, with its extra maximum, run on the block's logits. -/
theorem pay3_spelt (v0 : FVec Ideal S1024x256 .f32) (v2 : FVec Ideal S256x1024 .f32) (v5 : FVec Ideal S1024 .f32)
    (v11 : FVec Ideal S1024x32 .f32) (v14 : FVec Ideal S32 .f32) :
    k0_pay3 (F := Ideal) v0 v2 v5 v11 v14
      = Cert.Lib.SoftmaxRows.softmaxFrom (a := 1024) (b := 32) (logitsT v0 v2 v5 v11 v14)
          (maximumf (broadcast S1024 (Scalar.ofBits (F := Ideal) .f32 0xFF800000#32))
            (multiReduction .maximumf [1] S1024 (logitsT v0 v2 v5 v11 v14) 0xFF800000#32 reduces_S1024x32_S1024 (.inl rfl) rfl))
          reduces_S1024x32_S1024 (.inl rfl) rfl shapeCasts_S1024_S1024x1 broadcasts_S1024x1_S1024x32 := rfl

/-- The mixture weights of one block are the row softmax of the dense layer of the block's hidden layer. -/
theorem pay3_eq (v0 : FVec Ideal S1024x256 .f32) (v2 : FVec Ideal S256x1024 .f32) (v5 : FVec Ideal S1024 .f32)
    (v11 : FVec Ideal S1024x32 .f32) (v14 : FVec Ideal S32 .f32) :
    k0_pay3 (F := Ideal) v0 v2 v5 v11 v14
      = Cert.Mdn.softS (m := 1024) (n := 32)
          (Cert.Layers.dense (m := 1024) (k := 1024) (n := 32) (Cert.Mdn.hidS (m := 1024) (k := 256) (n := 1024) v0 v2 v5) v11 v14) :=
  (pay3_spelt v0 v2 v5 v11 v14).trans
    ((Cert.Lib.SoftmaxRows.softmaxRemax_eq (a := 1024) (b := 32) (logitsT v0 v2 v5 v11 v14) reduces_S1024x32_S1024 (.inl rfl) rfl rfl
        shapeCasts_S1024_S1024x1 broadcasts_S1024x1_S1024x32).trans
      (congrArg (Cert.Mdn.softS (m := 1024) (n := 32)) (logitsT_eq v0 v2 v5 v11 v14)))

end Cert.KernelIdeal.TileValue

end
-- ==== Proof.KernelValue.lean ====
/-
  From blocks to the arrays: after the region each output array is the specification's layer of the whole input.

  At grid point t the region hands the body rows 1024 t … 1024 t + 1023 of x and the eight weight and bias arrays
  whole, and writes back rows 1024 t … 1024 t + 1023 of the mixture weights, the means and the covariance entries.
  What the body leaves in an output's buffer is the layer of the loaded block (the payloads are the specification's
  layers), and every entry of a layer depends on one row of x only; so row p of the block's layer is row 1024 t + p
  of the whole array's layer, that is, the block written back is the block of the whole array's layer. The 128
  blocks of 1024 rows cover the 131072 rows (row r lies in the block of the point r / 1024), so each output array
  ends holding its layer of the arguments:

    mixture weights     = piS   x W1 b1 Wpi  bpi       -- softmax over the rows of tanh (x W1 + b1) Wpi + bpi
    means               = headS x W1 b1 Wmu  bmu       -- tanh (x W1 + b1) Wmu + bmu
    covariance entries  = headS x W1 b1 Wsig bsig
-/
import proofs.«118819_j81836306858381_1_alg».proof.Proof.FrameIdeal
import proofs.«118819_j81836306858381_1_alg».proof.Proof.SpecRows
import proofs.«118819_j81836306858381_1_alg».proof.Proof.TileIsSpec
import Idealize.ShloMosaic.Lib.Pipeline.Value

noncomputable section

open Idealize.ShloMosaic Idealize.ShloMosaic.TcCoe Idealize.SL.Sem
open Idealize.ShloMosaic.Pipeline (Dat)

namespace Cert.KernelIdeal.KV

open Cert.KernelIdeal Cert.KernelIdeal.Gen Cert.KernelIdeal.Fr Idealize.ShloMosaic.ValueIdx

variable (m : (ℓ : Loc nD τ sig) → Buf (Elt Ideal) ℓ)

/-! ## The printed index maps, decided once over the grid -/

theorem zeros2 : (![0, 0] : Fin 2 → Nat) = fun _ => 0 := funext fun a => by fin_cases a <;> rfl
theorem zeros1 : (![0] : Fin 1 → Nat) = fun _ => 0 := funext fun a => by fin_cases a <;> rfl

/-- The blocks of x and of the three outputs move down the rows with the point: block index (t, 0). -/
theorem index_rows : ∀ t : Fin cfg0.N,
    win0_0.index t (0 : Fin 2) = t.val ∧ win0_0.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- The weights and biases are handed over whole at every point: block index zero on every axis. -/
theorem index_whole : ∀ t : Fin cfg0.N,
    win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-! ## The input blocks: x by rows, the weights and biases whole -/

/-- Entry (p, k) of the block of x at point t is entry (1024 t + p, k) of x. -/
theorem block0_rows (c : Dev nD) (t : Fin cfg0.N) (p : Fin 1024) (k : Fin 256) (hp : 1024 * t.val + p.val < 131072) :
    (iblk m c 0 t : S1024x256.Idx → EReal) (ix2 p k)
      = (V m c main_arg0 : S131072x256.Idx → EReal) (ix2 ⟨1024 * t.val + p.val, hp⟩ k) := by
  obtain ⟨r0_0, r0_1, -⟩ := index_rows t
  show (V m c main_arg0 : S131072x256.Idx → EReal) (((cfg0.win 0).blk t).view.emb (ix2 p k)) = _
  refine congrArg (V m c main_arg0 : S131072x256.Idx → EReal) (funext fun a => Fin.ext ?_)
  match a with
  | ⟨0, _⟩ => show win0_0.index t (0 : Fin 2) * 1024 + 1 * p.val = 1024 * t.val + p.val; omega
  | ⟨1, _⟩ => show win0_0.index t (1 : Fin 2) * 256 + 1 * k.val = k.val; omega

theorem block1_whole (c : Dev nD) (t : Fin cfg0.N) :
    (iblk m c 1 t : S256x1024.Idx → EReal) = (V m c main_arg1 : S256x1024.Idx → EReal) := by
  obtain ⟨a1_0, a1_1, a2_0, a3_0, a3_1, a4_0, a5_0, a5_1, a6_0, a7_0, a7_1, a8_0⟩ := index_whole t
  funext y
  show (V m c main_arg1 : S256x1024.Idx → EReal) (((cfg0.win 1).blk t).view.emb y) = _
  refine congrArg (V m c main_arg1 : S256x1024.Idx → EReal) (funext fun a => Fin.ext ?_)
  match a with
  | ⟨0, _⟩ => show win0_1.index t (0 : Fin 2) * 256 + 1 * (y 0).val = (y 0).val; omega
  | ⟨1, _⟩ => show win0_1.index t (1 : Fin 2) * 1024 + 1 * (y 1).val = (y 1).val; omega

theorem block2_whole (c : Dev nD) (t : Fin cfg0.N) :
    (iblk m c 2 t : S1024.Idx → EReal) = (V m c main_arg2 : S1024.Idx → EReal) := by
  obtain ⟨a1_0, a1_1, a2_0, a3_0, a3_1, a4_0, a5_0, a5_1, a6_0, a7_0, a7_1, a8_0⟩ := index_whole t
  funext y
  show (V m c main_arg2 : S1024.Idx → EReal) (((cfg0.win 2).blk t).view.emb y) = _
  refine congrArg (V m c main_arg2 : S1024.Idx → EReal) (funext fun a => Fin.ext ?_)
  match a with
  | ⟨0, _⟩ => show win0_2.index t (0 : Fin 1) * 1024 + 1 * (y 0).val = (y 0).val; omega

theorem block3_whole (c : Dev nD) (t : Fin cfg0.N) :
    (iblk m c 3 t : S1024x32.Idx → EReal) = (V m c main_arg3 : S1024x32.Idx → EReal) := by
  obtain ⟨a1_0, a1_1, a2_0, a3_0, a3_1, a4_0, a5_0, a5_1, a6_0, a7_0, a7_1, a8_0⟩ := index_whole t
  funext y
  show (V m c main_arg3 : S1024x32.Idx → EReal) (((cfg0.win 3).blk t).view.emb y) = _
  refine congrArg (V m c main_arg3 : S1024x32.Idx → EReal) (funext fun a => Fin.ext ?_)
  match a with
  | ⟨0, _⟩ => show win0_3.index t (0 : Fin 2) * 1024 + 1 * (y 0).val = (y 0).val; omega
  | ⟨1, _⟩ => show win0_3.index t (1 : Fin 2) * 32 + 1 * (y 1).val = (y 1).val; omega

theorem block4_whole (c : Dev nD) (t : Fin cfg0.N) :
    (iblk m c 4 t : S32.Idx → EReal) = (V m c main_arg4 : S32.Idx → EReal) := by
  obtain ⟨a1_0, a1_1, a2_0, a3_0, a3_1, a4_0, a5_0, a5_1, a6_0, a7_0, a7_1, a8_0⟩ := index_whole t
  funext y
  show (V m c main_arg4 : S32.Idx → EReal) (((cfg0.win 4).blk t).view.emb y) = _
  refine congrArg (V m c main_arg4 : S32.Idx → EReal) (funext fun a => Fin.ext ?_)
  match a with
  | ⟨0, _⟩ => show win0_4.index t (0 : Fin 1) * 32 + 1 * (y 0).val = (y 0).val; omega

theorem block5_whole (c : Dev nD) (t : Fin cfg0.N) :
    (iblk m c 5 t : S1024x96.Idx → EReal) = (V m c main_arg5 : S1024x96.Idx → EReal) := by
  obtain ⟨a1_0, a1_1, a2_0, a3_0, a3_1, a4_0, a5_0, a5_1, a6_0, a7_0, a7_1, a8_0⟩ := index_whole t
  funext y
  show (V m c main_arg5 : S1024x96.Idx → EReal) (((cfg0.win 5).blk t).view.emb y) = _
  refine congrArg (V m c main_arg5 : S1024x96.Idx → EReal) (funext fun a => Fin.ext ?_)
  match a with
  | ⟨0, _⟩ => show win0_5.index t (0 : Fin 2) * 1024 + 1 * (y 0).val = (y 0).val; omega
  | ⟨1, _⟩ => show win0_5.index t (1 : Fin 2) * 96 + 1 * (y 1).val = (y 1).val; omega

theorem block6_whole (c : Dev nD) (t : Fin cfg0.N) :
    (iblk m c 6 t : S96.Idx → EReal) = (V m c main_arg6 : S96.Idx → EReal) := by
  obtain ⟨a1_0, a1_1, a2_0, a3_0, a3_1, a4_0, a5_0, a5_1, a6_0, a7_0, a7_1, a8_0⟩ := index_whole t
  funext y
  show (V m c main_arg6 : S96.Idx → EReal) (((cfg0.win 6).blk t).view.emb y) = _
  refine congrArg (V m c main_arg6 : S96.Idx → EReal) (funext fun a => Fin.ext ?_)
  match a with
  | ⟨0, _⟩ => show win0_6.index t (0 : Fin 1) * 96 + 1 * (y 0).val = (y 0).val; omega

theorem block7_whole (c : Dev nD) (t : Fin cfg0.N) :
    (iblk m c 7 t : S1024x192.Idx → EReal) = (V m c main_arg7 : S1024x192.Idx → EReal) := by
  obtain ⟨a1_0, a1_1, a2_0, a3_0, a3_1, a4_0, a5_0, a5_1, a6_0, a7_0, a7_1, a8_0⟩ := index_whole t
  funext y
  show (V m c main_arg7 : S1024x192.Idx → EReal) (((cfg0.win 7).blk t).view.emb y) = _
  refine congrArg (V m c main_arg7 : S1024x192.Idx → EReal) (funext fun a => Fin.ext ?_)
  match a with
  | ⟨0, _⟩ => show win0_7.index t (0 : Fin 2) * 1024 + 1 * (y 0).val = (y 0).val; omega
  | ⟨1, _⟩ => show win0_7.index t (1 : Fin 2) * 192 + 1 * (y 1).val = (y 1).val; omega

theorem block8_whole (c : Dev nD) (t : Fin cfg0.N) :
    (iblk m c 8 t : S192.Idx → EReal) = (V m c main_arg8 : S192.Idx → EReal) := by
  obtain ⟨a1_0, a1_1, a2_0, a3_0, a3_1, a4_0, a5_0, a5_1, a6_0, a7_0, a7_1, a8_0⟩ := index_whole t
  funext y
  show (V m c main_arg8 : S192.Idx → EReal) (((cfg0.win 8).blk t).view.emb y) = _
  refine congrArg (V m c main_arg8 : S192.Idx → EReal) (funext fun a => Fin.ext ?_)
  match a with
  | ⟨0, _⟩ => show win0_8.index t (0 : Fin 1) * 192 + 1 * (y 0).val = (y 0).val; omega

/-! ## What the body leaves in each output's buffer, as the specification's layer of the loaded blocks -/

theorem out9_eq (x0 : Vec Ideal S1024x256 .f32) (x1 : Vec Ideal S256x1024 .f32) (x2 : Vec Ideal S1024 .f32)
    (x3 : Vec Ideal S1024x32 .f32) (x4 : Vec Ideal S32 .f32) :
    out9 (F := Ideal) x0 x1 x2 x3 x4 = Cert.Mdn.piS (m := 1024) (k := 256) (n := 1024) (r := 32) x0 x1 x2 x3 x4 := by
  unfold out9
  rw [View.canon_unit_zero zeros2]
  simp only [View.ld_unit_zero (S := S1024x256) zeros2, View.ld_unit_zero (S := S256x1024) zeros2,
    View.ld_unit_zero (S := S1024) zeros1, View.ld_unit_zero (S := S1024x32) zeros2, View.ld_unit_zero (S := S32) zeros1]
  exact TileValue.pay3_eq x0 x1 x2 x3 x4

theorem out10_eq (x0 : Vec Ideal S1024x256 .f32) (x1 : Vec Ideal S256x1024 .f32) (x2 : Vec Ideal S1024 .f32)
    (x5 : Vec Ideal S1024x96 .f32) (x6 : Vec Ideal S96 .f32) :
    out10 (F := Ideal) x0 x1 x2 x5 x6 = Cert.Mdn.headS (m := 1024) (k := 256) (n := 1024) (r := 96) x0 x1 x2 x5 x6 := by
  unfold out10
  rw [View.canon_unit_zero zeros2]
  simp only [View.ld_unit_zero (S := S1024x256) zeros2, View.ld_unit_zero (S := S256x1024) zeros2,
    View.ld_unit_zero (S := S1024) zeros1, View.ld_unit_zero (S := S1024x96) zeros2, View.ld_unit_zero (S := S96) zeros1]
  exact TileValue.pay4_eq x0 x1 x2 x5 x6

theorem out11_eq (x0 : Vec Ideal S1024x256 .f32) (x1 : Vec Ideal S256x1024 .f32) (x2 : Vec Ideal S1024 .f32)
    (x7 : Vec Ideal S1024x192 .f32) (x8 : Vec Ideal S192 .f32) :
    out11 (F := Ideal) x0 x1 x2 x7 x8 = Cert.Mdn.headS (m := 1024) (k := 256) (n := 1024) (r := 192) x0 x1 x2 x7 x8 := by
  unfold out11
  rw [View.canon_unit_zero zeros2]
  simp only [View.ld_unit_zero (S := S1024x256) zeros2, View.ld_unit_zero (S := S256x1024) zeros2,
    View.ld_unit_zero (S := S1024) zeros1, View.ld_unit_zero (S := S1024x192) zeros2, View.ld_unit_zero (S := S192) zeros1]
  exact (TileValue.pay1_eq (k0_pay2 (F := Ideal) x0 x1 x2) x7 x8).trans
    (congrArg (fun h => Cert.Layers.dense (m := 1024) (k := 1024) (n := 192) h x7 x8) (TileValue.pay2_eq x0 x1 x2))

/-! ## A block's layer is the block of the whole array's layer -/

/-- If a block x0 holds rows 1024 t … 1024 t + 1023 of X0, entry j of the block's head is entry i of the whole array's
    head whenever i is j moved down 1024 t rows. -/
theorem headS_block {r : Nat} (X0 : Cert.Layers.Mat 131072 256) (x0 : Cert.Layers.Mat 1024 256) (w1 : Cert.Layers.Mat 256 1024)
    (b1 : Cert.Layers.Row 1024) (w : Cert.Layers.Mat 1024 r) (b : Cert.Layers.Row r) (tv : Nat)
    (hx : ∀ (p : Fin 1024) (k : Fin 256) (hp : 1024 * tv + p.val < 131072), x0 (ix2 p k) = X0 (ix2 ⟨1024 * tv + p.val, hp⟩ k))
    (j : (⟨2, ![1024, r]⟩ : Shape).Idx) (i : (⟨2, ![131072, r]⟩ : Shape).Idx)
    (h0 : (i 0).val = 1024 * tv + (j 0).val) (h1 : (i 1).val = (j 1).val) :
    Cert.Mdn.headS x0 w1 b1 w b j = Cert.Mdn.headS X0 w1 b1 w b i := by
  obtain ⟨p, q, rfl⟩ : ∃ (p : Fin 1024) (q : Fin r), j = ix2 p q := ⟨j 0, j 1, eq_ix2 j⟩
  have h0' : (i 0).val = 1024 * tv + p.val := h0
  have h1' : (i 1).val = q.val := h1
  have hi0 : (i 0).val < 131072 := (i 0).isLt
  have hp : 1024 * tv + p.val < 131072 := by omega
  have ei : i = ix2 (⟨1024 * tv + p.val, hp⟩ : Fin 131072) q := by
    funext a; apply Fin.ext
    match a with
    | ⟨0, _⟩ => exact h0'
    | ⟨1, _⟩ => exact h1'
  rw [ei]
  exact Cert.Mdn.headS_row x0 X0 w1 b1 w b p ⟨1024 * tv + p.val, hp⟩ (fun k => hx p k hp) q

/-- The same for the mixture weights. -/
theorem piS_block {r : Nat} (X0 : Cert.Layers.Mat 131072 256) (x0 : Cert.Layers.Mat 1024 256) (w1 : Cert.Layers.Mat 256 1024)
    (b1 : Cert.Layers.Row 1024) (w : Cert.Layers.Mat 1024 r) (b : Cert.Layers.Row r) (tv : Nat)
    (hx : ∀ (p : Fin 1024) (k : Fin 256) (hp : 1024 * tv + p.val < 131072), x0 (ix2 p k) = X0 (ix2 ⟨1024 * tv + p.val, hp⟩ k))
    (j : (⟨2, ![1024, r]⟩ : Shape).Idx) (i : (⟨2, ![131072, r]⟩ : Shape).Idx)
    (h0 : (i 0).val = 1024 * tv + (j 0).val) (h1 : (i 1).val = (j 1).val) :
    Cert.Mdn.piS x0 w1 b1 w b j = Cert.Mdn.piS X0 w1 b1 w b i := by
  obtain ⟨p, q, rfl⟩ : ∃ (p : Fin 1024) (q : Fin r), j = ix2 p q := ⟨j 0, j 1, eq_ix2 j⟩
  have h0' : (i 0).val = 1024 * tv + p.val := h0
  have h1' : (i 1).val = q.val := h1
  have hi0 : (i 0).val < 131072 := (i 0).isLt
  have hp : 1024 * tv + p.val < 131072 := by omega
  have ei : i = ix2 (⟨1024 * tv + p.val, hp⟩ : Fin 131072) q := by
    funext a; apply Fin.ext
    match a with
    | ⟨0, _⟩ => exact h0'
    | ⟨1, _⟩ => exact h1'
  rw [ei]
  exact Cert.Mdn.piS_row x0 X0 w1 b1 w b p ⟨1024 * tv + p.val, hp⟩ (fun k => hx p k hp) q

/-! ## What each point writes back -/

/-- The mixture weights of the whole input, as the region finds its arguments. -/
abbrev weightsOf (c : Dev nD) : S131072x32.Idx → EReal :=
  Cert.Mdn.piS (m := 131072) (k := 256) (n := 1024) (r := 32) (V m c main_arg0 : S131072x256.Idx → EReal)
    (V m c main_arg1 : S256x1024.Idx → EReal) (V m c main_arg2 : S1024.Idx → EReal)
    (V m c main_arg3 : S1024x32.Idx → EReal) (V m c main_arg4 : S32.Idx → EReal)
/-- The means of the whole input. -/
abbrev meansOf (c : Dev nD) : S131072x96.Idx → EReal :=
  Cert.Mdn.headS (m := 131072) (k := 256) (n := 1024) (r := 96) (V m c main_arg0 : S131072x256.Idx → EReal)
    (V m c main_arg1 : S256x1024.Idx → EReal) (V m c main_arg2 : S1024.Idx → EReal)
    (V m c main_arg5 : S1024x96.Idx → EReal) (V m c main_arg6 : S96.Idx → EReal)
/-- The covariance entries of the whole input. -/
abbrev covOf (c : Dev nD) : S131072x192.Idx → EReal :=
  Cert.Mdn.headS (m := 131072) (k := 256) (n := 1024) (r := 192) (V m c main_arg0 : S131072x256.Idx → EReal)
    (V m c main_arg1 : S256x1024.Idx → EReal) (V m c main_arg2 : S1024.Idx → EReal)
    (V m c main_arg7 : S1024x192.Idx → EReal) (V m c main_arg8 : S192.Idx → EReal)

/-- Point t writes back block t of the whole input's mixture weights. -/
theorem flushed9_eq (c : Dev nD) (t : Fin cfg0.N) :
    (dats m 0 c).flushed 9 t = ((cfg0.win 9).blk t).view.read (Elt Ideal) (weightsOf m c) := by
  show (cfg0.win 9).cut (grid0.coords t) ((dats m 0 c).after 9 t) = _
  rw [after9, out9_eq, block1_whole, block2_whole, block3_whole, block4_whole]
  obtain ⟨r0_0, r0_1, r9_0, r9_1, -⟩ := index_rows t
  funext j
  show Cert.Mdn.piS (m := 1024) (k := 256) (n := 1024) (r := 32) (iblk m c 0 t : S1024x256.Idx → EReal)
      (V m c main_arg1 : S256x1024.Idx → EReal) (V m c main_arg2 : S1024.Idx → EReal)
      (V m c main_arg3 : S1024x32.Idx → EReal) (V m c main_arg4 : S32.Idx → EReal) j
    = weightsOf m c (((cfg0.win 9).blk t).view.emb j)
  refine piS_block _ _ _ _ _ _ t.val (fun p k hp => block0_rows m c t p k hp) j _ ?_ ?_
  · show win0_9.index t (0 : Fin 2) * 1024 + 1 * (j 0).val = 1024 * t.val + (j 0).val; omega
  · show win0_9.index t (1 : Fin 2) * 32 + 1 * (j 1).val = (j 1).val; omega

/-- Point t writes back block t of the whole input's means. -/
theorem flushed10_eq (c : Dev nD) (t : Fin cfg0.N) :
    (dats m 0 c).flushed 10 t = ((cfg0.win 10).blk t).view.read (Elt Ideal) (meansOf m c) := by
  show (cfg0.win 10).cut (grid0.coords t) ((dats m 0 c).after 10 t) = _
  rw [after10, out10_eq, block1_whole, block2_whole, block5_whole, block6_whole]
  obtain ⟨r0_0, r0_1, r9_0, r9_1, r10_0, r10_1, -⟩ := index_rows t
  funext j
  show Cert.Mdn.headS (m := 1024) (k := 256) (n := 1024) (r := 96) (iblk m c 0 t : S1024x256.Idx → EReal)
      (V m c main_arg1 : S256x1024.Idx → EReal) (V m c main_arg2 : S1024.Idx → EReal)
      (V m c main_arg5 : S1024x96.Idx → EReal) (V m c main_arg6 : S96.Idx → EReal) j
    = meansOf m c (((cfg0.win 10).blk t).view.emb j)
  refine headS_block _ _ _ _ _ _ t.val (fun p k hp => block0_rows m c t p k hp) j _ ?_ ?_
  · show win0_10.index t (0 : Fin 2) * 1024 + 1 * (j 0).val = 1024 * t.val + (j 0).val; omega
  · show win0_10.index t (1 : Fin 2) * 96 + 1 * (j 1).val = (j 1).val; omega

/-- Point t writes back block t of the whole input's covariance entries. -/
theorem flushed11_eq (c : Dev nD) (t : Fin cfg0.N) :
    (dats m 0 c).flushed 11 t = ((cfg0.win 11).blk t).view.read (Elt Ideal) (covOf m c) := by
  show (cfg0.win 11).cut (grid0.coords t) ((dats m 0 c).after 11 t) = _
  rw [after11, out11_eq, block1_whole, block2_whole, block7_whole, block8_whole]
  obtain ⟨r0_0, r0_1, r9_0, r9_1, r10_0, r10_1, r11_0, r11_1⟩ := index_rows t
  funext j
  show Cert.Mdn.headS (m := 1024) (k := 256) (n := 1024) (r := 192) (iblk m c 0 t : S1024x256.Idx → EReal)
      (V m c main_arg1 : S256x1024.Idx → EReal) (V m c main_arg2 : S1024.Idx → EReal)
      (V m c main_arg7 : S1024x192.Idx → EReal) (V m c main_arg8 : S192.Idx → EReal) j
    = covOf m c (((cfg0.win 11).blk t).view.emb j)
  refine headS_block _ _ _ _ _ _ t.val (fun p k hp => block0_rows m c t p k hp) j _ ?_ ?_
  · show win0_11.index t (0 : Fin 2) * 1024 + 1 * (j 0).val = 1024 * t.val + (j 0).val; omega
  · show win0_11.index t (1 : Fin 2) * 192 + 1 * (j 1).val = (j 1).val; omega

/-! ## The blocks cover the arrays -/

/-- An index of the mixture weights' array is in point t's block iff each coordinate is in the block's range on its axis. -/
theorem mem_block9 (t : Fin cfg0.N) (i : S131072x32.Idx) :
    i ∈ ((cfg0.win 9).blk t).view.set ↔ ∀ a : Fin 2, win0_9.index t a * S1024x32.size a ≤ (i a).val ∧ (i a).val < win0_9.index t a * S1024x32.size a + S1024x32.size a := by
  show i ∈ ((View.whole main_v0_0).slice (win0_9.rect t)).set ↔ _
  rw [View.set_slice_whole, Rect.mem_set_unit]
  exact Iff.rfl

/-- Every index (r, q) of the mixture weights' array lies in the block of the point r / 1024, and every point writes its block back. -/
theorem covered9 (i : S131072x32.Idx) :
    ∃ t : Fin cfg0.N, (cfg0.win 9).flush t = true ∧ i ∈ ((cfg0.win 9).blk t).view.set := by
  have hi0 : (i 0).val < 131072 := (i 0).isLt
  have hi1 : (i 1).val < 32 := (i 1).isLt
  have hN : cfg0.N = 128 := N_0
  obtain ⟨t, ht⟩ : ∃ t : Fin cfg0.N, t.val = (i 0).val / 1024 := ⟨⟨(i 0).val / 1024, by omega⟩, rfl⟩
  obtain ⟨r0_0, r0_1, r9_0, r9_1, r10_0, r10_1, r11_0, r11_1⟩ := index_rows t
  refine ⟨t, flush0_9 t, ?_⟩
  rw [mem_block9]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 32 ≤ (i 1).val ∧ (i 1).val < win0_9.index t (1 : Fin 2) * 32 + 32; omega

/-- An index of the means' array is in point t's block iff each coordinate is in the block's range on its axis. -/
theorem mem_block10 (t : Fin cfg0.N) (i : S131072x96.Idx) :
    i ∈ ((cfg0.win 10).blk t).view.set ↔ ∀ a : Fin 2, win0_10.index t a * S1024x96.size a ≤ (i a).val ∧ (i a).val < win0_10.index t a * S1024x96.size a + S1024x96.size a := by
  show i ∈ ((View.whole main_v0_1).slice (win0_10.rect t)).set ↔ _
  rw [View.set_slice_whole, Rect.mem_set_unit]
  exact Iff.rfl

/-- Every index (r, q) of the means' array lies in the block of the point r / 1024, and every point writes its block back. -/
theorem covered10 (i : S131072x96.Idx) :
    ∃ t : Fin cfg0.N, (cfg0.win 10).flush t = true ∧ i ∈ ((cfg0.win 10).blk t).view.set := by
  have hi0 : (i 0).val < 131072 := (i 0).isLt
  have hi1 : (i 1).val < 96 := (i 1).isLt
  have hN : cfg0.N = 128 := N_0
  obtain ⟨t, ht⟩ : ∃ t : Fin cfg0.N, t.val = (i 0).val / 1024 := ⟨⟨(i 0).val / 1024, by omega⟩, rfl⟩
  obtain ⟨r0_0, r0_1, r9_0, r9_1, r10_0, r10_1, r11_0, r11_1⟩ := index_rows t
  refine ⟨t, flush0_10 t, ?_⟩
  rw [mem_block10]
  intro a
  match a with
  | ⟨0, _⟩ => show win0_10.index t (0 : Fin 2) * 1024 ≤ (i 0).val ∧ (i 0).val < win0_10.index t (0 : Fin 2) * 1024 + 1024; omega
  | ⟨1, _⟩ => show win0_10.index t (1 : Fin 2) * 96 ≤ (i 1).val ∧ (i 1).val < win0_10.index t (1 : Fin 2) * 96 + 96; omega

/-- An index of the covariance entries' array is in point t's block iff each coordinate is in the block's range on its axis. -/
theorem mem_block11 (t : Fin cfg0.N) (i : S131072x192.Idx) :
    i ∈ ((cfg0.win 11).blk t).view.set ↔ ∀ a : Fin 2, win0_11.index t a * S1024x192.size a ≤ (i a).val ∧ (i a).val < win0_11.index t a * S1024x192.size a + S1024x192.size a := by
  show i ∈ ((View.whole main_v0_2).slice (win0_11.rect t)).set ↔ _
  rw [View.set_slice_whole, Rect.mem_set_unit]
  exact Iff.rfl

/-- Every index (r, q) of the covariance entries' array lies in the block of the point r / 1024, and every point writes its block back. -/
theorem covered11 (i : S131072x192.Idx) :
    ∃ t : Fin cfg0.N, (cfg0.win 11).flush t = true ∧ i ∈ ((cfg0.win 11).blk t).view.set := by
  have hi0 : (i 0).val < 131072 := (i 0).isLt
  have hi1 : (i 1).val < 192 := (i 1).isLt
  have hN : cfg0.N = 128 := N_0
  obtain ⟨t, ht⟩ : ∃ t : Fin cfg0.N, t.val = (i 0).val / 1024 := ⟨⟨(i 0).val / 1024, by omega⟩, rfl⟩
  obtain ⟨r0_0, r0_1, r9_0, r9_1, r10_0, r10_1, r11_0, r11_1⟩ := index_rows t
  refine ⟨t, flush0_11 t, ?_⟩
  rw [mem_block11]
  intro a
  match a with
  | ⟨0, _⟩ => show win0_11.index t (0 : Fin 2) * 1024 ≤ (i 0).val ∧ (i 0).val < win0_11.index t (0 : Fin 2) * 1024 + 1024; omega
  | ⟨1, _⟩ => show win0_11.index t (1 : Fin 2) * 192 ≤ (i 1).val ∧ (i 1).val < win0_11.index t (1 : Fin 2) * 192 + 192; omega

/-! ## The arrays after the region -/

/-- The mixture weights' array ends holding the mixture weights of the arguments as launched. -/
theorem final9 (c : Dev nD) : (dats m 0 c).arrAt 9 cfg0.N
    = Cert.Mdn.piS (m := 131072) (k := 256) (n := 1024) (r := 32) (m ((c : Thread nD τ).loc main_arg0) : S131072x256.Idx → EReal)
        (m ((c : Thread nD τ).loc main_arg1) : S256x1024.Idx → EReal) (m ((c : Thread nD τ).loc main_arg2) : S1024.Idx → EReal)
        (m ((c : Thread nD τ).loc main_arg3) : S1024x32.Idx → EReal) (m ((c : Thread nD τ).loc main_arg4) : S32.Idx → EReal) :=
  ((dats m 0 c).arrAt_eq_of_cover 9 (weightsOf m c) (fun t _ => flushed9_eq m c t) covered9).trans (by
    unfold weightsOf
    rw [V_main_arg0 m c, V_main_arg1 m c, V_main_arg2 m c, V_main_arg3 m c, V_main_arg4 m c])

/-- The means' array ends holding the means of the arguments as launched. -/
theorem final10 (c : Dev nD) : (dats m 0 c).arrAt 10 cfg0.N
    = Cert.Mdn.headS (m := 131072) (k := 256) (n := 1024) (r := 96) (m ((c : Thread nD τ).loc main_arg0) : S131072x256.Idx → EReal)
        (m ((c : Thread nD τ).loc main_arg1) : S256x1024.Idx → EReal) (m ((c : Thread nD τ).loc main_arg2) : S1024.Idx → EReal)
        (m ((c : Thread nD τ).loc main_arg5) : S1024x96.Idx → EReal) (m ((c : Thread nD τ).loc main_arg6) : S96.Idx → EReal) :=
  ((dats m 0 c).arrAt_eq_of_cover 10 (meansOf m c) (fun t _ => flushed10_eq m c t) covered10).trans (by
    unfold meansOf
    rw [V_main_arg0 m c, V_main_arg1 m c, V_main_arg2 m c, V_main_arg5 m c, V_main_arg6 m c])

/-- The covariance entries' array ends holding the covariance entries of the arguments as launched. -/
theorem final11 (c : Dev nD) : (dats m 0 c).arrAt 11 cfg0.N
    = Cert.Mdn.headS (m := 131072) (k := 256) (n := 1024) (r := 192) (m ((c : Thread nD τ).loc main_arg0) : S131072x256.Idx → EReal)
        (m ((c : Thread nD τ).loc main_arg1) : S256x1024.Idx → EReal) (m ((c : Thread nD τ).loc main_arg2) : S1024.Idx → EReal)
        (m ((c : Thread nD τ).loc main_arg7) : S1024x192.Idx → EReal) (m ((c : Thread nD τ).loc main_arg8) : S192.Idx → EReal) :=
  ((dats m 0 c).arrAt_eq_of_cover 11 (covOf m c) (fun t _ => flushed11_eq m c t) covered11).trans (by
    unfold covOf
    rw [V_main_arg0 m c, V_main_arg1 m c, V_main_arg2 m c, V_main_arg7 m c, V_main_arg8 m c])

end Cert.KernelIdeal.KV

end
-- ==== Proof.KernelTailDefs.lean ====
/-
  The covariance formatting at the end of the tiled network's entry function, as a function of the packed entries sv3 : [131072, 32, 6] alone, each
  step the composition of the host operations exactly as the program lists them.

  Every index table of the program is a literal integer vector tab (of 6 or of 3 entries); the program first
  "wraps" it as jnp does a possibly negative index, select(false, tab + 3, tab), and then pairs two wrapped
  tables, each laid out as a column, into a table of (row, column) positions of the 3 × 3 matrix:

    posPacked = pair6 (wrap6 [0,0,0,1,1,2]) (wrap6 [0,1,2,1,2,2])   -- where the 6 packed entries go
    posDiag   = pair3 (wrap3 [0,1,2]) (wrap3 [0,1,2])               -- the diagonal
    posUpper  = pair3 (wrap3 [0,0,1]) (wrap3 [1,2,2])               -- the strict upper triangle
    posLower  = pair3 (wrap3 [1,2,2]) (wrap3 [0,0,1])               -- its transpose positions

    m0   = scatter (zeros, posPacked, sv3)                  -- the packed entries written into a zero matrix
    m1   = scatter (m0, posDiag, exp (gather (m0, posDiag)))          -- the diagonal exponentiated
    off  = tanh (gather (m1, posUpper))                               -- the off-diagonal entries squashed
    m2   = scatter (m1, posUpper, off)
    tailK = scatter (m2, posLower, off)                               -- and mirrored below the diagonal

  Every scatter's body returns the update.
-/
import proofs.«118819_j81836306858381_1_alg».proof.Proof.Gen.KernelIdeal

set_option Elab.async false

noncomputable section

namespace Cert.KernelIdeal.KT

open Cert.KernelIdeal Cert.KernelIdeal.Gen Idealize.ShloMosaic Idealize.ShloMosaic.TcCoe Idealize.SL.Sem Idealize.ShloMosaic.StableHlo

variable {F : FTy → Type} [FloatOps F]

/-- The scalar 3 repeated over 6 entries: what a negative index would be shifted by. -/
def three6 : IVec S6 32 := broadcastInDim S6 ![] bcast_S_S6 (constantI S_ 32 3#32)
/-- The scalar 3 repeated over 3 entries. -/
def three3 : IVec S3 32 := broadcastInDim S3 ![] bcast_S_S3 (constantI S_ 32 3#32)

/-- A table of 6 indices wrapped as jnp wraps a negative index: `select (false, tab + 3, tab)`. -/
def wrap6 (tab : IVec S6 32) : IVec S6 32 := select (constantI S6 1 0#1) (addi tab three6) tab
/-- A table of 3 indices wrapped the same way. -/
def wrap3 (tab : IVec S3 32) : IVec S3 32 := select (constantI S3 1 0#1) (addi tab three3) tab

/-- Two tables of 6 indices, each laid out as a column, side by side: 6 (row, column) positions. -/
def pair6 (a b : IVec S6 32) : IVec S6x2 32 :=
  concatenate S6x2 1 [⟨S6x1, broadcastInDim S6x1 ![0] bcast_S6_S6x1_0 a⟩, ⟨S6x1, broadcastInDim S6x1 ![0] bcast_S6_S6x1_0 b⟩] concatenates_S6x1_S6x1_S6x2_d1
/-- Two tables of 3 indices, each laid out as a column, side by side: 3 (row, column) positions. -/
def pair3 (a b : IVec S3 32) : IVec S3x2 32 :=
  concatenate S3x2 1 [⟨S3x1, broadcastInDim S3x1 ![0] bcast_S3_S3x1_0 a⟩, ⟨S3x1, broadcastInDim S3x1 ![0] bcast_S3_S3x1_0 b⟩] concatenates_S3x1_S3x1_S3x2_d1

/-- Where the 6 packed entries go in the 3 × 3 matrix: rows [0,0,0,1,1,2], columns [0,1,2,1,2,2]. -/
def posPacked : IVec S6x2 32 := pair6 (wrap6 fun i => lit0 (S6.rowMajor i)) (wrap6 fun i => lit1 (S6.rowMajor i))
/-- The diagonal positions: rows [0,1,2], columns [0,1,2]. -/
def posDiag : IVec S3x2 32 := pair3 (wrap3 fun i => lit2 (S3.rowMajor i)) (wrap3 fun i => lit2 (S3.rowMajor i))
/-- The strict upper triangle: rows [0,0,1], columns [1,2,2]. -/
def posUpper : IVec S3x2 32 := pair3 (wrap3 fun i => lit3 (S3.rowMajor i)) (wrap3 fun i => lit4 (S3.rowMajor i))
/-- The strict lower triangle, in the order of the upper one transposed: rows [1,2,2], columns [0,0,1]. -/
def posLower : IVec S3x2 32 := pair3 (wrap3 fun i => lit5 (S3.rowMajor i)) (wrap3 fun i => lit6 (S3.rowMajor i))

/-- The zero matrix at every (sample, component). -/
def zeros4 : FVec F S131072x32x3x3 .f32 := broadcastInDim S131072x32x3x3 ![] bcast_S_S131072x32x3x3 (constant S_ .f32 0x00000000#32)

/-- The packed entries written into the zero matrix at their positions. -/
def m0 (sv3 : FVec F S131072x32x6 .f32) : FVec F S131072x32x3x3 .f32 :=
  Host.scatter scatter_S131072x32x3x3_S6x2_S131072x32x6_01_23_23_1 (fun _ b => b) zeros4 posPacked sv3

/-- The diagonal read back and exponentiated. -/
def diagExp (sv3 : FVec F S131072x32x6 .f32) : FVec F S131072x32x3 .f32 :=
  Host.exp (Host.gather gather_S131072x32x3x3_S3x2_S131072x32x3_01_23_n_n_23_1_1310723211 (m0 sv3) posDiag)

/-- The matrix with its diagonal exponentiated. -/
def m1 (sv3 : FVec F S131072x32x6 .f32) : FVec F S131072x32x3x3 .f32 :=
  Host.scatter scatter_S131072x32x3x3_S3x2_S131072x32x3_01_23_23_1 (fun _ b => b) (m0 sv3) posDiag (diagExp sv3)

/-- The strict upper triangle read back and squashed by tanh. -/
def offTanh (sv3 : FVec F S131072x32x6 .f32) : FVec F S131072x32x3 .f32 :=
  Host.tanh (Host.gather gather_S131072x32x3x3_S3x2_S131072x32x3_01_23_n_n_23_1_1310723211 (m1 sv3) posUpper)

/-- The matrix with its strict upper triangle squashed. -/
def m2 (sv3 : FVec F S131072x32x6 .f32) : FVec F S131072x32x3x3 .f32 :=
  Host.scatter scatter_S131072x32x3x3_S3x2_S131072x32x3_01_23_23_1 (fun _ b => b) (m1 sv3) posUpper (offTanh sv3)

/-- The covariance formatting: the squashed off-diagonal entries mirrored below the diagonal. -/
def tailK (sv3 : FVec F S131072x32x6 .f32) : FVec F S131072x32x3x3 .f32 :=
  Host.scatter scatter_S131072x32x3x3_S3x2_S131072x32x3_01_23_23_1 (fun _ b => b) (m2 sv3) posLower (offTanh sv3)

end Cert.KernelIdeal.KT

end
-- ==== Proof.KernelTail.lean ====
/-
  The lines after the region of the tiled network's entry function, read back.

  When the region ends, the arrays it stages hold what the region left (A w for window w) and every other buffer
  holds what it held when the region was entered: the launch contents with the nineteen integer constants written.
  The 78 lines that follow are two reshapes — of the means (window 10's array) to [131072, 32, 3] and of the packed
  covariance entries (window 11's array) to [131072, 32, 6] — and the 76 lines of the covariance formatting, which
  read the reshaped entries and the integer constants only. So after them the means' buffer holds window 10's
  array reshaped, and the last buffer holds the formatting tailK of window 11's array reshaped.
-/
import proofs.«118819_j81836306858381_1_alg».proof.Proof.FrameIdeal
import proofs.«118819_j81836306858381_1_alg».proof.Proof.KernelTailDefs
import Idealize.ShloMosaic.Lib.StableHlo.Run

set_option Elab.async false
set_option maxRecDepth 16384
set_option maxHeartbeats 8000000

noncomputable section

namespace Cert.KernelIdeal.KT

open Cert.KernelIdeal Cert.KernelIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-! ## What the lines after the region read of the contents the region leaves -/

/-- The means' array is window 10's. -/
theorem W_v0_1 (c : Dev nD) (A : (w : Fin 12) → Buf (Elt F) ((spec0 w).arr.view.loc (c.tc : Thread nD τ))) :
    Pipeline.withArrays spec0 c (Fr.V0 m c) A (no_index (Proc.devRef .tc main_v0_1)) = A 10 :=
  Pipeline.withArrays_arr spec0 launch0.win.arr_inj c _ _ 10

/-- The packed covariance entries' array is window 11's. -/
theorem W_v0_2 (c : Dev nD) (A : (w : Fin 12) → Buf (Elt F) ((spec0 w).arr.view.loc (c.tc : Thread nD τ))) :
    Pipeline.withArrays spec0 c (Fr.V0 m c) A (no_index (Proc.devRef .tc main_v0_2)) = A 11 :=
  Pipeline.withArrays_arr spec0 launch0.win.arr_inj c _ _ 11

/-- The integer constant `main_c` is no staged array, and holds its literal since before the region. -/
theorem W_c (c : Dev nD) (A : (w : Fin 12) → Buf (Elt F) ((spec0 w).arr.view.loc (c.tc : Thread nD τ))) :
    Pipeline.withArrays spec0 c (Fr.V0 m c) A (no_index (Proc.devRef .tc main_c)) = (fun i => lit0 (S6.rowMajor i)) :=
  (Pipeline.withArrays_of_ne spec0 c _ _ main_c (by decide)).trans (by
    show StableHlo.after hostOps0 (fun b => m (c, b)) (Proc.devRef .tc main_c) = _
    simp only [hostOps0]
    after_results_simp <;> rfl)

/-- The integer constant `main_c_0` is no staged array, and holds its literal since before the region. -/
theorem W_c_0 (c : Dev nD) (A : (w : Fin 12) → Buf (Elt F) ((spec0 w).arr.view.loc (c.tc : Thread nD τ))) :
    Pipeline.withArrays spec0 c (Fr.V0 m c) A (no_index (Proc.devRef .tc main_c_0)) = (constantI S6 1 0#1) :=
  (Pipeline.withArrays_of_ne spec0 c _ _ main_c_0 (by decide)).trans (by
    show StableHlo.after hostOps0 (fun b => m (c, b)) (Proc.devRef .tc main_c_0) = _
    simp only [hostOps0]
    after_results_simp <;> rfl)

/-- The integer constant `main_c_1` is no staged array, and holds its literal since before the region. -/
theorem W_c_1 (c : Dev nD) (A : (w : Fin 12) → Buf (Elt F) ((spec0 w).arr.view.loc (c.tc : Thread nD τ))) :
    Pipeline.withArrays spec0 c (Fr.V0 m c) A (no_index (Proc.devRef .tc main_c_1)) = (fun i => lit1 (S6.rowMajor i)) :=
  (Pipeline.withArrays_of_ne spec0 c _ _ main_c_1 (by decide)).trans (by
    show StableHlo.after hostOps0 (fun b => m (c, b)) (Proc.devRef .tc main_c_1) = _
    simp only [hostOps0]
    after_results_simp <;> rfl)

/-- The integer constant `main_c_2` is no staged array, and holds its literal since before the region. -/
theorem W_c_2 (c : Dev nD) (A : (w : Fin 12) → Buf (Elt F) ((spec0 w).arr.view.loc (c.tc : Thread nD τ))) :
    Pipeline.withArrays spec0 c (Fr.V0 m c) A (no_index (Proc.devRef .tc main_c_2)) = (constantI S6 1 0#1) :=
  (Pipeline.withArrays_of_ne spec0 c _ _ main_c_2 (by decide)).trans (by
    show StableHlo.after hostOps0 (fun b => m (c, b)) (Proc.devRef .tc main_c_2) = _
    simp only [hostOps0]
    after_results_simp <;> rfl)

/-- The integer constant `main_c_3` is no staged array, and holds its literal since before the region. -/
theorem W_c_3 (c : Dev nD) (A : (w : Fin 12) → Buf (Elt F) ((spec0 w).arr.view.loc (c.tc : Thread nD τ))) :
    Pipeline.withArrays spec0 c (Fr.V0 m c) A (no_index (Proc.devRef .tc main_c_3)) = (fun i => lit2 (S3.rowMajor i)) :=
  (Pipeline.withArrays_of_ne spec0 c _ _ main_c_3 (by decide)).trans (by
    show StableHlo.after hostOps0 (fun b => m (c, b)) (Proc.devRef .tc main_c_3) = _
    simp only [hostOps0]
    after_results_simp <;> rfl)

/-- The integer constant `main_c_4` is no staged array, and holds its literal since before the region. -/
theorem W_c_4 (c : Dev nD) (A : (w : Fin 12) → Buf (Elt F) ((spec0 w).arr.view.loc (c.tc : Thread nD τ))) :
    Pipeline.withArrays spec0 c (Fr.V0 m c) A (no_index (Proc.devRef .tc main_c_4)) = (constantI S3 1 0#1) :=
  (Pipeline.withArrays_of_ne spec0 c _ _ main_c_4 (by decide)).trans (by
    show StableHlo.after hostOps0 (fun b => m (c, b)) (Proc.devRef .tc main_c_4) = _
    simp only [hostOps0]
    after_results_simp <;> rfl)

/-- The integer constant `main_c_5` is no staged array, and holds its literal since before the region. -/
theorem W_c_5 (c : Dev nD) (A : (w : Fin 12) → Buf (Elt F) ((spec0 w).arr.view.loc (c.tc : Thread nD τ))) :
    Pipeline.withArrays spec0 c (Fr.V0 m c) A (no_index (Proc.devRef .tc main_c_5)) = (constantI S3 1 0#1) :=
  (Pipeline.withArrays_of_ne spec0 c _ _ main_c_5 (by decide)).trans (by
    show StableHlo.after hostOps0 (fun b => m (c, b)) (Proc.devRef .tc main_c_5) = _
    simp only [hostOps0]
    after_results_simp <;> rfl)

/-- The integer constant `main_c_6` is no staged array, and holds its literal since before the region. -/
theorem W_c_6 (c : Dev nD) (A : (w : Fin 12) → Buf (Elt F) ((spec0 w).arr.view.loc (c.tc : Thread nD τ))) :
    Pipeline.withArrays spec0 c (Fr.V0 m c) A (no_index (Proc.devRef .tc main_c_6)) = (constantI S3 1 0#1) :=
  (Pipeline.withArrays_of_ne spec0 c _ _ main_c_6 (by decide)).trans (by
    show StableHlo.after hostOps0 (fun b => m (c, b)) (Proc.devRef .tc main_c_6) = _
    simp only [hostOps0]
    after_results_simp <;> rfl)

/-- The integer constant `main_c_7` is no staged array, and holds its literal since before the region. -/
theorem W_c_7 (c : Dev nD) (A : (w : Fin 12) → Buf (Elt F) ((spec0 w).arr.view.loc (c.tc : Thread nD τ))) :
    Pipeline.withArrays spec0 c (Fr.V0 m c) A (no_index (Proc.devRef .tc main_c_7)) = (constantI S3 1 0#1) :=
  (Pipeline.withArrays_of_ne spec0 c _ _ main_c_7 (by decide)).trans (by
    show StableHlo.after hostOps0 (fun b => m (c, b)) (Proc.devRef .tc main_c_7) = _
    simp only [hostOps0]
    after_results_simp <;> rfl)

/-- The integer constant `main_c_8` is no staged array, and holds its literal since before the region. -/
theorem W_c_8 (c : Dev nD) (A : (w : Fin 12) → Buf (Elt F) ((spec0 w).arr.view.loc (c.tc : Thread nD τ))) :
    Pipeline.withArrays spec0 c (Fr.V0 m c) A (no_index (Proc.devRef .tc main_c_8)) = (fun i => lit3 (S3.rowMajor i)) :=
  (Pipeline.withArrays_of_ne spec0 c _ _ main_c_8 (by decide)).trans (by
    show StableHlo.after hostOps0 (fun b => m (c, b)) (Proc.devRef .tc main_c_8) = _
    simp only [hostOps0]
    after_results_simp <;> rfl)

/-- The integer constant `main_c_9` is no staged array, and holds its literal since before the region. -/
theorem W_c_9 (c : Dev nD) (A : (w : Fin 12) → Buf (Elt F) ((spec0 w).arr.view.loc (c.tc : Thread nD τ))) :
    Pipeline.withArrays spec0 c (Fr.V0 m c) A (no_index (Proc.devRef .tc main_c_9)) = (constantI S3 1 0#1) :=
  (Pipeline.withArrays_of_ne spec0 c _ _ main_c_9 (by decide)).trans (by
    show StableHlo.after hostOps0 (fun b => m (c, b)) (Proc.devRef .tc main_c_9) = _
    simp only [hostOps0]
    after_results_simp <;> rfl)

/-- The integer constant `main_c_10` is no staged array, and holds its literal since before the region. -/
theorem W_c_10 (c : Dev nD) (A : (w : Fin 12) → Buf (Elt F) ((spec0 w).arr.view.loc (c.tc : Thread nD τ))) :
    Pipeline.withArrays spec0 c (Fr.V0 m c) A (no_index (Proc.devRef .tc main_c_10)) = (fun i => lit4 (S3.rowMajor i)) :=
  (Pipeline.withArrays_of_ne spec0 c _ _ main_c_10 (by decide)).trans (by
    show StableHlo.after hostOps0 (fun b => m (c, b)) (Proc.devRef .tc main_c_10) = _
    simp only [hostOps0]
    after_results_simp <;> rfl)

/-- The integer constant `main_c_11` is no staged array, and holds its literal since before the region. -/
theorem W_c_11 (c : Dev nD) (A : (w : Fin 12) → Buf (Elt F) ((spec0 w).arr.view.loc (c.tc : Thread nD τ))) :
    Pipeline.withArrays spec0 c (Fr.V0 m c) A (no_index (Proc.devRef .tc main_c_11)) = (constantI S3 1 0#1) :=
  (Pipeline.withArrays_of_ne spec0 c _ _ main_c_11 (by decide)).trans (by
    show StableHlo.after hostOps0 (fun b => m (c, b)) (Proc.devRef .tc main_c_11) = _
    simp only [hostOps0]
    after_results_simp <;> rfl)

/-- The integer constant `main_c_12` is no staged array, and holds its literal since before the region. -/
theorem W_c_12 (c : Dev nD) (A : (w : Fin 12) → Buf (Elt F) ((spec0 w).arr.view.loc (c.tc : Thread nD τ))) :
    Pipeline.withArrays spec0 c (Fr.V0 m c) A (no_index (Proc.devRef .tc main_c_12)) = (constantI S3 1 0#1) :=
  (Pipeline.withArrays_of_ne spec0 c _ _ main_c_12 (by decide)).trans (by
    show StableHlo.after hostOps0 (fun b => m (c, b)) (Proc.devRef .tc main_c_12) = _
    simp only [hostOps0]
    after_results_simp <;> rfl)

/-- The integer constant `main_c_13` is no staged array, and holds its literal since before the region. -/
theorem W_c_13 (c : Dev nD) (A : (w : Fin 12) → Buf (Elt F) ((spec0 w).arr.view.loc (c.tc : Thread nD τ))) :
    Pipeline.withArrays spec0 c (Fr.V0 m c) A (no_index (Proc.devRef .tc main_c_13)) = (constantI S3 1 0#1) :=
  (Pipeline.withArrays_of_ne spec0 c _ _ main_c_13 (by decide)).trans (by
    show StableHlo.after hostOps0 (fun b => m (c, b)) (Proc.devRef .tc main_c_13) = _
    simp only [hostOps0]
    after_results_simp <;> rfl)

/-- The integer constant `main_c_14` is no staged array, and holds its literal since before the region. -/
theorem W_c_14 (c : Dev nD) (A : (w : Fin 12) → Buf (Elt F) ((spec0 w).arr.view.loc (c.tc : Thread nD τ))) :
    Pipeline.withArrays spec0 c (Fr.V0 m c) A (no_index (Proc.devRef .tc main_c_14)) = (fun i => lit5 (S3.rowMajor i)) :=
  (Pipeline.withArrays_of_ne spec0 c _ _ main_c_14 (by decide)).trans (by
    show StableHlo.after hostOps0 (fun b => m (c, b)) (Proc.devRef .tc main_c_14) = _
    simp only [hostOps0]
    after_results_simp <;> rfl)

/-- The integer constant `main_c_15` is no staged array, and holds its literal since before the region. -/
theorem W_c_15 (c : Dev nD) (A : (w : Fin 12) → Buf (Elt F) ((spec0 w).arr.view.loc (c.tc : Thread nD τ))) :
    Pipeline.withArrays spec0 c (Fr.V0 m c) A (no_index (Proc.devRef .tc main_c_15)) = (constantI S3 1 0#1) :=
  (Pipeline.withArrays_of_ne spec0 c _ _ main_c_15 (by decide)).trans (by
    show StableHlo.after hostOps0 (fun b => m (c, b)) (Proc.devRef .tc main_c_15) = _
    simp only [hostOps0]
    after_results_simp <;> rfl)

/-- The integer constant `main_c_16` is no staged array, and holds its literal since before the region. -/
theorem W_c_16 (c : Dev nD) (A : (w : Fin 12) → Buf (Elt F) ((spec0 w).arr.view.loc (c.tc : Thread nD τ))) :
    Pipeline.withArrays spec0 c (Fr.V0 m c) A (no_index (Proc.devRef .tc main_c_16)) = (fun i => lit6 (S3.rowMajor i)) :=
  (Pipeline.withArrays_of_ne spec0 c _ _ main_c_16 (by decide)).trans (by
    show StableHlo.after hostOps0 (fun b => m (c, b)) (Proc.devRef .tc main_c_16) = _
    simp only [hostOps0]
    after_results_simp <;> rfl)

/-- The integer constant `main_c_17` is no staged array, and holds its literal since before the region. -/
theorem W_c_17 (c : Dev nD) (A : (w : Fin 12) → Buf (Elt F) ((spec0 w).arr.view.loc (c.tc : Thread nD τ))) :
    Pipeline.withArrays spec0 c (Fr.V0 m c) A (no_index (Proc.devRef .tc main_c_17)) = (constantI S3 1 0#1) :=
  (Pipeline.withArrays_of_ne spec0 c _ _ main_c_17 (by decide)).trans (by
    show StableHlo.after hostOps0 (fun b => m (c, b)) (Proc.devRef .tc main_c_17) = _
    simp only [hostOps0]
    after_results_simp <;> rfl)

/-! ## The 78 lines read back -/

/-- The means after the lines: window 10's array reshaped. -/
theorem after_v1 (c : Dev nD) (A : (w : Fin 12) → Buf (Elt F) ((spec0 w).arr.view.loc (c.tc : Thread nD τ))) :
    StableHlo.after hostOps1 (Pipeline.withArrays spec0 c (Fr.V0 m c) A) (no_index (Proc.devRef .tc main_v1)) = shapeCast S131072x32x3 (A 10) shapeCasts_S131072x96_S131072x32x3 := by
  simp only [hostOps1]
  after_results_simp
  simp only [W_v0_1 m c A]
  rfl

/-- The formatted covariances after the lines: the formatting of window 11's array reshaped. -/
theorem after_v65 (c : Dev nD) (A : (w : Fin 12) → Buf (Elt F) ((spec0 w).arr.view.loc (c.tc : Thread nD τ))) :
    StableHlo.after hostOps1 (Pipeline.withArrays spec0 c (Fr.V0 m c) A) (no_index (Proc.devRef .tc main_v65)) = tailK (shapeCast S131072x32x6 (A 11) shapeCasts_S131072x192_S131072x32x6) := by
  simp only [hostOps1]
  after_results_simp
  simp only [W_v0_1 m c A, W_v0_2 m c A, W_c m c A, W_c_0 m c A, W_c_1 m c A, W_c_2 m c A, W_c_3 m c A, W_c_4 m c A, W_c_5 m c A, W_c_6 m c A, W_c_7 m c A, W_c_8 m c A, W_c_9 m c A, W_c_10 m c A, W_c_11 m c A, W_c_12 m c A, W_c_13 m c A, W_c_14 m c A, W_c_15 m c A, W_c_16 m c A, W_c_17 m c A]
  rfl

/-- The means' buffer at the end of the entry function. -/
theorem tail_v1 (c : Dev nD) :
    Pipeline.afterTail₀ cfgs (Fr.dats m) 0 (Fr.V0 m) [hostOps1] c main_v1 = shapeCast S131072x32x3 ((Fr.dats m 0 c).arrAt 10 cfg0.N) shapeCasts_S131072x96_S131072x32x3 := by
  unfold Pipeline.afterTail₀
  exact after_v1 m c _

/-- The formatted covariances' buffer at the end of the entry function. -/
theorem tail_v65 (c : Dev nD) :
    Pipeline.afterTail₀ cfgs (Fr.dats m) 0 (Fr.V0 m) [hostOps1] c main_v65 = tailK (shapeCast S131072x32x6 ((Fr.dats m 0 c).arrAt 11 cfg0.N) shapeCasts_S131072x192_S131072x32x6) := by
  unfold Pipeline.afterTail₀
  exact after_v65 m c _

end Cert.KernelIdeal.KT

end
-- ==== Proof.RefTail.lean ====
/-
  The covariance formatting of the reference, as a function of the packed entries sv3 : [131072, 32, 6] alone, each
  step the composition of the host operations exactly as the program lists them.

  Every index table of the program is a literal integer vector tab (of 6 or of 3 entries); the program first
  "wraps" it as jnp does a possibly negative index, select(false, tab + 3, tab), and then pairs two wrapped
  tables, each laid out as a column, into a table of (row, column) positions of the 3 × 3 matrix:

    posPacked = pair6 (wrap6 [0,0,0,1,1,2]) (wrap6 [0,1,2,1,2,2])   -- where the 6 packed entries go
    posDiag   = pair3 (wrap3 [0,1,2]) (wrap3 [0,1,2])               -- the diagonal
    posUpper  = pair3 (wrap3 [0,0,1]) (wrap3 [1,2,2])               -- the strict upper triangle
    posLower  = pair3 (wrap3 [1,2,2]) (wrap3 [0,0,1])               -- its transpose positions

    m0   = scatter (zeros, posPacked, sv3)                  -- the packed entries written into a zero matrix
    m1   = scatter (m0, posDiag, exp (gather (m0, posDiag)))          -- the diagonal exponentiated
    off  = tanh (gather (m1, posUpper))                               -- the off-diagonal entries squashed
    m2   = scatter (m1, posUpper, off)
    tail = scatter (m2, posLower, off)                                -- and mirrored below the diagonal

  Every scatter's body returns the update.
-/
import proofs.«118819_j81836306858381_1_alg».proof.Proof.Gen.ReferenceIdeal

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The scalar 3 repeated over 6 entries: what a negative index would be shifted by. -/
def three6 : IVec S6 32 := broadcastInDim S6 ![] bcast_S_S6 (constantI S_ 32 3#32)
/-- The scalar 3 repeated over 3 entries. -/
def three3 : IVec S3 32 := broadcastInDim S3 ![] bcast_S_S3 (constantI S_ 32 3#32)

/-- A table of 6 indices wrapped as jnp wraps a negative index: `select (false, tab + 3, tab)`. -/
def wrap6 (tab : IVec S6 32) : IVec S6 32 := select (constantI S6 1 0#1) (addi tab three6) tab
/-- A table of 3 indices wrapped the same way. -/
def wrap3 (tab : IVec S3 32) : IVec S3 32 := select (constantI S3 1 0#1) (addi tab three3) tab

/-- Two tables of 6 indices, each laid out as a column, side by side: 6 (row, column) positions. -/
def pair6 (a b : IVec S6 32) : IVec S6x2 32 :=
  concatenate S6x2 1 [⟨S6x1, broadcastInDim S6x1 ![0] bcast_S6_S6x1_0 a⟩, ⟨S6x1, broadcastInDim S6x1 ![0] bcast_S6_S6x1_0 b⟩] concatenates_S6x1_S6x1_S6x2_d1
/-- Two tables of 3 indices, each laid out as a column, side by side: 3 (row, column) positions. -/
def pair3 (a b : IVec S3 32) : IVec S3x2 32 :=
  concatenate S3x2 1 [⟨S3x1, broadcastInDim S3x1 ![0] bcast_S3_S3x1_0 a⟩, ⟨S3x1, broadcastInDim S3x1 ![0] bcast_S3_S3x1_0 b⟩] concatenates_S3x1_S3x1_S3x2_d1

/-- Where the 6 packed entries go in the 3 × 3 matrix: rows [0,0,0,1,1,2], columns [0,1,2,1,2,2]. -/
def posPacked : IVec S6x2 32 := pair6 (wrap6 fun i => lit0 (S6.rowMajor i)) (wrap6 fun i => lit1 (S6.rowMajor i))
/-- The diagonal positions: rows [0,1,2], columns [0,1,2]. -/
def posDiag : IVec S3x2 32 := pair3 (wrap3 fun i => lit2 (S3.rowMajor i)) (wrap3 fun i => lit2 (S3.rowMajor i))
/-- The strict upper triangle: rows [0,0,1], columns [1,2,2]. -/
def posUpper : IVec S3x2 32 := pair3 (wrap3 fun i => lit3 (S3.rowMajor i)) (wrap3 fun i => lit4 (S3.rowMajor i))
/-- The strict lower triangle, in the order of the upper one transposed: rows [1,2,2], columns [0,0,1]. -/
def posLower : IVec S3x2 32 := pair3 (wrap3 fun i => lit5 (S3.rowMajor i)) (wrap3 fun i => lit6 (S3.rowMajor i))

/-- The zero matrix at every (sample, component). -/
def zeros4 : FVec F S131072x32x3x3 .f32 := broadcastInDim S131072x32x3x3 ![] bcast_S_S131072x32x3x3 (constant S_ .f32 0x00000000#32)

/-- The packed entries written into the zero matrix at their positions. -/
def m0 (sv3 : FVec F S131072x32x6 .f32) : FVec F S131072x32x3x3 .f32 :=
  Host.scatter scatter_S131072x32x3x3_S6x2_S131072x32x6_01_23_23_1 (fun _ b => b) zeros4 posPacked sv3

/-- The diagonal read back and exponentiated. -/
def diagExp (sv3 : FVec F S131072x32x6 .f32) : FVec F S131072x32x3 .f32 :=
  Host.exp (Host.gather gather_S131072x32x3x3_S3x2_S131072x32x3_01_23_n_n_23_1_1310723211 (m0 sv3) posDiag)

/-- The matrix with its diagonal exponentiated. -/
def m1 (sv3 : FVec F S131072x32x6 .f32) : FVec F S131072x32x3x3 .f32 :=
  Host.scatter scatter_S131072x32x3x3_S3x2_S131072x32x3_01_23_23_1 (fun _ b => b) (m0 sv3) posDiag (diagExp sv3)

/-- The strict upper triangle read back and squashed by tanh. -/
def offTanh (sv3 : FVec F S131072x32x6 .f32) : FVec F S131072x32x3 .f32 :=
  Host.tanh (Host.gather gather_S131072x32x3x3_S3x2_S131072x32x3_01_23_n_n_23_1_1310723211 (m1 sv3) posUpper)

/-- The matrix with its strict upper triangle squashed. -/
def m2 (sv3 : FVec F S131072x32x6 .f32) : FVec F S131072x32x3x3 .f32 :=
  Host.scatter scatter_S131072x32x3x3_S3x2_S131072x32x3_01_23_23_1 (fun _ b => b) (m1 sv3) posUpper (offTanh sv3)

/-- The covariance formatting: the squashed off-diagonal entries mirrored below the diagonal. -/
def tail (sv3 : FVec F S131072x32x6 .f32) : FVec F S131072x32x3x3 .f32 :=
  Host.scatter scatter_S131072x32x3x3_S3x2_S131072x32x3_01_23_23_1 (fun _ b => b) (m2 sv3) posLower (offTanh sv3)

end Cert.ReferenceIdeal.RefValue

end
-- ==== Proof.TailsAgree.lean ====
/-
  The two programs end with the same covariance formatting: the tiled network's tailK and the reference's tail are
  the same function of the packed entries. Each program spells the formatting over its own copies of the shapes,
  the index tables and the scatter and gather dimension records; the copies are equal literal for literal, so each
  named piece of one equals the same piece of the other, from the smallest pieces up.
-/
import proofs.«118819_j81836306858381_1_alg».proof.Proof.RefTail
import proofs.«118819_j81836306858381_1_alg».proof.Proof.KernelTailDefs

noncomputable section

namespace Cert.Tails

open Idealize.ShloMosaic

variable {F : FTy → Type} [FloatOps F]

theorem three6_eq : Cert.KernelIdeal.KT.three6 = Cert.ReferenceIdeal.RefValue.three6 := rfl
theorem three3_eq : Cert.KernelIdeal.KT.three3 = Cert.ReferenceIdeal.RefValue.three3 := rfl

theorem wrap6_eq (tab : IVec Cert.KernelIdeal.S6 32) : Cert.KernelIdeal.KT.wrap6 tab = Cert.ReferenceIdeal.RefValue.wrap6 tab := by
  unfold Cert.KernelIdeal.KT.wrap6 Cert.ReferenceIdeal.RefValue.wrap6; rw [three6_eq]
theorem wrap3_eq (tab : IVec Cert.KernelIdeal.S3 32) : Cert.KernelIdeal.KT.wrap3 tab = Cert.ReferenceIdeal.RefValue.wrap3 tab := by
  unfold Cert.KernelIdeal.KT.wrap3 Cert.ReferenceIdeal.RefValue.wrap3; rw [three3_eq]

theorem pair6_eq (a b : IVec Cert.KernelIdeal.S6 32) : Cert.KernelIdeal.KT.pair6 a b = Cert.ReferenceIdeal.RefValue.pair6 a b := rfl
theorem pair3_eq (a b : IVec Cert.KernelIdeal.S3 32) : Cert.KernelIdeal.KT.pair3 a b = Cert.ReferenceIdeal.RefValue.pair3 a b := rfl

theorem lit0_eq : Cert.KernelIdeal.lit0 = Cert.ReferenceIdeal.lit0 := rfl
theorem lit1_eq : Cert.KernelIdeal.lit1 = Cert.ReferenceIdeal.lit1 := rfl
theorem lit2_eq : Cert.KernelIdeal.lit2 = Cert.ReferenceIdeal.lit2 := rfl
theorem lit3_eq : Cert.KernelIdeal.lit3 = Cert.ReferenceIdeal.lit3 := rfl
theorem lit4_eq : Cert.KernelIdeal.lit4 = Cert.ReferenceIdeal.lit4 := rfl
theorem lit5_eq : Cert.KernelIdeal.lit5 = Cert.ReferenceIdeal.lit5 := rfl
theorem lit6_eq : Cert.KernelIdeal.lit6 = Cert.ReferenceIdeal.lit6 := rfl

theorem posPacked_eq : Cert.KernelIdeal.KT.posPacked = Cert.ReferenceIdeal.RefValue.posPacked := by
  unfold Cert.KernelIdeal.KT.posPacked Cert.ReferenceIdeal.RefValue.posPacked; rw [wrap6_eq, wrap6_eq, pair6_eq, lit0_eq, lit1_eq]
theorem posDiag_eq : Cert.KernelIdeal.KT.posDiag = Cert.ReferenceIdeal.RefValue.posDiag := by
  unfold Cert.KernelIdeal.KT.posDiag Cert.ReferenceIdeal.RefValue.posDiag; rw [wrap3_eq, pair3_eq, lit2_eq]
theorem posUpper_eq : Cert.KernelIdeal.KT.posUpper = Cert.ReferenceIdeal.RefValue.posUpper := by
  unfold Cert.KernelIdeal.KT.posUpper Cert.ReferenceIdeal.RefValue.posUpper; rw [wrap3_eq, wrap3_eq, pair3_eq, lit3_eq, lit4_eq]
theorem posLower_eq : Cert.KernelIdeal.KT.posLower = Cert.ReferenceIdeal.RefValue.posLower := by
  unfold Cert.KernelIdeal.KT.posLower Cert.ReferenceIdeal.RefValue.posLower; rw [wrap3_eq, wrap3_eq, pair3_eq, lit5_eq, lit6_eq]

theorem zeros4_eq : Cert.KernelIdeal.KT.zeros4 (F := F) = Cert.ReferenceIdeal.RefValue.zeros4 (F := F) := rfl

theorem scatter6_eq : Cert.KernelIdeal.scatter_S131072x32x3x3_S6x2_S131072x32x6_01_23_23_1 = Cert.ReferenceIdeal.scatter_S131072x32x3x3_S6x2_S131072x32x6_01_23_23_1 := rfl
theorem scatter3_eq : Cert.KernelIdeal.scatter_S131072x32x3x3_S3x2_S131072x32x3_01_23_23_1 = Cert.ReferenceIdeal.scatter_S131072x32x3x3_S3x2_S131072x32x3_01_23_23_1 := rfl
theorem gather3_eq : Cert.KernelIdeal.gather_S131072x32x3x3_S3x2_S131072x32x3_01_23_n_n_23_1_1310723211 = Cert.ReferenceIdeal.gather_S131072x32x3x3_S3x2_S131072x32x3_01_23_n_n_23_1_1310723211 := rfl

theorem m0_eq (sv3 : FVec F Cert.KernelIdeal.S131072x32x6 .f32) : Cert.KernelIdeal.KT.m0 sv3 = Cert.ReferenceIdeal.RefValue.m0 sv3 := by
  unfold Cert.KernelIdeal.KT.m0 Cert.ReferenceIdeal.RefValue.m0; rw [zeros4_eq, posPacked_eq, scatter6_eq]
theorem diagExp_eq (sv3 : FVec F Cert.KernelIdeal.S131072x32x6 .f32) : Cert.KernelIdeal.KT.diagExp sv3 = Cert.ReferenceIdeal.RefValue.diagExp sv3 := by
  unfold Cert.KernelIdeal.KT.diagExp Cert.ReferenceIdeal.RefValue.diagExp; rw [m0_eq, posDiag_eq, gather3_eq]
theorem m1_eq (sv3 : FVec F Cert.KernelIdeal.S131072x32x6 .f32) : Cert.KernelIdeal.KT.m1 sv3 = Cert.ReferenceIdeal.RefValue.m1 sv3 := by
  unfold Cert.KernelIdeal.KT.m1 Cert.ReferenceIdeal.RefValue.m1; rw [m0_eq, posDiag_eq, diagExp_eq, scatter3_eq]
theorem offTanh_eq (sv3 : FVec F Cert.KernelIdeal.S131072x32x6 .f32) : Cert.KernelIdeal.KT.offTanh sv3 = Cert.ReferenceIdeal.RefValue.offTanh sv3 := by
  unfold Cert.KernelIdeal.KT.offTanh Cert.ReferenceIdeal.RefValue.offTanh; rw [m1_eq, posUpper_eq, gather3_eq]
theorem m2_eq (sv3 : FVec F Cert.KernelIdeal.S131072x32x6 .f32) : Cert.KernelIdeal.KT.m2 sv3 = Cert.ReferenceIdeal.RefValue.m2 sv3 := by
  unfold Cert.KernelIdeal.KT.m2 Cert.ReferenceIdeal.RefValue.m2; rw [m1_eq, posUpper_eq, offTanh_eq, scatter3_eq]

/-- The tiled network's covariance formatting is the reference's. -/
theorem tail_eq (sv3 : FVec F Cert.KernelIdeal.S131072x32x6 .f32) : Cert.KernelIdeal.KT.tailK sv3 = Cert.ReferenceIdeal.RefValue.tail sv3 := by
  unfold Cert.KernelIdeal.KT.tailK Cert.ReferenceIdeal.RefValue.tail; rw [m2_eq, posLower_eq, offTanh_eq, scatter3_eq]

end Cert.Tails

end
-- ==== Proof.RefOps.lean ====
/-
  The reference program's @main as a list of its 128 host operations, window by window as the program lists them
  (60, 60 and 8 operations), each entry the operation exactly as the program writes it; the program equals the
  sequence of the list, no buffer or semaphore of the signature is scoped, every operation touches only
  TensorCore buffers, and each window writes only the buffers listed for it (so every other buffer keeps its
  contents through the window).
-/
import proofs.«118819_j81836306858381_1_alg».proof.Proof.Gen.ReferenceIdeal
import Idealize.ShloMosaic.Lib.StableHlo.Run
import Idealize.ShloMosaic.Lib.Pipeline.Frame

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 60 of 128 (window `main_part0`). -/
abbrev ops_part0 : List (HloOp τ sig (Elt F)) :=
  [ StableHlo.nullary main_c (fun i => lit0 (S6.rowMajor i)),
    StableHlo.nullary main_c_0 (constantI S6 1 0#1),
    StableHlo.nullary main_c_1 (fun i => lit1 (S6.rowMajor i)),
    StableHlo.nullary main_c_2 (constantI S6 1 0#1),
    StableHlo.nullary main_c_3 (fun i => lit2 (S3.rowMajor i)),
    StableHlo.nullary main_c_4 (constantI S3 1 0#1),
    StableHlo.nullary main_c_5 (constantI S3 1 0#1),
    StableHlo.nullary main_c_6 (constantI S3 1 0#1),
    StableHlo.nullary main_c_7 (constantI S3 1 0#1),
    StableHlo.nullary main_c_8 (fun i => lit3 (S3.rowMajor i)),
    StableHlo.nullary main_c_9 (constantI S3 1 0#1),
    StableHlo.nullary main_c_10 (fun i => lit4 (S3.rowMajor i)),
    StableHlo.nullary main_c_11 (constantI S3 1 0#1),
    StableHlo.nullary main_c_12 (constantI S3 1 0#1),
    StableHlo.nullary main_c_13 (constantI S3 1 0#1),
    StableHlo.nullary main_c_14 (fun i => lit5 (S3.rowMajor i)),
    StableHlo.nullary main_c_15 (constantI S3 1 0#1),
    StableHlo.nullary main_c_16 (fun i => lit6 (S3.rowMajor i)),
    StableHlo.nullary main_c_17 (constantI S3 1 0#1),
    StableHlo.binary main_arg0 main_arg1 main_v0 ((fun l r => Host.dotGeneral dot_S131072x256_S256x1024_S131072x1024_1_0_0_1_n_n none l r) : (⟨S131072x256, .f32⟩ : BufTy).Contents (Elt F) → (⟨S256x1024, .f32⟩ : BufTy).Contents (Elt F) → (⟨S131072x1024, .f32⟩ : BufTy).Contents (Elt F)),
    StableHlo.unary main_arg2 main_v1 (broadcastInDim S1x1024 ![1] bcast_S1024_S1x1024_1 : (⟨S1024, .f32⟩ : BufTy).Contents (Elt F) → (⟨S1x1024, .f32⟩ : BufTy).Contents (Elt F)),
    StableHlo.unary main_v1 main_v2 (broadcastInDim S131072x1024 ![0, 1] bcast_S1x1024_S131072x1024_0_1 : (⟨S1x1024, .f32⟩ : BufTy).Contents (Elt F) → (⟨S131072x1024, .f32⟩ : BufTy).Contents (Elt F)),
    StableHlo.binary main_v0 main_v2 main_v3 (addf : (⟨S131072x1024, .f32⟩ : BufTy).Contents (Elt F) → (⟨S131072x1024, .f32⟩ : BufTy).Contents (Elt F) → (⟨S131072x1024, .f32⟩ : BufTy).Contents (Elt F)),
    StableHlo.unary main_v3 main_v4 (Host.tanh : (⟨S131072x1024, .f32⟩ : BufTy).Contents (Elt F) → (⟨S131072x1024, .f32⟩ : BufTy).Contents (Elt F)),
    StableHlo.binary main_v4 main_arg3 main_v5 ((fun l r => Host.dotGeneral dot_S131072x1024_S1024x32_S131072x32_1_0_0_1_n_n none l r) : (⟨S131072x1024, .f32⟩ : BufTy).Contents (Elt F) → (⟨S1024x32, .f32⟩ : BufTy).Contents (Elt F) → (⟨S131072x32, .f32⟩ : BufTy).Contents (Elt F)),
    StableHlo.unary main_arg4 main_v6 (broadcastInDim S1x32 ![1] bcast_S32_S1x32_1 : (⟨S32, .f32⟩ : BufTy).Contents (Elt F) → (⟨S1x32, .f32⟩ : BufTy).Contents (Elt F)),
    StableHlo.unary main_v6 main_v7 (broadcastInDim S131072x32 ![0, 1] bcast_S1x32_S131072x32_0_1 : (⟨S1x32, .f32⟩ : BufTy).Contents (Elt F) → (⟨S131072x32, .f32⟩ : BufTy).Contents (Elt F)),
    StableHlo.binary main_v5 main_v7 main_v8 (addf : (⟨S131072x32, .f32⟩ : BufTy).Contents (Elt F) → (⟨S131072x32, .f32⟩ : BufTy).Contents (Elt F) → (⟨S131072x32, .f32⟩ : BufTy).Contents (Elt F)),
    StableHlo.nullary main_cst (constant S_ .f32 0xFF800000#32),
    StableHlo.binary main_v8 main_cst main_v9 ((fun x v => Host.reduce FloatOps.maximumf x v reducesTo_S131072x32_S131072_d1 h_S_) : (⟨S131072x32, .f32⟩ : BufTy).Contents (Elt F) → (⟨S_, .f32⟩ : BufTy).Contents (Elt F) → (⟨S131072, .f32⟩ : BufTy).Contents (Elt F)),
    StableHlo.nullary main_cst_18 (constant S_ .f32 0xFF800000#32),
    StableHlo.unary main_cst_18 main_v10 (broadcastInDim S131072 ![] bcast_S_S131072 : (⟨S_, .f32⟩ : BufTy).Contents (Elt F) → (⟨S131072, .f32⟩ : BufTy).Contents (Elt F)),
    StableHlo.binary main_v10 main_v9 main_v11 (maximumf : (⟨S131072, .f32⟩ : BufTy).Contents (Elt F) → (⟨S131072, .f32⟩ : BufTy).Contents (Elt F) → (⟨S131072, .f32⟩ : BufTy).Contents (Elt F)),
    StableHlo.unary main_v11 main_v12 (broadcastInDim S131072x1 ![0] bcast_S131072_S131072x1_0 : (⟨S131072, .f32⟩ : BufTy).Contents (Elt F) → (⟨S131072x1, .f32⟩ : BufTy).Contents (Elt F)),
    StableHlo.unary main_v12 main_v13 (broadcastInDim S131072x32 ![0, 1] bcast_S131072x1_S131072x32_0_1 : (⟨S131072x1, .f32⟩ : BufTy).Contents (Elt F) → (⟨S131072x32, .f32⟩ : BufTy).Contents (Elt F)),
    StableHlo.binary main_v8 main_v13 main_v14 (subf : (⟨S131072x32, .f32⟩ : BufTy).Contents (Elt F) → (⟨S131072x32, .f32⟩ : BufTy).Contents (Elt F) → (⟨S131072x32, .f32⟩ : BufTy).Contents (Elt F)),
    StableHlo.unary main_v14 main_v15 (Host.exp : (⟨S131072x32, .f32⟩ : BufTy).Contents (Elt F) → (⟨S131072x32, .f32⟩ : BufTy).Contents (Elt F)),
    StableHlo.nullary main_cst_19 (constant S_ .f32 0x00000000#32),
    StableHlo.binary main_v15 main_cst_19 main_v16 ((fun x v => Host.reduceAdd x v reducesTo_S131072x32_S131072_d1 h_S_) : (⟨S131072x32, .f32⟩ : BufTy).Contents (Elt F) → (⟨S_, .f32⟩ : BufTy).Contents (Elt F) → (⟨S131072, .f32⟩ : BufTy).Contents (Elt F)),
    StableHlo.unary main_v16 main_v17 (broadcastInDim S131072x1 ![0] bcast_S131072_S131072x1_0 : (⟨S131072, .f32⟩ : BufTy).Contents (Elt F) → (⟨S131072x1, .f32⟩ : BufTy).Contents (Elt F)),
    StableHlo.unary main_v17 main_v18 (broadcastInDim S131072x32 ![0, 1] bcast_S131072x1_S131072x32_0_1 : (⟨S131072x1, .f32⟩ : BufTy).Contents (Elt F) → (⟨S131072x32, .f32⟩ : BufTy).Contents (Elt F)),
    StableHlo.binary main_v15 main_v18 main_v19 (Host.divf : (⟨S131072x32, .f32⟩ : BufTy).Contents (Elt F) → (⟨S131072x32, .f32⟩ : BufTy).Contents (Elt F) → (⟨S131072x32, .f32⟩ : BufTy).Contents (Elt F)),
    StableHlo.binary main_v4 main_arg5 main_v20 ((fun l r => Host.dotGeneral dot_S131072x1024_S1024x96_S131072x96_1_0_0_1_n_n none l r) : (⟨S131072x1024, .f32⟩ : BufTy).Contents (Elt F) → (⟨S1024x96, .f32⟩ : BufTy).Contents (Elt F) → (⟨S131072x96, .f32⟩ : BufTy).Contents (Elt F)),
    StableHlo.unary main_arg6 main_v21 (broadcastInDim S1x96 ![1] bcast_S96_S1x96_1 : (⟨S96, .f32⟩ : BufTy).Contents (Elt F) → (⟨S1x96, .f32⟩ : BufTy).Contents (Elt F)),
    StableHlo.unary main_v21 main_v22 (broadcastInDim S131072x96 ![0, 1] bcast_S1x96_S131072x96_0_1 : (⟨S1x96, .f32⟩ : BufTy).Contents (Elt F) → (⟨S131072x96, .f32⟩ : BufTy).Contents (Elt F)),
    StableHlo.binary main_v20 main_v22 main_v23 (addf : (⟨S131072x96, .f32⟩ : BufTy).Contents (Elt F) → (⟨S131072x96, .f32⟩ : BufTy).Contents (Elt F) → (⟨S131072x96, .f32⟩ : BufTy).Contents (Elt F)),
    StableHlo.reshape main_v23 main_v24 rfl shapeCasts_S131072x96_S131072x32x3,
    StableHlo.binary main_v4 main_arg7 main_v25 ((fun l r => Host.dotGeneral dot_S131072x1024_S1024x192_S131072x192_1_0_0_1_n_n none l r) : (⟨S131072x1024, .f32⟩ : BufTy).Contents (Elt F) → (⟨S1024x192, .f32⟩ : BufTy).Contents (Elt F) → (⟨S131072x192, .f32⟩ : BufTy).Contents (Elt F)),
    StableHlo.unary main_arg8 main_v26 (broadcastInDim S1x192 ![1] bcast_S192_S1x192_1 : (⟨S192, .f32⟩ : BufTy).Contents (Elt F) → (⟨S1x192, .f32⟩ : BufTy).Contents (Elt F)),
    StableHlo.unary main_v26 main_v27 (broadcastInDim S131072x192 ![0, 1] bcast_S1x192_S131072x192_0_1 : (⟨S1x192, .f32⟩ : BufTy).Contents (Elt F) → (⟨S131072x192, .f32⟩ : BufTy).Contents (Elt F)),
    StableHlo.binary main_v25 main_v27 main_v28 (addf : (⟨S131072x192, .f32⟩ : BufTy).Contents (Elt F) → (⟨S131072x192, .f32⟩ : BufTy).Contents (Elt F) → (⟨S131072x192, .f32⟩ : BufTy).Contents (Elt F)),
    StableHlo.reshape main_v28 main_v29 rfl shapeCasts_S131072x192_S131072x32x6,
    StableHlo.nullary main_cst_20 (constant S_ .f32 0x00000000#32),
    StableHlo.unary main_cst_20 main_v30 (broadcastInDim S131072x32x3x3 ![] bcast_S_S131072x32x3x3 : (⟨S_, .f32⟩ : BufTy).Contents (Elt F) → (⟨S131072x32x3x3, .f32⟩ : BufTy).Contents (Elt F)),
    StableHlo.nullary main_c_21 (constantI S_ 32 3#32),
    StableHlo.unary main_c_21 main_v31 (broadcastInDim S6 ![] bcast_S_S6 : (⟨S_, .i32⟩ : BufTy).Contents (Elt F) → (⟨S6, .i32⟩ : BufTy).Contents (Elt F)),
    StableHlo.binary main_c main_v31 main_v32 (addi : (⟨S6, .i32⟩ : BufTy).Contents (Elt F) → (⟨S6, .i32⟩ : BufTy).Contents (Elt F) → (⟨S6, .i32⟩ : BufTy).Contents (Elt F)),
    StableHlo.ternary main_c_0 main_v32 main_c main_v33 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    StableHlo.nullary main_c_22 (constantI S_ 32 3#32),
    StableHlo.unary main_c_22 main_v34 (broadcastInDim S6 ![] bcast_S_S6 : (⟨S_, .i32⟩ : BufTy).Contents (Elt F) → (⟨S6, .i32⟩ : BufTy).Contents (Elt F)) ]

/-- @main's operations 61 … 120 of 128 (window `main_part1`). -/
abbrev ops_part1 : List (HloOp τ sig (Elt F)) :=
  [ StableHlo.binary main_c_1 main_v34 main_v35 (addi : (⟨S6, .i32⟩ : BufTy).Contents (Elt F) → (⟨S6, .i32⟩ : BufTy).Contents (Elt F) → (⟨S6, .i32⟩ : BufTy).Contents (Elt F)),
    StableHlo.ternary main_c_2 main_v35 main_c_1 main_v36 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    StableHlo.unary main_v33 main_v37 (broadcastInDim S6x1 ![0] bcast_S6_S6x1_0 : (⟨S6, .i32⟩ : BufTy).Contents (Elt F) → (⟨S6x1, .i32⟩ : BufTy).Contents (Elt F)),
    StableHlo.unary main_v36 main_v38 (broadcastInDim S6x1 ![0] bcast_S6_S6x1_0 : (⟨S6, .i32⟩ : BufTy).Contents (Elt F) → (⟨S6x1, .i32⟩ : BufTy).Contents (Elt F)),
    StableHlo.binary main_v37 main_v38 main_v39 ((fun a b => concatenate S6x2 1 [⟨S6x1, a⟩, ⟨S6x1, b⟩] concatenates_S6x1_S6x1_S6x2_d1) : (⟨S6x1, .i32⟩ : BufTy).Contents (Elt F) → (⟨S6x1, .i32⟩ : BufTy).Contents (Elt F) → (⟨S6x2, .i32⟩ : BufTy).Contents (Elt F)),
    StableHlo.ternary main_v30 main_v39 main_v29 main_v40 ((fun x i u => Host.scatter scatter_S131072x32x3x3_S6x2_S131072x32x6_01_23_23_1 (fun _ b => b) x i u) : (⟨S131072x32x3x3, .f32⟩ : BufTy).Contents (Elt F) → (⟨S6x2, .i32⟩ : BufTy).Contents (Elt F) → (⟨S131072x32x6, .f32⟩ : BufTy).Contents (Elt F) → (⟨S131072x32x3x3, .f32⟩ : BufTy).Contents (Elt F)),
    StableHlo.nullary main_c_23 (constantI S_ 32 3#32),
    StableHlo.unary main_c_23 main_v41 (broadcastInDim S3 ![] bcast_S_S3 : (⟨S_, .i32⟩ : BufTy).Contents (Elt F) → (⟨S3, .i32⟩ : BufTy).Contents (Elt F)),
    StableHlo.binary main_c_3 main_v41 main_v42 (addi : (⟨S3, .i32⟩ : BufTy).Contents (Elt F) → (⟨S3, .i32⟩ : BufTy).Contents (Elt F) → (⟨S3, .i32⟩ : BufTy).Contents (Elt F)),
    StableHlo.ternary main_c_4 main_v42 main_c_3 main_v43 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.nullary main_c_24 (constantI S_ 32 3#32),
    StableHlo.unary main_c_24 main_v44 (broadcastInDim S3 ![] bcast_S_S3 : (⟨S_, .i32⟩ : BufTy).Contents (Elt F) → (⟨S3, .i32⟩ : BufTy).Contents (Elt F)),
    StableHlo.binary main_c_3 main_v44 main_v45 (addi : (⟨S3, .i32⟩ : BufTy).Contents (Elt F) → (⟨S3, .i32⟩ : BufTy).Contents (Elt F) → (⟨S3, .i32⟩ : BufTy).Contents (Elt F)),
    StableHlo.ternary main_c_5 main_v45 main_c_3 main_v46 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v43 main_v47 (broadcastInDim S3x1 ![0] bcast_S3_S3x1_0 : (⟨S3, .i32⟩ : BufTy).Contents (Elt F) → (⟨S3x1, .i32⟩ : BufTy).Contents (Elt F)),
    StableHlo.unary main_v46 main_v48 (broadcastInDim S3x1 ![0] bcast_S3_S3x1_0 : (⟨S3, .i32⟩ : BufTy).Contents (Elt F) → (⟨S3x1, .i32⟩ : BufTy).Contents (Elt F)),
    StableHlo.binary main_v47 main_v48 main_v49 ((fun a b => concatenate S3x2 1 [⟨S3x1, a⟩, ⟨S3x1, b⟩] concatenates_S3x1_S3x1_S3x2_d1) : (⟨S3x1, .i32⟩ : BufTy).Contents (Elt F) → (⟨S3x1, .i32⟩ : BufTy).Contents (Elt F) → (⟨S3x2, .i32⟩ : BufTy).Contents (Elt F)),
    StableHlo.binary main_v40 main_v49 main_v50 ((fun x i => Host.gather gather_S131072x32x3x3_S3x2_S131072x32x3_01_23_n_n_23_1_1310723211 x i) : (⟨S131072x32x3x3, .f32⟩ : BufTy).Contents (Elt F) → (⟨S3x2, .i32⟩ : BufTy).Contents (Elt F) → (⟨S131072x32x3, .f32⟩ : BufTy).Contents (Elt F)),
    StableHlo.unary main_v50 main_v51 (Host.exp : (⟨S131072x32x3, .f32⟩ : BufTy).Contents (Elt F) → (⟨S131072x32x3, .f32⟩ : BufTy).Contents (Elt F)),
    StableHlo.nullary main_c_25 (constantI S_ 32 3#32),
    StableHlo.unary main_c_25 main_v52 (broadcastInDim S3 ![] bcast_S_S3 : (⟨S_, .i32⟩ : BufTy).Contents (Elt F) → (⟨S3, .i32⟩ : BufTy).Contents (Elt F)),
    StableHlo.binary main_c_3 main_v52 main_v53 (addi : (⟨S3, .i32⟩ : BufTy).Contents (Elt F) → (⟨S3, .i32⟩ : BufTy).Contents (Elt F) → (⟨S3, .i32⟩ : BufTy).Contents (Elt F)),
    StableHlo.ternary main_c_6 main_v53 main_c_3 main_v54 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.nullary main_c_26 (constantI S_ 32 3#32),
    StableHlo.unary main_c_26 main_v55 (broadcastInDim S3 ![] bcast_S_S3 : (⟨S_, .i32⟩ : BufTy).Contents (Elt F) → (⟨S3, .i32⟩ : BufTy).Contents (Elt F)),
    StableHlo.binary main_c_3 main_v55 main_v56 (addi : (⟨S3, .i32⟩ : BufTy).Contents (Elt F) → (⟨S3, .i32⟩ : BufTy).Contents (Elt F) → (⟨S3, .i32⟩ : BufTy).Contents (Elt F)),
    StableHlo.ternary main_c_7 main_v56 main_c_3 main_v57 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v54 main_v58 (broadcastInDim S3x1 ![0] bcast_S3_S3x1_0 : (⟨S3, .i32⟩ : BufTy).Contents (Elt F) → (⟨S3x1, .i32⟩ : BufTy).Contents (Elt F)),
    StableHlo.unary main_v57 main_v59 (broadcastInDim S3x1 ![0] bcast_S3_S3x1_0 : (⟨S3, .i32⟩ : BufTy).Contents (Elt F) → (⟨S3x1, .i32⟩ : BufTy).Contents (Elt F)),
    StableHlo.binary main_v58 main_v59 main_v60 ((fun a b => concatenate S3x2 1 [⟨S3x1, a⟩, ⟨S3x1, b⟩] concatenates_S3x1_S3x1_S3x2_d1) : (⟨S3x1, .i32⟩ : BufTy).Contents (Elt F) → (⟨S3x1, .i32⟩ : BufTy).Contents (Elt F) → (⟨S3x2, .i32⟩ : BufTy).Contents (Elt F)),
    StableHlo.ternary main_v40 main_v60 main_v51 main_v61 ((fun x i u => Host.scatter scatter_S131072x32x3x3_S3x2_S131072x32x3_01_23_23_1 (fun _ b => b) x i u) : (⟨S131072x32x3x3, .f32⟩ : BufTy).Contents (Elt F) → (⟨S3x2, .i32⟩ : BufTy).Contents (Elt F) → (⟨S131072x32x3, .f32⟩ : BufTy).Contents (Elt F) → (⟨S131072x32x3x3, .f32⟩ : BufTy).Contents (Elt F)),
    StableHlo.nullary main_c_27 (constantI S_ 32 3#32),
    StableHlo.unary main_c_27 main_v62 (broadcastInDim S3 ![] bcast_S_S3 : (⟨S_, .i32⟩ : BufTy).Contents (Elt F) → (⟨S3, .i32⟩ : BufTy).Contents (Elt F)),
    StableHlo.binary main_c_8 main_v62 main_v63 (addi : (⟨S3, .i32⟩ : BufTy).Contents (Elt F) → (⟨S3, .i32⟩ : BufTy).Contents (Elt F) → (⟨S3, .i32⟩ : BufTy).Contents (Elt F)),
    StableHlo.ternary main_c_9 main_v63 main_c_8 main_v64 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.nullary main_c_28 (constantI S_ 32 3#32),
    StableHlo.unary main_c_28 main_v65 (broadcastInDim S3 ![] bcast_S_S3 : (⟨S_, .i32⟩ : BufTy).Contents (Elt F) → (⟨S3, .i32⟩ : BufTy).Contents (Elt F)),
    StableHlo.binary main_c_10 main_v65 main_v66 (addi : (⟨S3, .i32⟩ : BufTy).Contents (Elt F) → (⟨S3, .i32⟩ : BufTy).Contents (Elt F) → (⟨S3, .i32⟩ : BufTy).Contents (Elt F)),
    StableHlo.ternary main_c_11 main_v66 main_c_10 main_v67 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v64 main_v68 (broadcastInDim S3x1 ![0] bcast_S3_S3x1_0 : (⟨S3, .i32⟩ : BufTy).Contents (Elt F) → (⟨S3x1, .i32⟩ : BufTy).Contents (Elt F)),
    StableHlo.unary main_v67 main_v69 (broadcastInDim S3x1 ![0] bcast_S3_S3x1_0 : (⟨S3, .i32⟩ : BufTy).Contents (Elt F) → (⟨S3x1, .i32⟩ : BufTy).Contents (Elt F)),
    StableHlo.binary main_v68 main_v69 main_v70 ((fun a b => concatenate S3x2 1 [⟨S3x1, a⟩, ⟨S3x1, b⟩] concatenates_S3x1_S3x1_S3x2_d1) : (⟨S3x1, .i32⟩ : BufTy).Contents (Elt F) → (⟨S3x1, .i32⟩ : BufTy).Contents (Elt F) → (⟨S3x2, .i32⟩ : BufTy).Contents (Elt F)),
    StableHlo.binary main_v61 main_v70 main_v71 ((fun x i => Host.gather gather_S131072x32x3x3_S3x2_S131072x32x3_01_23_n_n_23_1_1310723211 x i) : (⟨S131072x32x3x3, .f32⟩ : BufTy).Contents (Elt F) → (⟨S3x2, .i32⟩ : BufTy).Contents (Elt F) → (⟨S131072x32x3, .f32⟩ : BufTy).Contents (Elt F)),
    StableHlo.unary main_v71 main_v72 (Host.tanh : (⟨S131072x32x3, .f32⟩ : BufTy).Contents (Elt F) → (⟨S131072x32x3, .f32⟩ : BufTy).Contents (Elt F)),
    StableHlo.nullary main_c_29 (constantI S_ 32 3#32),
    StableHlo.unary main_c_29 main_v73 (broadcastInDim S3 ![] bcast_S_S3 : (⟨S_, .i32⟩ : BufTy).Contents (Elt F) → (⟨S3, .i32⟩ : BufTy).Contents (Elt F)),
    StableHlo.binary main_c_8 main_v73 main_v74 (addi : (⟨S3, .i32⟩ : BufTy).Contents (Elt F) → (⟨S3, .i32⟩ : BufTy).Contents (Elt F) → (⟨S3, .i32⟩ : BufTy).Contents (Elt F)),
    StableHlo.ternary main_c_12 main_v74 main_c_8 main_v75 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.nullary main_c_30 (constantI S_ 32 3#32),
    StableHlo.unary main_c_30 main_v76 (broadcastInDim S3 ![] bcast_S_S3 : (⟨S_, .i32⟩ : BufTy).Contents (Elt F) → (⟨S3, .i32⟩ : BufTy).Contents (Elt F)),
    StableHlo.binary main_c_10 main_v76 main_v77 (addi : (⟨S3, .i32⟩ : BufTy).Contents (Elt F) → (⟨S3, .i32⟩ : BufTy).Contents (Elt F) → (⟨S3, .i32⟩ : BufTy).Contents (Elt F)),
    StableHlo.ternary main_c_13 main_v77 main_c_10 main_v78 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v75 main_v79 (broadcastInDim S3x1 ![0] bcast_S3_S3x1_0 : (⟨S3, .i32⟩ : BufTy).Contents (Elt F) → (⟨S3x1, .i32⟩ : BufTy).Contents (Elt F)),
    StableHlo.unary main_v78 main_v80 (broadcastInDim S3x1 ![0] bcast_S3_S3x1_0 : (⟨S3, .i32⟩ : BufTy).Contents (Elt F) → (⟨S3x1, .i32⟩ : BufTy).Contents (Elt F)),
    StableHlo.binary main_v79 main_v80 main_v81 ((fun a b => concatenate S3x2 1 [⟨S3x1, a⟩, ⟨S3x1, b⟩] concatenates_S3x1_S3x1_S3x2_d1) : (⟨S3x1, .i32⟩ : BufTy).Contents (Elt F) → (⟨S3x1, .i32⟩ : BufTy).Contents (Elt F) → (⟨S3x2, .i32⟩ : BufTy).Contents (Elt F)),
    StableHlo.ternary main_v61 main_v81 main_v72 main_v82 ((fun x i u => Host.scatter scatter_S131072x32x3x3_S3x2_S131072x32x3_01_23_23_1 (fun _ b => b) x i u) : (⟨S131072x32x3x3, .f32⟩ : BufTy).Contents (Elt F) → (⟨S3x2, .i32⟩ : BufTy).Contents (Elt F) → (⟨S131072x32x3, .f32⟩ : BufTy).Contents (Elt F) → (⟨S131072x32x3x3, .f32⟩ : BufTy).Contents (Elt F)),
    StableHlo.nullary main_c_31 (constantI S_ 32 3#32),
    StableHlo.unary main_c_31 main_v83 (broadcastInDim S3 ![] bcast_S_S3 : (⟨S_, .i32⟩ : BufTy).Contents (Elt F) → (⟨S3, .i32⟩ : BufTy).Contents (Elt F)),
    StableHlo.binary main_c_14 main_v83 main_v84 (addi : (⟨S3, .i32⟩ : BufTy).Contents (Elt F) → (⟨S3, .i32⟩ : BufTy).Contents (Elt F) → (⟨S3, .i32⟩ : BufTy).Contents (Elt F)),
    StableHlo.ternary main_c_15 main_v84 main_c_14 main_v85 (select : (⟨S3, .i1⟩ : BufTy).Contents (Elt F) → (⟨S3, .i32⟩ : BufTy).Contents (Elt F) → (⟨S3, .i32⟩ : BufTy).Contents (Elt F) → (⟨S3, .i32⟩ : BufTy).Contents (Elt F)) ]

/-- @main's operations 121 … 128 of 128 (window `main_part2`). -/
abbrev ops_part2 : List (HloOp τ sig (Elt F)) :=
  [ StableHlo.nullary main_c_32 (constantI S_ 32 3#32),
    StableHlo.unary main_c_32 main_v86 (broadcastInDim S3 ![] bcast_S_S3 : (⟨S_, .i32⟩ : BufTy).Contents (Elt F) → (⟨S3, .i32⟩ : BufTy).Contents (Elt F)),
    StableHlo.binary main_c_16 main_v86 main_v87 (addi : (⟨S3, .i32⟩ : BufTy).Contents (Elt F) → (⟨S3, .i32⟩ : BufTy).Contents (Elt F) → (⟨S3, .i32⟩ : BufTy).Contents (Elt F)),
    StableHlo.ternary main_c_17 main_v87 main_c_16 main_v88 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    StableHlo.unary main_v85 main_v89 (broadcastInDim S3x1 ![0] bcast_S3_S3x1_0 : (⟨S3, .i32⟩ : BufTy).Contents (Elt F) → (⟨S3x1, .i32⟩ : BufTy).Contents (Elt F)),
    StableHlo.unary main_v88 main_v90 (broadcastInDim S3x1 ![0] bcast_S3_S3x1_0 : (⟨S3, .i32⟩ : BufTy).Contents (Elt F) → (⟨S3x1, .i32⟩ : BufTy).Contents (Elt F)),
    StableHlo.binary main_v89 main_v90 main_v91 ((fun a b => concatenate S3x2 1 [⟨S3x1, a⟩, ⟨S3x1, b⟩] concatenates_S3x1_S3x1_S3x2_d1) : (⟨S3x1, .i32⟩ : BufTy).Contents (Elt F) → (⟨S3x1, .i32⟩ : BufTy).Contents (Elt F) → (⟨S3x2, .i32⟩ : BufTy).Contents (Elt F)),
    StableHlo.ternary main_v82 main_v91 main_v72 main_v92 ((fun x i u => Host.scatter scatter_S131072x32x3x3_S3x2_S131072x32x3_01_23_23_1 (fun _ b => b) x i u) : (⟨S131072x32x3x3, .f32⟩ : BufTy).Contents (Elt F) → (⟨S3x2, .i32⟩ : BufTy).Contents (Elt F) → (⟨S131072x32x3, .f32⟩ : BufTy).Contents (Elt F) → (⟨S131072x32x3x3, .f32⟩ : BufTy).Contents (Elt F)) ]

/-- @main's 128 operations, in order. -/
abbrev ops : List (HloOp τ sig (Elt F)) :=
  ops_part0 ++ (ops_part1 ++ ops_part2)

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., nullary_bufs_sub .., binary_bufs_sub .., unary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., unary_bufs_sub .., binary_bufs_sub .., reshape_bufs_sub .., binary_bufs_sub .., unary_bufs_sub .., unary_bufs_sub .., binary_bufs_sub .., reshape_bufs_sub .., nullary_bufs_sub .., unary_bufs_sub .., nullary_bufs_sub .., unary_bufs_sub .., binary_bufs_sub .., ternary_bufs_sub .., nullary_bufs_sub .., unary_bufs_sub ..⟩
set_option maxRecDepth 8192 in
theorem ops_part1_sub : (ops_part1 : List (HloOp τ sig (Elt F))).Forall fun op => op.bufs ⊆ tcRefs τ sig :=
  ⟨binary_bufs_sub .., ternary_bufs_sub .., unary_bufs_sub .., unary_bufs_sub .., binary_bufs_sub .., ternary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., binary_bufs_sub .., unary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., binary_bufs_sub .., unary_bufs_sub .., nullary_bufs_sub .., unary_bufs_sub .., binary_bufs_sub .., ternary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., ternary_bufs_sub ..⟩
set_option maxRecDepth 8192 in
theorem ops_part2_sub : (ops_part2 : List (HloOp τ sig (Elt F))).Forall fun op => op.bufs ⊆ tcRefs τ sig :=
  ⟨nullary_bufs_sub .., unary_bufs_sub .., binary_bufs_sub .., ternary_bufs_sub .., unary_bufs_sub .., unary_bufs_sub .., binary_bufs_sub .., ternary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops_part0_sub op h, List.forall_iff_forall_mem.mp ops_part1_sub op h, List.forall_iff_forall_mem.mp ops_part2_sub op h]

/-- Running the whole list is running its three windows in turn. -/
theorem after_ops (V0 : Valuation τ sig (Elt F)) : after ops V0 = after ops_part2 (after ops_part1 (after ops_part0 V0)) := by
  simp only [ops, after_append]

/-- The buffers that window `main_part0`'s operations write. -/
abbrev ops_part0_W : List (Ref sig .tc) := [main_c, main_c_0, main_c_1, main_c_2, main_c_3, main_c_4, main_c_5, main_c_6, main_c_7, main_c_8, main_c_9, main_c_10, main_c_11, main_c_12, main_c_13, main_c_14, main_c_15, main_c_16, main_c_17, main_v0, main_v1, main_v2, main_v3, main_v4, main_v5, main_v6, main_v7, main_v8, main_cst, main_v9, main_cst_18, main_v10, main_v11, main_v12, main_v13, main_v14, main_v15, main_cst_19, main_v16, main_v17, main_v18, main_v19, main_v20, main_v21, main_v22, main_v23, main_v24, main_v25, main_v26, main_v27, main_v28, main_v29, main_cst_20, main_v30, main_c_21, main_v31, main_v32, main_v33, main_c_22, main_v34]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A buffer that window `main_part0` does not write keeps its contents through it. -/
theorem part0_keep (V : Valuation τ sig (Elt F)) (r : Ref sig .tc) (h : r ∉ ops_part0_W) :
    after ops_part0 V (Proc.devRef .tc r) = V (Proc.devRef .tc r) :=
  after_of_writes_sub ops_part0 _ ops_part0_writes h

/-- The buffers that window `main_part1`'s operations write. -/
abbrev ops_part1_W : List (Ref sig .tc) := [main_v35, main_v36, main_v37, main_v38, main_v39, main_v40, main_c_23, main_v41, main_v42, main_v43, main_c_24, main_v44, main_v45, main_v46, main_v47, main_v48, main_v49, main_v50, main_v51, main_c_25, main_v52, main_v53, main_v54, main_c_26, main_v55, main_v56, main_v57, main_v58, main_v59, main_v60, main_v61, main_c_27, main_v62, main_v63, main_v64, main_c_28, main_v65, main_v66, main_v67, main_v68, main_v69, main_v70, main_v71, main_v72, main_c_29, main_v73, main_v74, main_v75, main_c_30, main_v76, main_v77, main_v78, main_v79, main_v80, main_v81, main_v82, main_c_31, main_v83, main_v84, main_v85]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A buffer that window `main_part1` does not write keeps its contents through it. -/
theorem part1_keep (V : Valuation τ sig (Elt F)) (r : Ref sig .tc) (h : r ∉ ops_part1_W) :
    after ops_part1 V (Proc.devRef .tc r) = V (Proc.devRef .tc r) :=
  after_of_writes_sub ops_part1 _ ops_part1_writes h

/-- The buffers that window `main_part2`'s operations write. -/
abbrev ops_part2_W : List (Ref sig .tc) := [main_c_32, main_v86, main_v87, main_v88, main_v89, main_v90, main_v91, main_v92]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩
/-- A buffer that window `main_part2` does not write keeps its contents through it. -/
theorem part2_keep (V : Valuation τ sig (Elt F)) (r : Ref sig .tc) (h : r ∉ ops_part2_W) :
    after ops_part2 V (Proc.devRef .tc r) = V (Proc.devRef .tc r) :=
  after_of_writes_sub ops_part2 _ ops_part2_writes h

end Cert.ReferenceIdeal.RefValue

end
-- ==== Proof.RefTerms.lean ====
/-
  The reference's stages as named functions of the argument arrays, each the composition of its host
  operations exactly as the program lists them:

    hid x W1 b1      = tanh (x · W1 + b1)               -- the hidden layer, [131072, 1024]
    logits h W b     = h · W + b                        -- a head before any activation, [131072, n]
    softmaxH s       = exp (s - rowmax s) / rowsum      -- the row softmax as jnp spells it: the row maximum from -inf,
                                                           kept as a column, subtracted, exponentiated, the row sum kept
                                                           as a column, divided
    piOf h Wpi bpi   = softmaxH (logits h Wpi bpi)      -- the mixture weights, [131072, 32]

  The means and the packed covariance entries are `logits` at widths 96 and 192; the program reshapes them
  to [131072, 32, 3] and [131072, 32, 6] afterwards.
-/
import proofs.«118819_j81836306858381_1_alg».proof.Proof.Gen.ReferenceIdeal

noncomputable section

namespace Cert.ReferenceIdeal.RefValue

open Cert.ReferenceIdeal Cert.ReferenceIdeal.Gen Idealize.ShloMosaic Idealize.ShloMosaic.TcCoe

variable {F : FTy → Type} [FloatOps F]

/-- The hidden layer: `tanh (x · W1 + b1)`, the bias laid out as a row and repeated down the rows. -/
def hid (x : FVec F S131072x256 .f32) (W1 : FVec F S256x1024 .f32) (b1 : FVec F S1024 .f32) : FVec F S131072x1024 .f32 :=
  Host.tanh (addf (Host.dotGeneral dot_S131072x256_S256x1024_S131072x1024_1_0_0_1_n_n none x W1)
    (broadcastInDim S131072x1024 ![0, 1] bcast_S1x1024_S131072x1024_0_1 (broadcastInDim S1x1024 ![1] bcast_S1024_S1x1024_1 b1)))

/-- The mixture head before the softmax: `h · Wpi + bpi`. -/
def logitsPi (h : FVec F S131072x1024 .f32) (Wpi : FVec F S1024x32 .f32) (bpi : FVec F S32 .f32) : FVec F S131072x32 .f32 :=
  addf (Host.dotGeneral dot_S131072x1024_S1024x32_S131072x32_1_0_0_1_n_n none h Wpi)
    (broadcastInDim S131072x32 ![0, 1] bcast_S1x32_S131072x32_0_1 (broadcastInDim S1x32 ![1] bcast_S32_S1x32_1 bpi))

/-- The row maximum of the logits, from -inf, once more maxed against -inf (as jnp writes it). -/
def rowMaxH (s : FVec F S131072x32 .f32) : FVec F S131072 .f32 :=
  maximumf (broadcastInDim S131072 ![] bcast_S_S131072 (constant S_ .f32 0xFF800000#32))
    (Host.reduce FloatOps.maximumf s (constant S_ .f32 0xFF800000#32) reducesTo_S131072x32_S131072_d1 h_S_)

/-- `exp (s - rowmax s)`, the maximum kept as a column and repeated along the row. -/
def expShift (s : FVec F S131072x32 .f32) : FVec F S131072x32 .f32 :=
  Host.exp (subf s (broadcastInDim S131072x32 ![0, 1] bcast_S131072x1_S131072x32_0_1
    (broadcastInDim S131072x1 ![0] bcast_S131072_S131072x1_0 (rowMaxH s))))

/-- The row softmax: the shifted exponentials over their row sum (from zero), kept as a column and repeated. -/
def softmaxH (s : FVec F S131072x32 .f32) : FVec F S131072x32 .f32 :=
  Host.divf (expShift s) (broadcastInDim S131072x32 ![0, 1] bcast_S131072x1_S131072x32_0_1
    (broadcastInDim S131072x1 ![0] bcast_S131072_S131072x1_0
      (Host.reduceAdd (expShift s) (constant S_ .f32 0x00000000#32) reducesTo_S131072x32_S131072_d1 h_S_)))

/-- The mixture weights. -/
def piOf (h : FVec F S131072x1024 .f32) (Wpi : FVec F S1024x32 .f32) (bpi : FVec F S32 .f32) : FVec F S131072x32 .f32 :=
  softmaxH (logitsPi h Wpi bpi)

/-- The means, before the reshape to [131072, 32, 3]: `h · Wmu + bmu`. -/
def muOf (h : FVec F S131072x1024 .f32) (Wmu : FVec F S1024x96 .f32) (bmu : FVec F S96 .f32) : FVec F S131072x96 .f32 :=
  addf (Host.dotGeneral dot_S131072x1024_S1024x96_S131072x96_1_0_0_1_n_n none h Wmu)
    (broadcastInDim S131072x96 ![0, 1] bcast_S1x96_S131072x96_0_1 (broadcastInDim S1x96 ![1] bcast_S96_S1x96_1 bmu))

/-- The packed covariance entries, before the reshape to [131072, 32, 6]: `h · Wsig + bsig`. -/
def svOf (h : FVec F S131072x1024 .f32) (Wsig : FVec F S1024x192 .f32) (bsig : FVec F S192 .f32) : FVec F S131072x192 .f32 :=
  addf (Host.dotGeneral dot_S131072x1024_S1024x192_S131072x192_1_0_0_1_n_n none h Wsig)
    (broadcastInDim S131072x192 ![0, 1] bcast_S1x192_S131072x192_0_1 (broadcastInDim S1x192 ![1] bcast_S192_S1x192_1 bsig))

end Cert.ReferenceIdeal.RefValue

end
-- ==== Proof.RefRun.lean ====
/-
  The reference program's run, read back: from any memory with zero counters every weakly fair execution of @main
  terminates, the three results hold the named stages of RefTerms and RefTail applied to the arguments' launch
  contents, and the nine arguments are unchanged.

  The contents after the run are the fold of the 128 operations' results over the launch contents (run_seq); the
  fold is read window by window: val1, val2, val3 are the contents after the first, the first two and all three
  windows, a buffer a window does not write keeps its contents through it, and a buffer a window writes holds its
  operation's function of that operation's operands, each read in turn the same way.
-/
import proofs.«118819_j81836306858381_1_alg».proof.Proof.RefOps
import proofs.«118819_j81836306858381_1_alg».proof.Proof.RefTerms
import proofs.«118819_j81836306858381_1_alg».proof.Proof.RefTail

set_option Elab.async false

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The hidden layer at the arguments a valuation holds. -/
def hidV (V0 : Valuation τ sig (Elt F)) : FVec F S131072x1024 .f32 :=
  hid (V0 (Proc.devRef .tc main_arg0)) (V0 (Proc.devRef .tc main_arg1)) (V0 (Proc.devRef .tc main_arg2))

/-- The packed covariance entries at the arguments a valuation holds, in their [131072, 32, 6] layout. -/
def sv3V (V0 : Valuation τ sig (Elt F)) : FVec F S131072x32x6 .f32 :=
  shapeCast S131072x32x6 (svOf (hidV V0) (V0 (Proc.devRef .tc main_arg7)) (V0 (Proc.devRef .tc main_arg8))) shapeCasts_S131072x192_S131072x32x6

/-- The device's buffer contents after @main's first window. -/
def val1 (V0 : Valuation τ sig (Elt F)) : Valuation τ sig (Elt F) := after ops_part0 V0
/-- The device's buffer contents after @main's first two windows. -/
def val2 (V0 : Valuation τ sig (Elt F)) : Valuation τ sig (Elt F) := after ops_part1 (val1 V0)
/-- The device's buffer contents after @main's three windows. -/
def val3 (V0 : Valuation τ sig (Elt F)) : Valuation τ sig (Elt F) := after ops_part2 (val2 V0)

theorem val1_keep (V0 : Valuation τ sig (Elt F)) (r : Ref sig .tc) (h : r ∉ ops_part0_W) :
    val1 V0 (Proc.devRef .tc r) = V0 (Proc.devRef .tc r) := part0_keep V0 r h
theorem val2_keep (V0 : Valuation τ sig (Elt F)) (r : Ref sig .tc) (h : r ∉ ops_part1_W) :
    val2 V0 (Proc.devRef .tc r) = val1 V0 (Proc.devRef .tc r) := part1_keep (val1 V0) r h
theorem val3_keep (V0 : Valuation τ sig (Elt F)) (r : Ref sig .tc) (h : r ∉ ops_part2_W) :
    val3 V0 (Proc.devRef .tc r) = val2 V0 (Proc.devRef .tc r) := part2_keep (val2 V0) r h

/-- A buffer no window writes (an argument) keeps its launch contents through the run. -/
theorem val3_launch (V0 : Valuation τ sig (Elt F)) (r : Ref sig .tc) (h0 : r ∉ ops_part0_W) (h1 : r ∉ ops_part1_W) (h2 : r ∉ ops_part2_W) :
    val3 V0 (Proc.devRef .tc r) = V0 (Proc.devRef .tc r) :=
  (val3_keep V0 r h2).trans ((val2_keep V0 r h1).trans (val1_keep V0 r h0))

/-! ## The first window: the three heads, and what the later windows read of it -/

set_option maxRecDepth 8192 in
set_option maxHeartbeats 4000000 in
theorem val1_v19 (V0 : Valuation τ sig (Elt F)) : val1 V0 (no_index (Proc.devRef .tc main_v19)) = piOf (hidV V0) (V0 (Proc.devRef .tc main_arg3)) (V0 (Proc.devRef .tc main_arg4)) := by
  unfold val1
  simp only [ops_part0]
  after_results_simp
  rfl

set_option maxRecDepth 8192 in
set_option maxHeartbeats 4000000 in
theorem val1_v24 (V0 : Valuation τ sig (Elt F)) : val1 V0 (no_index (Proc.devRef .tc main_v24)) = shapeCast S131072x32x3 (muOf (hidV V0) (V0 (Proc.devRef .tc main_arg5)) (V0 (Proc.devRef .tc main_arg6))) shapeCasts_S131072x96_S131072x32x3 := by
  unfold val1
  simp only [ops_part0]
  after_results_simp
  rfl

set_option maxRecDepth 8192 in
set_option maxHeartbeats 4000000 in
theorem val1_v29 (V0 : Valuation τ sig (Elt F)) : val1 V0 (no_index (Proc.devRef .tc main_v29)) = sv3V V0 := by
  unfold val1
  simp only [ops_part0]
  after_results_simp
  rfl

set_option maxRecDepth 8192 in
set_option maxHeartbeats 4000000 in
theorem val1_v30 (V0 : Valuation τ sig (Elt F)) : val1 V0 (no_index (Proc.devRef .tc main_v30)) = zeros4 := by
  unfold val1
  simp only [ops_part0]
  after_results_simp
  rfl

set_option maxRecDepth 8192 in
set_option maxHeartbeats 4000000 in
theorem val1_v33 (V0 : Valuation τ sig (Elt F)) : val1 V0 (no_index (Proc.devRef .tc main_v33)) = wrap6 fun i => lit0 (S6.rowMajor i) := by
  unfold val1
  simp only [ops_part0]
  after_results_simp
  rfl

set_option maxRecDepth 8192 in
set_option maxHeartbeats 4000000 in
theorem val1_v34 (V0 : Valuation τ sig (Elt F)) : val1 V0 (no_index (Proc.devRef .tc main_v34)) = three6 := by
  unfold val1
  simp only [ops_part0]
  after_results_simp
  rfl

set_option maxRecDepth 8192 in
set_option maxHeartbeats 4000000 in
theorem val1_c_1 (V0 : Valuation τ sig (Elt F)) : val1 V0 (no_index (Proc.devRef .tc main_c_1)) = (fun i => lit1 (S6.rowMajor i)) := by
  unfold val1
  simp only [ops_part0]
  after_results_simp
  rfl

set_option maxRecDepth 8192 in
set_option maxHeartbeats 4000000 in
theorem val1_c_2 (V0 : Valuation τ sig (Elt F)) : val1 V0 (no_index (Proc.devRef .tc main_c_2)) = (constantI S6 1 0#1) := by
  unfold val1
  simp only [ops_part0]
  after_results_simp

set_option maxRecDepth 8192 in
set_option maxHeartbeats 4000000 in
theorem val1_c_3 (V0 : Valuation τ sig (Elt F)) : val1 V0 (no_index (Proc.devRef .tc main_c_3)) = (fun i => lit2 (S3.rowMajor i)) := by
  unfold val1
  simp only [ops_part0]
  after_results_simp
  rfl

set_option maxRecDepth 8192 in
set_option maxHeartbeats 4000000 in
theorem val1_c_4 (V0 : Valuation τ sig (Elt F)) : val1 V0 (no_index (Proc.devRef .tc main_c_4)) = (constantI S3 1 0#1) := by
  unfold val1
  simp only [ops_part0]
  after_results_simp

set_option maxRecDepth 8192 in
set_option maxHeartbeats 4000000 in
theorem val1_c_5 (V0 : Valuation τ sig (Elt F)) : val1 V0 (no_index (Proc.devRef .tc main_c_5)) = (constantI S3 1 0#1) := by
  unfold val1
  simp only [ops_part0]
  after_results_simp

set_option maxRecDepth 8192 in
set_option maxHeartbeats 4000000 in
theorem val1_c_6 (V0 : Valuation τ sig (Elt F)) : val1 V0 (no_index (Proc.devRef .tc main_c_6)) = (constantI S3 1 0#1) := by
  unfold val1
  simp only [ops_part0]
  after_results_simp

set_option maxRecDepth 8192 in
set_option maxHeartbeats 4000000 in
theorem val1_c_7 (V0 : Valuation τ sig (Elt F)) : val1 V0 (no_index (Proc.devRef .tc main_c_7)) = (constantI S3 1 0#1) := by
  unfold val1
  simp only [ops_part0]
  after_results_simp

set_option maxRecDepth 8192 in
set_option maxHeartbeats 4000000 in
theorem val1_c_8 (V0 : Valuation τ sig (Elt F)) : val1 V0 (no_index (Proc.devRef .tc main_c_8)) = (fun i => lit3 (S3.rowMajor i)) := by
  unfold val1
  simp only [ops_part0]
  after_results_simp
  rfl

set_option maxRecDepth 8192 in
set_option maxHeartbeats 4000000 in
theorem val1_c_9 (V0 : Valuation τ sig (Elt F)) : val1 V0 (no_index (Proc.devRef .tc main_c_9)) = (constantI S3 1 0#1) := by
  unfold val1
  simp only [ops_part0]
  after_results_simp

set_option maxRecDepth 8192 in
set_option maxHeartbeats 4000000 in
theorem val1_c_10 (V0 : Valuation τ sig (Elt F)) : val1 V0 (no_index (Proc.devRef .tc main_c_10)) = (fun i => lit4 (S3.rowMajor i)) := by
  unfold val1
  simp only [ops_part0]
  after_results_simp
  rfl

set_option maxRecDepth 8192 in
set_option maxHeartbeats 4000000 in
theorem val1_c_11 (V0 : Valuation τ sig (Elt F)) : val1 V0 (no_index (Proc.devRef .tc main_c_11)) = (constantI S3 1 0#1) := by
  unfold val1
  simp only [ops_part0]
  after_results_simp

set_option maxRecDepth 8192 in
set_option maxHeartbeats 4000000 in
theorem val1_c_12 (V0 : Valuation τ sig (Elt F)) : val1 V0 (no_index (Proc.devRef .tc main_c_12)) = (constantI S3 1 0#1) := by
  unfold val1
  simp only [ops_part0]
  after_results_simp

set_option maxRecDepth 8192 in
set_option maxHeartbeats 4000000 in
theorem val1_c_13 (V0 : Valuation τ sig (Elt F)) : val1 V0 (no_index (Proc.devRef .tc main_c_13)) = (constantI S3 1 0#1) := by
  unfold val1
  simp only [ops_part0]
  after_results_simp

set_option maxRecDepth 8192 in
set_option maxHeartbeats 4000000 in
theorem val1_c_14 (V0 : Valuation τ sig (Elt F)) : val1 V0 (no_index (Proc.devRef .tc main_c_14)) = (fun i => lit5 (S3.rowMajor i)) := by
  unfold val1
  simp only [ops_part0]
  after_results_simp
  rfl

set_option maxRecDepth 8192 in
set_option maxHeartbeats 4000000 in
theorem val1_c_15 (V0 : Valuation τ sig (Elt F)) : val1 V0 (no_index (Proc.devRef .tc main_c_15)) = (constantI S3 1 0#1) := by
  unfold val1
  simp only [ops_part0]
  after_results_simp

set_option maxRecDepth 8192 in
set_option maxHeartbeats 4000000 in
theorem val1_c_16 (V0 : Valuation τ sig (Elt F)) : val1 V0 (no_index (Proc.devRef .tc main_c_16)) = (fun i => lit6 (S3.rowMajor i)) := by
  unfold val1
  simp only [ops_part0]
  after_results_simp
  rfl

set_option maxRecDepth 8192 in
set_option maxHeartbeats 4000000 in
theorem val1_c_17 (V0 : Valuation τ sig (Elt F)) : val1 V0 (no_index (Proc.devRef .tc main_c_17)) = (constantI S3 1 0#1) := by
  unfold val1
  simp only [ops_part0]
  after_results_simp

/-! ## The second window -/

set_option maxRecDepth 8192 in
set_option maxHeartbeats 4000000 in
theorem val2_v72 (V0 : Valuation τ sig (Elt F)) : val2 V0 (no_index (Proc.devRef .tc main_v72)) = offTanh (sv3V V0) := by
  unfold val2
  simp only [ops_part1]
  after_results_simp
  simp only [val1_v29, val1_v30, val1_v33, val1_v34, val1_c_1, val1_c_2, val1_c_3, val1_c_4, val1_c_5, val1_c_6, val1_c_7, val1_c_8, val1_c_9, val1_c_10, val1_c_11, val1_c_12, val1_c_13, val1_c_14, val1_c_15]
  rfl

set_option maxRecDepth 8192 in
set_option maxHeartbeats 4000000 in
theorem val2_v82 (V0 : Valuation τ sig (Elt F)) : val2 V0 (no_index (Proc.devRef .tc main_v82)) = m2 (sv3V V0) := by
  unfold val2
  simp only [ops_part1]
  after_results_simp
  simp only [val1_v29, val1_v30, val1_v33, val1_v34, val1_c_1, val1_c_2, val1_c_3, val1_c_4, val1_c_5, val1_c_6, val1_c_7, val1_c_8, val1_c_9, val1_c_10, val1_c_11, val1_c_12, val1_c_13, val1_c_14, val1_c_15]
  rfl

set_option maxRecDepth 8192 in
set_option maxHeartbeats 4000000 in
theorem val2_v85 (V0 : Valuation τ sig (Elt F)) : val2 V0 (no_index (Proc.devRef .tc main_v85)) = wrap3 fun i => lit5 (S3.rowMajor i) := by
  unfold val2
  simp only [ops_part1]
  after_results_simp
  simp only [val1_c_14, val1_c_15]
  rfl

theorem val2_c_16 (V0 : Valuation τ sig (Elt F)) : val2 V0 (no_index (Proc.devRef .tc main_c_16)) = (fun i => lit6 (S3.rowMajor i)) :=
  (val2_keep V0 main_c_16 (by decide)).trans (val1_c_16 V0)
theorem val2_c_17 (V0 : Valuation τ sig (Elt F)) : val2 V0 (no_index (Proc.devRef .tc main_c_17)) = (constantI S3 1 0#1) :=
  (val2_keep V0 main_c_17 (by decide)).trans (val1_c_17 V0)

/-! ## The third window, and the three results after the whole run -/

set_option maxRecDepth 8192 in
set_option maxHeartbeats 4000000 in
theorem val3_v92 (V0 : Valuation τ sig (Elt F)) : val3 V0 (no_index (Proc.devRef .tc main_v92)) = tail (sv3V V0) := by
  unfold val3
  simp only [ops_part2]
  after_results_simp
  simp only [val2_v72, val2_v82, val2_v85, val2_c_16, val2_c_17]
  rfl

theorem val3_v19 (V0 : Valuation τ sig (Elt F)) : val3 V0 (Proc.devRef .tc main_v19) = piOf (hidV V0) (V0 (Proc.devRef .tc main_arg3)) (V0 (Proc.devRef .tc main_arg4)) :=
  (val3_keep V0 main_v19 (by decide)).trans ((val2_keep V0 main_v19 (by decide)).trans (val1_v19 V0))
theorem val3_v24 (V0 : Valuation τ sig (Elt F)) : val3 V0 (Proc.devRef .tc main_v24) = shapeCast S131072x32x3 (muOf (hidV V0) (V0 (Proc.devRef .tc main_arg5)) (V0 (Proc.devRef .tc main_arg6))) shapeCasts_S131072x96_S131072x32x3 :=
  (val3_keep V0 main_v24 (by decide)).trans ((val2_keep V0 main_v24 (by decide)).trans (val1_v24 V0))

theorem after_ops_val3 (V0 : Valuation τ sig (Elt F)) : after ops V0 = val3 V0 := after_ops V0

set_option maxRecDepth 8192 in
/-- On the device, for any float values, from any memory with zero counters: every weakly fair execution of @main
    terminates with the mixture weights, the means and the formatted covariances at the reference's stages of the
    arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = piOf (hid (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))
      ∧ r.2.mem ((c.tc : Thread nD τ).loc main_v24) = shapeCast S131072x32x3 (muOf (hid (m ((c.tc : Thread nD τ).loc main_arg0)) (m ((c.tc : Thread nD τ).loc main_arg1)) (m ((c.tc : Thread nD τ).loc main_arg2))) (m ((c.tc : Thread nD τ).loc main_arg5)) (m ((c.tc : Thread nD τ).loc main_arg6))) shapeCasts_S131072x96_S131072x32x3
      ∧ r.2.mem ((c.tc : Thread nD τ).loc main_v92) = tail (shapeCast S131072x32x6 (svOf (hid (m ((c.tc : Thread nD τ).loc main_arg0)) (m ((c.tc : Thread nD τ).loc main_arg1)) (m ((c.tc : Thread nD τ).loc main_arg2))) (m ((c.tc : Thread nD τ).loc main_arg7)) (m ((c.tc : Thread nD τ).loc main_arg8))) shapeCasts_S131072x192_S131072x32x6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v19).trans (by rw [after_ops_val3]; exact val3_v19 (launchContents m c)),
      (h c main_v24).trans (by rw [after_ops_val3]; exact val3_v24 (launchContents m c)),
      (h c main_v92).trans (by rw [after_ops_val3]; exact val3_v92 (launchContents m c)),
      (h c main_arg0).trans (by rw [after_ops_val3]; exact val3_launch (launchContents m c) main_arg0 (by decide) (by decide) (by decide)),
      (h c main_arg1).trans (by rw [after_ops_val3]; exact val3_launch (launchContents m c) main_arg1 (by decide) (by decide) (by decide)),
      (h c main_arg2).trans (by rw [after_ops_val3]; exact val3_launch (launchContents m c) main_arg2 (by decide) (by decide) (by decide)),
      (h c main_arg3).trans (by rw [after_ops_val3]; exact val3_launch (launchContents m c) main_arg3 (by decide) (by decide) (by decide)),
      (h c main_arg4).trans (by rw [after_ops_val3]; exact val3_launch (launchContents m c) main_arg4 (by decide) (by decide) (by decide)),
      (h c main_arg5).trans (by rw [after_ops_val3]; exact val3_launch (launchContents m c) main_arg5 (by decide) (by decide) (by decide)),
      (h c main_arg6).trans (by rw [after_ops_val3]; exact val3_launch (launchContents m c) main_arg6 (by decide) (by decide) (by decide)),
      (h c main_arg7).trans (by rw [after_ops_val3]; exact val3_launch (launchContents m c) main_arg7 (by decide) (by decide) (by decide)),
      (h c main_arg8).trans (by rw [after_ops_val3]; exact val3_launch (launchContents m c) main_arg8 (by decide) (by decide) (by decide))⟩)
    (run_seq scopedRefs_eq scopedSems_eq defs main (fun _ => ops) main_eq (fun _ => ops_sub) m ρ)

end Cert.ReferenceIdeal.RefValue

end
-- ==== Proof.RefFrame.lean ====
/-
  The reference program's frame: from any memory with zero counters every weakly fair execution of @main
  terminates with the nine arguments unchanged — the run's post with its three result equations dropped.
-/
import proofs.«118819_j81836306858381_1_alg».proof.Proof.RefRun
import proofs.«118819_j81836306858381_1_alg».proof.Defs
import proofs.«118819_j81836306858381_1_alg».proof.Proof.Gen.Pre_finite_inputs

noncomputable section

namespace Cert.ReferenceIdeal.RefValue

open Cert.ReferenceIdeal Cert.ReferenceIdeal.Gen Idealize.ShloMosaic Idealize.SL.Sem

/-- The frame claim of the reference at the ideal instance, at the proved facts. -/
theorem frame : Cert.frame_ReferenceIdeal (hReferenceIdeal := Cert.ReferenceIdeal.Gen.facts) (hPre_finite_inputs := Cert.Pre_finite_inputs.Gen.facts) :=
  fun m g _ => (θ_run (defs (F := Ideal)) _ _).mono (fun _ h c => (h c).2.2.2) (run (F := Ideal) m g)

end Cert.ReferenceIdeal.RefValue

end
-- ==== Proof.LibBroadcastInDim.lean ====
/-
  A broadcast along named axes (stablehlo.broadcast_in_dim), read at an index, for the three layouts a row statistic
  meets on the host: a scalar repeated over any shape; a vector [a] laid out as a column [a, 1]; a column [a, 1]
  repeated across the b columns of an [a, b] matrix. For any extents and any element type.
-/
import Idealize.ShloMosaic.Lib.Pipeline.Value
import Idealize.ShloMosaic.Lib.ValueIdx

noncomputable section

namespace Cert.Lib.BroadcastInDim

open Idealize.ShloMosaic Idealize.ShloMosaic.ValueIdx

variable {α : Type}

/-- A scalar (a rank-0 array) broadcast to any shape: every element is the scalar. -/
theorem scalar_apply {t : Shape} (dims : Fin 0 → Fin t.rank) (h : (⟨0, ![]⟩ : Shape).BroadcastsInDim t dims)
    (x : (⟨0, ![]⟩ : Shape).Idx → α) (j : t.Idx) :
    broadcastInDim t dims h x j = x ix0 :=
  broadcastInDim_apply dims h x j ix0 (fun a => a.elim0)

/-- A vector laid out as a column, [a] → [a, 1] along axis 0: row p of the column is element p of the vector. -/
theorem vecAsCol_apply {a : Nat} (h : (⟨1, ![a]⟩ : Shape).BroadcastsInDim ⟨2, ![a, 1]⟩ (![0] : Fin 1 → Fin 2))
    (v : (⟨1, ![a]⟩ : Shape).Idx → α) (p : Fin a) :
    broadcastInDim ⟨2, ![a, 1]⟩ ![0] h v (ix2 p (0 : Fin 1)) = v (ix1 p) :=
  broadcastInDim_apply _ h v (ix2 p (0 : Fin 1)) (ix1 p) (fun d => match d with
    | ⟨0, _⟩ => by
        show p.val = if a = 1 then 0 else p.val
        split_ifs with ha
        · subst ha; have := p.isLt; omega
        · rfl)

/-- A column repeated across the columns of a matrix, [a, 1] → [a, b] along axes 0 and 1: entry (p, q) is the
    column's row p. -/
theorem colAcross_apply {a b : Nat}
    (h : (⟨2, ![a, 1]⟩ : Shape).BroadcastsInDim ⟨2, ![a, b]⟩ (![0, 1] : Fin 2 → Fin 2))
    (col : (⟨2, ![a, 1]⟩ : Shape).Idx → α) (p : Fin a) (q : Fin b) :
    broadcastInDim ⟨2, ![a, b]⟩ ![0, 1] h col (ix2 p q) = col (ix2 p (0 : Fin 1)) :=
  broadcastInDim_apply _ h col (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

end Cert.Lib.BroadcastInDim

end
-- ==== Proof.LibHostSoftmaxRows.lean ====
/-
  The softmax of each row of an [a, b] array, as a host program spells it (jnp's softmax lowered to stablehlo),
  read at an entry on the extended reals, for any extents.

  The host takes each row's maximum from minus infinity (a reduce with a maximum body over the last axis), takes the
  maximum of that with minus infinity once more, lays the [a] vector out as an [a, 1] column and repeats the column
  across the b columns, subtracts, exponentiates, sums each row of exponentials from zero, lays the sums out as a
  column and repeats it, and divides. Entry (p, q) of the result is exp(s_q - m) / (sum over k of exp(s_k - m)),
  where s is row p of the array and m the maximum of that row from minus infinity: `hostSoftmax_apply`. The steps are
  read one at a time: the reduced index p with the column k put back is (p, k) (`lift_last`), the row maxima
  (`hostRowMax_apply`, `hostRowMaxV_apply`), the row sums (`hostRowSum_apply`), the shifted exponentials
  (`hostExpShift_apply`).
-/
import Idealize.ShloMosaic.Lib.Pipeline.Value
import Idealize.ShloMosaic.Lib.ValueIdx
import Idealize.ShloMosaic.Lib.IdealHost
import Idealize.ShloMosaic.PureOps.Ideal.Laws
import proofs.«118819_j81836306858381_1_alg».proof.Proof.LibSoftmaxRows
import proofs.«118819_j81836306858381_1_alg».proof.Proof.LibBroadcastInDim

noncomputable section

open scoped BigOperators

namespace Cert.Lib.HostSoftmaxRows

open Idealize.ShloMosaic Idealize.ShloMosaic.ValueIdx Cert.Lib.SoftmaxRows Cert.Lib.BroadcastInDim

variable {a b : Nat}

/-- Over the reduced index p of a reduction along the last axis, the source index with column k put back is (p, k). -/
theorem lift_last (h : (⟨2, ![a, b]⟩ : Shape).Reduces [1] ⟨1, ![a]⟩) (p : Fin a) (k : Fin b) :
    h.lift (ix1 p) k = ix2 p k :=
  funext fun d => Fin.ext (by match d with | ⟨0, _⟩ => rfl | ⟨1, _⟩ => rfl)

/-- The host's reduce with a maximum body over the last axis, from minus infinity: at p, the maximum of row p. -/
theorem hostRowMax_apply (s : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce FloatOps.maximumf s (constant (F := Ideal) ⟨0, ![]⟩ .f32 0xFF800000#32) h' hu (ix1 p)
      = rowMax (fun k : Fin b => s (ix2 p k)) := by
  refine (Host.reduce_eq_fold_single FloatOps.maximumf s _ h' h hu (ix1 p)).trans ?_
  exact Finset.fold_congr fun k _ => congrArg s (lift_last h p k)

/-- The host's sum over the last axis, from zero: at p, the sum of row p. -/
theorem hostRowSum_apply (v : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd v (constant (F := Ideal) ⟨0, ![]⟩ .f32 0x00000000#32) h' hu (ix1 p) = ∑ k : Fin b, v (ix2 p k) := by
  show Ideal.hostReduceAdd h' v (Ideal.ofBits .f32 0x00000000#32) (ix1 p) = _
  rw [Ideal.hostReduceAdd_single h' h, Ideal.ofBits_zero_f32, zero_add]
  exact Finset.sum_congr rfl fun k _ => congrArg v (lift_last h p k)

/-- The row maxima as the host keeps them: the reduce from minus infinity, and the maximum with minus infinity once more. -/
def hostRowMaxV (s : FVec Ideal ⟨2, ![a, b]⟩ .f32)
    (h0 : (⟨0, ![]⟩ : Shape).BroadcastsInDim ⟨1, ![a]⟩ (![] : Fin 0 → Fin 1))
    (h' : (⟨2, ![a, b]⟩ : Shape).ReducesTo [1] ⟨1, ![a]⟩) (hu : 0 < (⟨0, ![]⟩ : Shape).numel) : FVec Ideal ⟨1, ![a]⟩ .f32 :=
  maximumf (broadcastInDim ⟨1, ![a]⟩ ![] h0 (constant (F := Ideal) ⟨0, ![]⟩ .f32 0xFF800000#32))
    (Host.reduce FloatOps.maximumf s (constant (F := Ideal) ⟨0, ![]⟩ .f32 0xFF800000#32) h' hu)

/-- At p it is the maximum of row p: the second maximum with minus infinity changes nothing. -/
theorem hostRowMaxV_apply (s : FVec Ideal ⟨2, ![a, b]⟩ .f32)
    (h0 : (⟨0, ![]⟩ : Shape).BroadcastsInDim ⟨1, ![a]⟩ (![] : Fin 0 → Fin 1))
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    hostRowMaxV s h0 h' hu (ix1 p) = rowMax (fun k : Fin b => s (ix2 p k)) := by
  show max (broadcastInDim ⟨1, ![a]⟩ ![] h0 (constant (F := Ideal) ⟨0, ![]⟩ .f32 0xFF800000#32) (ix1 p))
      (Host.reduce FloatOps.maximumf s (constant (F := Ideal) ⟨0, ![]⟩ .f32 0xFF800000#32) h' hu (ix1 p)) = _
  rw [scalar_apply _ h0 _ (ix1 p), hostRowMax_apply s h' h hu p]
  exact max_negInf_rowMax _

/-- The shifted exponentials as the host spells them: the maxima laid out as a column, repeated across the columns,
    subtracted, exponentiated. -/
def hostExpShift (s : FVec Ideal ⟨2, ![a, b]⟩ .f32)
    (h0 : (⟨0, ![]⟩ : Shape).BroadcastsInDim ⟨1, ![a]⟩ (![] : Fin 0 → Fin 1))
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2))
    (h' : (⟨2, ![a, b]⟩ : Shape).ReducesTo [1] ⟨1, ![a]⟩) (hu : 0 < (⟨0, ![]⟩ : Shape).numel) : FVec Ideal ⟨2, ![a, b]⟩ .f32 :=
  Host.exp (subf s (broadcastInDim ⟨2, ![a, b]⟩ ![0, 1] h2 (broadcastInDim ⟨2, ![a, 1]⟩ ![0] h1 (hostRowMaxV s h0 h' hu))))

/-- Entry (p, k) of the shifted exponentials: exp of the entry less the row's maximum. -/
theorem hostExpShift_apply (s : FVec Ideal ⟨2, ![a, b]⟩ .f32)
    (h0 : (⟨0, ![]⟩ : Shape).BroadcastsInDim ⟨1, ![a]⟩ (![] : Fin 0 → Fin 1))
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2))
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) (k : Fin b) :
    hostExpShift s h0 h1 h2 h' hu (ix2 p k) = Ideal.exp (s (ix2 p k) - rowMax (fun k : Fin b => s (ix2 p k))) :=
  congrArg (fun m => Ideal.exp (s (ix2 p k) - m))
    ((colAcross_apply h2 _ p k).trans ((vecAsCol_apply h1 _ p).trans (hostRowMaxV_apply s h0 h' h hu p)))

/-- The row softmax as the host spells it: the shifted exponentials over their row sums, the sums laid out as a column
    and repeated across the columns. -/
def hostSoftmax (s : FVec Ideal ⟨2, ![a, b]⟩ .f32)
    (h0 : (⟨0, ![]⟩ : Shape).BroadcastsInDim ⟨1, ![a]⟩ (![] : Fin 0 → Fin 1))
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2))
    (h' : (⟨2, ![a, b]⟩ : Shape).ReducesTo [1] ⟨1, ![a]⟩) (hu : 0 < (⟨0, ![]⟩ : Shape).numel) : FVec Ideal ⟨2, ![a, b]⟩ .f32 :=
  Host.divf (hostExpShift s h0 h1 h2 h' hu)
    (broadcastInDim ⟨2, ![a, b]⟩ ![0, 1] h2 (broadcastInDim ⟨2, ![a, 1]⟩ ![0] h1
      (Host.reduceAdd (hostExpShift s h0 h1 h2 h' hu) (constant (F := Ideal) ⟨0, ![]⟩ .f32 0x00000000#32) h' hu)))

/-- The host's row softmax read at entry (p, q). -/
theorem hostSoftmax_apply (s : FVec Ideal ⟨2, ![a, b]⟩ .f32)
    (h0 : (⟨0, ![]⟩ : Shape).BroadcastsInDim ⟨1, ![a]⟩ (![] : Fin 0 → Fin 1))
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2))
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) (q : Fin b) :
    hostSoftmax s h0 h1 h2 h' hu (ix2 p q) = softmax (fun k : Fin b => s (ix2 p k)) q := by
  have he : ∀ k : Fin b, hostExpShift s h0 h1 h2 h' hu (ix2 p k)
      = Ideal.exp (s (ix2 p k) - rowMax (fun k : Fin b => s (ix2 p k))) := hostExpShift_apply s h0 h1 h2 h' h hu p
  show Ideal.div (hostExpShift s h0 h1 h2 h' hu (ix2 p q))
      (broadcastInDim ⟨2, ![a, b]⟩ ![0, 1] h2 (broadcastInDim ⟨2, ![a, 1]⟩ ![0] h1
        (Host.reduceAdd (hostExpShift s h0 h1 h2 h' hu) (constant (F := Ideal) ⟨0, ![]⟩ .f32 0x00000000#32) h' hu)) (ix2 p q)) = _
  refine (congrArg₂ Ideal.div (he q) ((colAcross_apply h2 _ p q).trans ((vecAsCol_apply h1 _ p).trans
    (hostRowSum_apply _ h' h hu p)))).trans ?_
  unfold softmax
  exact congrArg (Ideal.div _) (Finset.sum_congr rfl fun k _ => he k)

end Cert.Lib.HostSoftmaxRows

end
-- ==== Proof.RefIsSpec.lean ====
/-
  The reference's stages are the specification's layers, as whole arrays on the extended reals.

    hid x W1 b1     = hidS x W1 b1                 -- tanh of the dense layer, entry by entry
    logitsPi h W b  = dense h W b                  -- likewise the means (width 96) and the covariance entries (width 192)
    softmaxH s      = softS s                      -- the row softmax
    piOf h W b      = softS (dense h W b)          -- the mixture weights

  A general product on the host is the sum of products; a bias broadcast first to one row and then down the rows is
  the bias repeated; the host's unary operations and its quotient act entry by entry, and on the extended reals they
  are the functions the specification names. The host's row softmax is read entry by entry: its row maximum is the
  fold of max from minus infinity over the row, unchanged by one more maximum with minus infinity, its row sum from
  zero is the row's sum, and both meet the [131072, 32] array as a column repeated across the columns.
-/
import proofs.«118819_j81836306858381_1_alg».proof.Proof.Spec
import proofs.«118819_j81836306858381_1_alg».proof.Proof.LibHostSoftmaxRows
import proofs.«118819_j81836306858381_1_alg».proof.Proof.RefTerms

noncomputable section

namespace Cert.ReferenceIdeal.RefValue

open Cert.ReferenceIdeal Cert.ReferenceIdeal.Gen Idealize.ShloMosaic Idealize.ShloMosaic.ValueIdx

/-- A reduction along the last axis of a [131072, 32] array keeps the 131072 rows. -/
theorem reduces_rows : S131072x32.Reduces [1] S131072 := by decide

/-- The hidden layer is the specification's. -/
theorem hid_eq (x : FVec Ideal S131072x256 .f32) (W1 : FVec Ideal S256x1024 .f32) (b1 : FVec Ideal S1024 .f32) :
    hid (F := Ideal) x W1 b1 = Cert.Mdn.hidS (m := 131072) (k := 256) (n := 1024) x W1 b1 :=
  congrArg₂ (fun u v => Host.tanh (addf u v))
    (Cert.Layers.hostMm_eq (m := 131072) (k := 256) (n := 1024) dot_S131072x256_S256x1024_S131072x1024_1_0_0_1_n_n
      dot_S131072x256_S256x1024_S131072x1024_1_0_0_1_n_n_wf rfl x W1)
    (Cert.Layers.hostBias_eq (m := 131072) (n := 1024) b1 bcast_S1024_S1x1024_1 bcast_S1x1024_S131072x1024_0_1)

/-- The mixture head before the softmax is a dense layer. -/
theorem logitsPi_eq (h : FVec Ideal S131072x1024 .f32) (Wpi : FVec Ideal S1024x32 .f32) (bpi : FVec Ideal S32 .f32) :
    logitsPi (F := Ideal) h Wpi bpi = Cert.Layers.dense (m := 131072) (k := 1024) (n := 32) h Wpi bpi :=
  congrArg₂ (fun u v => addf u v)
    (Cert.Layers.hostMm_eq (m := 131072) (k := 1024) (n := 32) dot_S131072x1024_S1024x32_S131072x32_1_0_0_1_n_n
      dot_S131072x1024_S1024x32_S131072x32_1_0_0_1_n_n_wf rfl h Wpi)
    (Cert.Layers.hostBias_eq (m := 131072) (n := 32) bpi bcast_S32_S1x32_1 bcast_S1x32_S131072x32_0_1)

/-- The means before the reshape are a dense layer. -/
theorem muOf_eq (h : FVec Ideal S131072x1024 .f32) (Wmu : FVec Ideal S1024x96 .f32) (bmu : FVec Ideal S96 .f32) :
    muOf (F := Ideal) h Wmu bmu = Cert.Layers.dense (m := 131072) (k := 1024) (n := 96) h Wmu bmu :=
  congrArg₂ (fun u v => addf u v)
    (Cert.Layers.hostMm_eq (m := 131072) (k := 1024) (n := 96) dot_S131072x1024_S1024x96_S131072x96_1_0_0_1_n_n
      dot_S131072x1024_S1024x96_S131072x96_1_0_0_1_n_n_wf rfl h Wmu)
    (Cert.Layers.hostBias_eq (m := 131072) (n := 96) bmu bcast_S96_S1x96_1 bcast_S1x96_S131072x96_0_1)

/-- The packed covariance entries before the reshape are a dense layer. -/
theorem svOf_eq (h : FVec Ideal S131072x1024 .f32) (Wsig : FVec Ideal S1024x192 .f32) (bsig : FVec Ideal S192 .f32) :
    svOf (F := Ideal) h Wsig bsig = Cert.Layers.dense (m := 131072) (k := 1024) (n := 192) h Wsig bsig :=
  congrArg₂ (fun u v => addf u v)
    (Cert.Layers.hostMm_eq (m := 131072) (k := 1024) (n := 192) dot_S131072x1024_S1024x192_S131072x192_1_0_0_1_n_n
      dot_S131072x1024_S1024x192_S131072x192_1_0_0_1_n_n_wf rfl h Wsig)
    (Cert.Layers.hostBias_eq (m := 131072) (n := 192) bsig bcast_S192_S1x192_1 bcast_S1x192_S131072x192_0_1)

/-- The reference's row softmax is the host's spelling of it at extents 131072 and 32. -/
theorem softmaxH_spelt (s : FVec Ideal S131072x32 .f32) :
    softmaxH (F := Ideal) s = Cert.Lib.HostSoftmaxRows.hostSoftmax (a := 131072) (b := 32) s bcast_S_S131072
      bcast_S131072_S131072x1_0 bcast_S131072x1_S131072x32_0_1 reducesTo_S131072x32_S131072_d1 h_S_ := rfl

/-- The reference's row softmax is the specification's. -/
theorem softmaxH_eq (s : FVec Ideal S131072x32 .f32) :
    softmaxH (F := Ideal) s = Cert.Mdn.softS (m := 131072) (n := 32) s := by
  rw [softmaxH_spelt]
  funext i
  obtain ⟨p, q, rfl⟩ : ∃ (p : Fin 131072) (q : Fin 32), i = ix2 p q := ⟨i 0, i 1, eq_ix2 i⟩
  exact Cert.Lib.HostSoftmaxRows.hostSoftmax_apply (a := 131072) (b := 32) s bcast_S_S131072 bcast_S131072_S131072x1_0
    bcast_S131072x1_S131072x32_0_1 reducesTo_S131072x32_S131072_d1 reduces_rows h_S_ p q

/-- The mixture weights are the row softmax of the dense layer. -/
theorem piOf_eq (h : FVec Ideal S131072x1024 .f32) (Wpi : FVec Ideal S1024x32 .f32) (bpi : FVec Ideal S32 .f32) :
    piOf (F := Ideal) h Wpi bpi
      = Cert.Mdn.softS (m := 131072) (n := 32) (Cert.Layers.dense (m := 131072) (k := 1024) (n := 32) h Wpi bpi) :=
  (congrArg (softmaxH (F := Ideal)) (logitsPi_eq h Wpi bpi)).trans (softmaxH_eq _)

end Cert.ReferenceIdeal.RefValue

end
-- ==== Proof.lean ====
/-
  The tiled mixture-density head equals its plain reference on the extended reals.

  Both programs compute, for every row p of x,
      h(p, ·)  = tanh (x(p, ·) · W1 + b1),
      pi(p, ·) = softmax (h(p, ·) · Wpi + bpi),   mu(p, ·) = h(p, ·) · Wmu + bmu,   sv(p, ·) = h(p, ·) · Wsig + bsig,
  reshape mu and sv to [131072, 32, 3] and [131072, 32, 6], and then run the SAME seventy-six host lines that
  scatter the six packed entries of each gaussian into a 3x3 matrix, exponentiate its diagonal and take the
  hyperbolic tangent of its off-diagonal entries, mirrored below the diagonal.

  The tiled program does the first part block by block, 1024 rows at a grid point, on the matrix unit after casting
  its operands to a narrower float format; on the extended reals the cast is the identity and the matrix unit's
  product into a zero accumulator is the plain sum of products, as is the host's general product. Every entry of
  h, pi, mu and sv depends on ONE row of x only (`Cert.Mdn.headS_row`, `piS_row`), so the block of rows a grid point
  writes back is that block of the whole-array formula, and the 128 blocks tile the arrays. No law that needs
  finiteness is used: the two sides are the same sums, in the same order, so the precondition is never opened.

  The three frames: each tiled program runs its region under the pipeline's launch theorem with the later host
  lines appended (they write fresh buffers only); the reference is a straight line of host operations.
-/
import proofs.«118819_j81836306858381_1_alg».proof.Defs
import proofs.«118819_j81836306858381_1_alg».proof.Proof.Gen.Kernel
import proofs.«118819_j81836306858381_1_alg».proof.Proof.Gen.KernelIdeal
import proofs.«118819_j81836306858381_1_alg».proof.Proof.Gen.ReferenceIdeal
import proofs.«118819_j81836306858381_1_alg».proof.Proof.Gen.Pre_finite_inputs
import proofs.«118819_j81836306858381_1_alg».proof.Proof.FrameBits
import proofs.«118819_j81836306858381_1_alg».proof.Proof.KernelRun
import proofs.«118819_j81836306858381_1_alg».proof.Proof.KernelValue
import proofs.«118819_j81836306858381_1_alg».proof.Proof.KernelTail
import proofs.«118819_j81836306858381_1_alg».proof.Proof.TailsAgree
import proofs.«118819_j81836306858381_1_alg».proof.Proof.RefFrame
import proofs.«118819_j81836306858381_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level tiled program runs and leaves its arguments as launched. -/
theorem frame_k : Cert.frame_Kernel (hKernel := Cert.Kernel.Gen.facts) (hPre_finite_inputs := Cert.Pre_finite_inputs.Gen.facts) :=
  fun m ρ _ => Cert.Kernel.Fr.frame (F := Bits) m ρ

/-- So does its reading on the extended reals. -/
theorem frame_ki : Cert.frame_KernelIdeal (hKernelIdeal := Cert.KernelIdeal.Gen.facts) (hPre_finite_inputs := Cert.Pre_finite_inputs.Gen.facts) :=
  fun m ρ _ => Cert.KernelIdeal.Fr.frame (F := Ideal) m ρ

/-- The idealization rewrote nothing: the idealized program is the printed one read on the extended reals. -/
theorem preserves : Cert.preserves_Kernel_KernelIdeal := trivial

open Cert.Mdn in
/-- From memories agreeing on the nine arguments both programs end with the mixture weights at `piS`, the means at
    the reshaped dense head and the covariance matrices at the formatting of the reshaped dense head. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => piS (m := 131072) (k := 256) (n := 1024) (r := 32) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => shapeCast Cert.KernelIdeal.S131072x32x3 (headS (m := 131072) (k := 256) (n := 1024) (r := 96) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) Cert.KernelIdeal.Gen.shapeCasts_S131072x96_S131072x32x3,
    fun c => Cert.KernelIdeal.KT.tailK (F := Ideal) (shapeCast Cert.KernelIdeal.S131072x32x6 (headS (m := 131072) (k := 256) (n := 1024) (r := 192) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) Cert.KernelIdeal.Gen.shapeCasts_S131072x192_S131072x32x6), ?_, ?_⟩
  · -- the tiled program: the region's arrays are the whole-array formulas, the later lines the reshapes and the formatting
    exact (θ_run (Cert.KernelIdeal.defs (F := Ideal)) _ _).mono (fun r h c =>
      ⟨(h c).1.trans (Cert.KernelIdeal.KV.final9 m c),
        (h c).2.1.trans ((Cert.KernelIdeal.KT.tail_v1 m c).trans
          (congrArg (fun a => shapeCast Cert.KernelIdeal.S131072x32x3 a Cert.KernelIdeal.Gen.shapeCasts_S131072x96_S131072x32x3) (Cert.KernelIdeal.KV.final10 m c))),
        (h c).2.2.1.trans ((Cert.KernelIdeal.KT.tail_v65 m c).trans
          (congrArg (fun a => Cert.KernelIdeal.KT.tailK (F := Ideal) (shapeCast Cert.KernelIdeal.S131072x32x6 a Cert.KernelIdeal.Gen.shapeCasts_S131072x192_S131072x32x6)) (Cert.KernelIdeal.KV.final11 m c))),
        (h c).2.2.2⟩) (Cert.KernelIdeal.KR.run_named (F := Ideal) m ρ)
  · -- the reference: its stages are the same formulas, its formatting lines the same function
    refine (θ_run (Cert.ReferenceIdeal.defs (F := Ideal)) _ _).mono (fun r h c => ⟨(h c).1.trans ?_, (h c).2.1.trans ?_, (h c).2.2.1.trans ?_, (h c).2.2.2⟩)
      (Cert.ReferenceIdeal.RefValue.run (F := Ideal) m' ρ')
    · rw [(hagree c).1, (hagree c).2.1, (hagree c).2.2.1, (hagree c).2.2.2.1, (hagree c).2.2.2.2.1,
        Cert.ReferenceIdeal.RefValue.hid_eq, Cert.ReferenceIdeal.RefValue.piOf_eq]
      rfl
    · rw [(hagree c).1, (hagree c).2.1, (hagree c).2.2.1, (hagree c).2.2.2.2.2.1, (hagree c).2.2.2.2.2.2.1,
        Cert.ReferenceIdeal.RefValue.hid_eq, Cert.ReferenceIdeal.RefValue.muOf_eq]
      rfl
    · rw [(hagree c).1, (hagree c).2.1, (hagree c).2.2.1, (hagree c).2.2.2.2.2.2.2.1, (hagree c).2.2.2.2.2.2.2.2,
        Cert.ReferenceIdeal.RefValue.hid_eq, Cert.ReferenceIdeal.RefValue.svOf_eq]
      exact (Cert.Tails.tail_eq _).symm

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame, preserves, algebraic⟩

end Cert.Proof

end
